-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x384 : Shape := ⟨2, ![100000, 384]⟩
abbrev S800000 : Shape := ⟨1, ![800000]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x384 : S_.BroadcastsInDim S100000x384 (![] : Fin 0 → Fin S100000x384.rank)
  reducesTo_S100000x384_S_d0_1 : S100000x384.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part7 {F : FTy → Type} [FloatOps F] (main_arg12 : FVec F S256 .f32) (main_arg19 : FVec F S128 .f32) (main_v118 : IVec S_ 1) (main_cst_46 : FVec F S_ .f32) : IVec S_ 1 :=
  let main_v119 : FVec F S256 .f32 := broadcastInDim S256 ![] bcast_S_S256 main_cst_46
  let main_v120 : IVec S256 1 := cmpf .oge main_arg12 main_v119
  let main_c_47 : IVec S_ 1 := constantI S_ 1 1#1
  let main_v121 : IVec S_ 1 := (fun x v => Host.reduce IntOp.andi x v reducesTo_S256_S_d0 h_S_) main_v120 main_c_47
  let main_v122 : IVec S_ 1 := andi main_v118 main_v121
  let main_cst_48 : FVec F S_ .f32 := constant S_ .f32 0x00000000#32
  let main_v123 : FVec F S128 .f32 := broadcastInDim S128 ![] bcast_S_S128 main_cst_48
  let main_v124 : IVec S128 1 := cmpf .oge main_arg19 main_v123
  let main_c_49 : IVec S_ 1 := constantI S_ 1 1#1
  let main_v125 : IVec S_ 1 := (fun x v => Host.reduce IntOp.andi x v reducesTo_S128_S_d0 h_S_) main_v124 main_c_49
  let main_v126 : IVec S_ 1 := andi main_v122 main_v125
  main_v126

def fn_part6 {F : FTy → Type} [FloatOps F] (main_arg12 : FVec F S256 .f32) (main_arg19 : FVec F S128 .f32) (main_arg23 : FVec F S64 .f32) (main_arg24 : FVec F S64x32 .f32) (main_arg25 : FVec F S32 .f32) (main_v98 : IVec S_ 1) (main_v101 : IVec S128x64 1) (main_c_39 : IVec S_ 1) : IVec S_ 1 :=
  let main_v102 : IVec S_ 1 := (fun x v => Host.reduce IntOp.andi x v reducesTo_S128x64_S_d0_1 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x32 .f32 := Host.absf main_arg24
  let main_cst_42 : FVec F S_ .f32 := constant S_ .f32 0x7F800000#32
  let main_v110 : FVec F S64x32 .f32 := broadcastInDim S64x32 ![] bcast_S_S64x32 main_cst_42
  let main_v111 : IVec S64x32 1 := cmpf .olt main_v109 main_v110
  let main_c_43 : IVec S_ 1 := constantI S_ 1 1#1
  let main_v112 : IVec S_ 1 := (fun x v => Host.reduce IntOp.andi x v reducesTo_S64x32_S_d0_1 h_S_) main_v111 main_c_43
  let main_v113 : IVec S_ 1 := andi main_v108 main_v112
  let main_v114 : FVec F S32 .f32 := Host.absf main_arg25
  let main_cst_44 : FVec F S_ .f32 := constant S_ .f32 0x7F800000#32
  let main_v115 : FVec F S32 .f32 := broadcastInDim S32 ![] bcast_S_S32 main_cst_44
  let main_v116 : IVec S32 1 := cmpf .olt main_v114 main_v115
  let main_c_45 : IVec S_ 1 := constantI S_ 1 1#1
  let main_v117 : IVec S_ 1 := (fun x v => Host.reduce IntOp.andi x v reducesTo_S32_S_d0 h_S_) main_v116 main_c_45
  let main_v118 : IVec S_ 1 := andi main_v113 main_v117
  let main_cst_46 : FVec F S_ .f32 := constant S_ .f32 0x00000000#32
  fn_part7 (F := F) main_arg12 main_arg19 main_v118 main_cst_46

def fn_part5 {F : FTy → Type} [FloatOps F] (main_arg12 : FVec F S256 .f32) (main_arg19 : FVec F S128 .f32) (main_arg20 : FVec F S256x128 .f32) (main_arg21 : FVec F S128 .f32) (main_arg22 : FVec F S128x64 .f32) (main_arg23 : FVec F S64 .f32) (main_arg24 : FVec F S64x32 .f32) (main_arg25 : FVec F S32 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S256x128 .f32 := Host.absf main_arg20
  let main_cst_34 : FVec F S_ .f32 := constant S_ .f32 0x7F800000#32
  let main_v90 : FVec F S256x128 .f32 := broadcastInDim S256x128 ![] bcast_S_S256x128 main_cst_34
  let main_v91 : IVec S256x128 1 := cmpf .olt main_v89 main_v90
  let main_c_35 : IVec S_ 1 := constantI S_ 1 1#1
  let main_v92 : IVec S_ 1 := (fun x v => Host.reduce IntOp.andi x v reducesTo_S256x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x64 .f32 := Host.absf main_arg22
  let main_cst_38 : FVec F S_ .f32 := constant S_ .f32 0x7F800000#32
  let main_v100 : FVec F S128x64 .f32 := broadcastInDim S128x64 ![] bcast_S_S128x64 main_cst_38
  let main_v101 : IVec S128x64 1 := cmpf .olt main_v99 main_v100
  let main_c_39 : IVec S_ 1 := constantI S_ 1 1#1
  fn_part6 (F := F) main_arg12 main_arg19 main_arg23 main_arg24 main_arg25 main_v98 main_v101 main_c_39

def fn_part4 {F : FTy → Type} [FloatOps F] (main_arg12 : FVec F S256 .f32) (main_arg16 : FVec F S128 .f32) (main_arg17 : FVec F S128 .f32) (main_arg18 : FVec F S128 .f32) (main_arg19 : FVec F S128 .f32) (main_arg20 : FVec F S256x128 .f32) (main_arg21 : FVec F S128 .f32) (main_arg22 : FVec F S128x64 .f32) (main_arg23 : FVec F S64 .f32) (main_arg24 : FVec F S64x32 .f32) (main_arg25 : FVec F S32 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg12 main_arg19 main_arg20 main_arg21 main_arg22 main_arg23 main_arg24 main_arg25 main_v83 main_v84 main_cst_32

def fn_part3 {F : FTy → Type} [FloatOps F] (main_arg12 : FVec F S256 .f32) (main_arg13 : FVec F S256x128 .f32) (main_arg14 : FVec F S256x128 .f32) (main_arg15 : FVec F S128 .f32) (main_arg16 : FVec F S128 .f32) (main_arg17 : FVec F S128 .f32) (main_arg18 : FVec F S128 .f32) (main_arg19 : FVec F S128 .f32) (main_arg20 : FVec F S256x128 .f32) (main_arg21 : FVec F S128 .f32) (main_arg22 : FVec F S128x64 .f32) (main_arg23 : FVec F S64 .f32) (main_arg24 : FVec F S64x32 .f32) (main_arg25 : FVec F S32 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x128 .f32 := Host.absf main_arg13
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S256x128 .f32 := Host.absf main_arg14
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg12 main_arg16 main_arg17 main_arg18 main_arg19 main_arg20 main_arg21 main_arg22 main_arg23 main_arg24 main_arg25 main_v63 main_v67

def fn_part2 {F : FTy → Type} [FloatOps F] (main_arg9 : FVec F S256 .f32) (main_arg10 : FVec F S256 .f32) (main_arg11 : FVec F S256 .f32) (main_arg12 : FVec F S256 .f32) (main_arg13 : FVec F S256x128 .f32) (main_arg14 : FVec F S256x128 .f32) (main_arg15 : FVec F S128 .f32) (main_arg16 : FVec F S128 .f32) (main_arg17 : FVec F S128 .f32) (main_arg18 : FVec F S128 .f32) (main_arg19 : FVec F S128 .f32) (main_arg20 : FVec F S256x128 .f32) (main_arg21 : FVec F S128 .f32) (main_arg22 : FVec F S128x64 .f32) (main_arg23 : FVec F S64 .f32) (main_arg24 : FVec F S64x32 .f32) (main_arg25 : FVec F S32 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg6 : FVec F S128x256 .f32) (main_arg7 : FVec F S128x256 .f32) (main_arg8 : FVec F S256 .f32) (main_arg9 : FVec F S256 .f32) (main_arg10 : FVec F S256 .f32) (main_arg11 : FVec F S256 .f32) (main_arg12 : FVec F S256 .f32) (main_arg13 : FVec F S256x128 .f32) (main_arg14 : FVec F S256x128 .f32) (main_arg15 : FVec F S128 .f32) (main_arg16 : FVec F S128 .f32) (main_arg17 : FVec F S128 .f32) (main_arg18 : FVec F S128 .f32) (main_arg19 : FVec F S128 .f32) (main_arg20 : FVec F S256x128 .f32) (main_arg21 : FVec F S128 .f32) (main_arg22 : FVec F S128x64 .f32) (main_arg23 : FVec F S64 .f32) (main_arg24 : FVec F S64x32 .f32) (main_arg25 : FVec F S32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S100000x128 .f32) (main_arg1 : FVec F S100000x384 .f32) (main_arg2 : IVec S800000 32) (main_arg3 : IVec S800000 32) (main_arg4 : FVec F S512x128 .f32) (main_arg5 : FVec F S128 .f32) (main_arg6 : FVec F S128x256 .f32) (main_arg7 : FVec F S128x256 .f32) (main_arg8 : FVec F S256 .f32) (main_arg9 : FVec F S256 .f32) (main_arg10 : FVec F S256 .f32) (main_arg11 : FVec F S256 .f32) (main_arg12 : FVec F S256 .f32) (main_arg13 : FVec F S256x128 .f32) (main_arg14 : FVec F S256x128 .f32) (main_arg15 : FVec F S128 .f32) (main_arg16 : FVec F S128 .f32) (main_arg17 : FVec F S128 .f32) (main_arg18 : FVec F S128 .f32) (main_arg19 : FVec F S128 .f32) (main_arg20 : FVec F S256x128 .f32) (main_arg21 : FVec F S128 .f32) (main_arg22 : FVec F S128x64 .f32) (main_arg23 : FVec F S64 .f32) (main_arg24 : FVec F S64x32 .f32) (main_arg25 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x384 .f32 := Host.absf main_arg1
  let main_cst_0 : FVec F S_ .f32 := constant S_ .f32 0x7F800000#32
  let main_v5 : FVec F S100000x384 .f32 := broadcastInDim S100000x384 ![] bcast_S_S100000x384 main_cst_0
  let main_v6 : IVec S100000x384 1 := cmpf .olt main_v4 main_v5
  let main_c_1 : IVec S_ 1 := constantI S_ 1 1#1
  let main_v7 : IVec S_ 1 := (fun x v => Host.reduce IntOp.andi x v reducesTo_S100000x384_S_d0_1 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S100000x128 : Shape := ⟨2, ![100000, 128]⟩
abbrev S100000x384 : Shape := ⟨2, ![100000, 384]⟩
abbrev S800000 : Shape := ⟨1, ![800000]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S1x128 : Shape := ⟨2, ![1, 128]⟩
abbrev S5000x128 : Shape := ⟨2, ![5000, 128]⟩
abbrev S5000x384 : Shape := ⟨2, ![5000, 384]⟩
abbrev S5000x512 : Shape := ⟨2, ![5000, 512]⟩
abbrev S1 : Shape := ⟨1, ![1]⟩
abbrev S1x1 : Shape := ⟨2, ![1, 1]⟩
abbrev S800000x128 : Shape := ⟨2, ![800000, 128]⟩
abbrev S1x256 : Shape := ⟨2, ![1, 256]⟩
abbrev S100000x256 : Shape := ⟨2, ![100000, 256]⟩
abbrev S5000x256 : Shape := ⟨2, ![5000, 256]⟩
abbrev S800000x256 : Shape := ⟨2, ![800000, 256]⟩
abbrev S1x64 : Shape := ⟨2, ![1, 64]⟩
abbrev S1x32 : Shape := ⟨2, ![1, 32]⟩
abbrev S100000x32 : Shape := ⟨2, ![100000, 32]⟩
abbrev S5000x32 : Shape := ⟨2, ![5000, 32]⟩
abbrev S5000x64 : Shape := ⟨2, ![5000, 64]⟩

abbrev nBuf : Space → Nat
  | .hbm => 114
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S100000x384, .f32⟩
  | .hbm, ⟨2, _⟩ => ⟨S800000, .i32⟩
  | .hbm, ⟨3, _⟩ => ⟨S800000, .i32⟩
  | .hbm, ⟨4, _⟩ => ⟨S512x128, .f32⟩
  | .hbm, ⟨5, _⟩ => ⟨S128, .f32⟩
  | .hbm, ⟨6, _⟩ => ⟨S128x256, .f32⟩
  | .hbm, ⟨7, _⟩ => ⟨S128x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256x128, .f32⟩
  | .hbm, ⟨14, _⟩ => ⟨S256x128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S256x128, .f32⟩
  | .hbm, ⟨21, _⟩ => ⟨S128, .f32⟩
  | .hbm, ⟨22, _⟩ => ⟨S128x64, .f32⟩
  | .hbm, ⟨23, _⟩ => ⟨S64, .f32⟩
  | .hbm, ⟨24, _⟩ => ⟨S64x32, .f32⟩
  | .hbm, ⟨25, _⟩ => ⟨S32, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S100000, .f32⟩
  | .hbm, ⟨30, _⟩ => ⟨S800000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S1, .i32⟩
  | .hbm, ⟨50, _⟩ => ⟨S_, .i32⟩
  | .hbm, ⟨51, _⟩ => ⟨S800000x1, .i32⟩
  | .hbm, ⟨52, _⟩ => ⟨S800000x1, .i1⟩
  | .hbm, ⟨53, _⟩ => ⟨S1x1, .i32⟩
  | .hbm, ⟨54, _⟩ => ⟨S800000x1, .i32⟩
  | .hbm, ⟨55, _⟩ => ⟨S800000x1, .i1⟩
  | .hbm, ⟨56, _⟩ => ⟨S800000x1, .i1⟩
  | .hbm, ⟨57, _⟩ => ⟨S_, .i1⟩
  | .hbm, ⟨58, _⟩ => ⟨S800000, .i1⟩
  | .hbm, ⟨59, _⟩ => ⟨S800000x128, .f32⟩
  | .hbm, ⟨60, _⟩ => ⟨S800000x128, .i1⟩
  | .hbm, ⟨61, _⟩ => ⟨S_, .f32⟩
  | .hbm, ⟨62, _⟩ => ⟨S800000x128, .f32⟩
  | .hbm, ⟨63, _⟩ => ⟨S800000x128, .f32⟩
  | .hbm, ⟨64, _⟩ => ⟨S_, .f32⟩
  | .hbm, ⟨65, _⟩ => ⟨S100000x128, .f32⟩
  | .hbm, ⟨66, _⟩ => ⟨S800000x1, .i32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S1x256, .f32⟩
  | .hbm, ⟨71, _⟩ => ⟨S1x256, .f32⟩
  | .hbm, ⟨72, _⟩ => ⟨S1x256, .f32⟩
  | .hbm, ⟨73, _⟩ => ⟨S1x256, .f32⟩
  | .hbm, ⟨74, _⟩ => ⟨S1x256, .f32⟩
  | .hbm, ⟨75, _⟩ => ⟨S100000x256, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S1, .i32⟩
  | .hbm, ⟨85, _⟩ => ⟨S_, .i32⟩
  | .hbm, ⟨86, _⟩ => ⟨S800000x1, .i32⟩
  | .hbm, ⟨87, _⟩ => ⟨S800000x1, .i1⟩
  | .hbm, ⟨88, _⟩ => ⟨S1x1, .i32⟩
  | .hbm, ⟨89, _⟩ => ⟨S800000x1, .i32⟩
  | .hbm, ⟨90, _⟩ => ⟨S800000x1, .i1⟩
  | .hbm, ⟨91, _⟩ => ⟨S800000x1, .i1⟩
  | .hbm, ⟨92, _⟩ => ⟨S_, .i1⟩
  | .hbm, ⟨93, _⟩ => ⟨S800000, .i1⟩
  | .hbm, ⟨94, _⟩ => ⟨S800000x256, .f32⟩
  | .hbm, ⟨95, _⟩ => ⟨S800000x256, .i1⟩
  | .hbm, ⟨96, _⟩ => ⟨S_, .f32⟩
  | .hbm, ⟨97, _⟩ => ⟨S800000x256, .f32⟩
  | .hbm, ⟨98, _⟩ => ⟨S800000x256, .f32⟩
  | .hbm, ⟨99, _⟩ => ⟨S_, .f32⟩
  | .hbm, ⟨100, _⟩ => ⟨S100000x256, .f32⟩
  | .hbm, ⟨101, _⟩ => ⟨S800000x1, .i32⟩
  | .hbm, ⟨102, _⟩ => ⟨S100000x256, .f32⟩
  | .hbm, ⟨103, _⟩ => ⟨S100000x256, .f32⟩
  | .hbm, ⟨104, _⟩ => ⟨S100000x256, .f32⟩
  | .hbm, ⟨105, _⟩ => ⟨S1x128, .f32⟩
  | .hbm, ⟨106, _⟩ => ⟨S1x128, .f32⟩
  | .hbm, ⟨107, _⟩ => ⟨S1x128, .f32⟩
  | .hbm, ⟨108, _⟩ => ⟨S1x128, .f32⟩
  | .hbm, ⟨109, _⟩ => ⟨S1x128, .f32⟩
  | .hbm, ⟨110, _⟩ => ⟨S1x128, .f32⟩
  | .hbm, ⟨111, _⟩ => ⟨S1x64, .f32⟩
  | .hbm, ⟨112, _⟩ => ⟨S1x32, .f32⟩
  | .hbm, ⟨113, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S5000x384, .f32⟩
  | .local _ .vmem, ⟨3, _⟩ => ⟨S5000x384, .f32⟩
  | .local _ .vmem, ⟨4, _⟩ => ⟨S512x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x256, .f32⟩
  | .local _ .vmem, ⟨13, _⟩ => ⟨S128x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S5000x256, .f32⟩
  | .local _ .vmem, ⟨24, _⟩ => ⟨S5000x256, .f32⟩
  | .local _ .vmem, ⟨25, _⟩ => ⟨S5000x128, .f32⟩
  | .local _ .vmem, ⟨26, _⟩ => ⟨S5000x128, .f32⟩
  | .local _ .vmem, ⟨27, _⟩ => ⟨S256x128, .f32⟩
  | .local _ .vmem, ⟨28, _⟩ => ⟨S256x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S256x128, .f32⟩
  | .local _ .vmem, ⟨35, _⟩ => ⟨S1x128, .f32⟩
  | .local _ .vmem, ⟨36, _⟩ => ⟨S128x64, .f32⟩
  | .local _ .vmem, ⟨37, _⟩ => ⟨S1x64, .f32⟩
  | .local _ .vmem, ⟨38, _⟩ => ⟨S64x32, .f32⟩
  | .local _ .vmem, ⟨39, _⟩ => ⟨S1x32, .f32⟩
  | .local _ .vmem, ⟨40, _⟩ => ⟨S5000x32, .f32⟩
  | .local _ .vmem, ⟨41, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_cst_0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_v4 : Ref sig .tc := ⟨.hbm, 33, rfl⟩
abbrev main_v5 : Ref sig .tc := ⟨.hbm, 34, rfl⟩
abbrev main_cst_2 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_call0_c : Ref sig .tc := ⟨.hbm, 41, rfl⟩
abbrev main_call0_v0 : Ref sig .tc := ⟨.hbm, 42, rfl⟩
abbrev main_call0_v1 : Ref sig .tc := ⟨.hbm, 43, rfl⟩
abbrev main_call0_c_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_c_1 : Ref sig .tc := ⟨.hbm, 49, rfl⟩
abbrev main_call0_c_2 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_3 : Ref sig .tc := ⟨.hbm, 57, rfl⟩
abbrev main_call0_v12 : Ref sig .tc := ⟨.hbm, 58, rfl⟩
abbrev main_call0_v13 : Ref sig .tc := ⟨.hbm, 59, rfl⟩
abbrev main_call0_v14 : Ref sig .tc := ⟨.hbm, 60, rfl⟩
abbrev main_call0_cst : Ref sig .tc := ⟨.hbm, 61, rfl⟩
abbrev main_call0_v15 : Ref sig .tc := ⟨.hbm, 62, rfl⟩
abbrev main_v11 : Ref sig .tc := ⟨.hbm, 63, rfl⟩
abbrev main_cst_3 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_call1_c : Ref sig .tc := ⟨.hbm, 76, rfl⟩
abbrev main_call1_v0 : Ref sig .tc := ⟨.hbm, 77, rfl⟩
abbrev main_call1_v1 : Ref sig .tc := ⟨.hbm, 78, rfl⟩
abbrev main_call1_c_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_c_1 : Ref sig .tc := ⟨.hbm, 84, rfl⟩
abbrev main_call1_c_2 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_c_3 : Ref sig .tc := ⟨.hbm, 92, rfl⟩
abbrev main_call1_v12 : Ref sig .tc := ⟨.hbm, 93, rfl⟩
abbrev main_call1_v13 : Ref sig .tc := ⟨.hbm, 94, rfl⟩
abbrev main_call1_v14 : Ref sig .tc := ⟨.hbm, 95, rfl⟩
abbrev main_call1_cst : Ref sig .tc := ⟨.hbm, 96, rfl⟩
abbrev main_call1_v15 : Ref sig .tc := ⟨.hbm, 97, rfl⟩
abbrev main_v23 : Ref sig .tc := ⟨.hbm, 98, rfl⟩
abbrev main_cst_4 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg11_0 : Ref sig .tc := ⟨.vmem, 35, rfl⟩
abbrev cc2_stg12_0 : Ref sig .tc := ⟨.vmem, 36, rfl⟩
abbrev cc2_stg13_0 : Ref sig .tc := ⟨.vmem, 37, rfl⟩
abbrev cc2_stg14_0 : Ref sig .tc := ⟨.vmem, 38, rfl⟩
abbrev cc2_stg15_0 : Ref sig .tc := ⟨.vmem, 39, rfl⟩
abbrev cc2_stg16_0 : Ref sig .tc := ⟨.vmem, 40, rfl⟩
abbrev cc2_stg16_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35
abbrev cc2_sem12_0 : DmaSem sig := 36
abbrev cc2_sem13_0 : DmaSem sig := 37
abbrev cc2_sem14_0 : DmaSem sig := 38
abbrev cc2_sem15_0 : DmaSem sig := 39
abbrev cc2_sem16_0 : DmaSem sig := 40
abbrev cc2_sem16_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S256x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S64x32 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1x32 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 2 → Memref sig .tc .vmem S5000x32 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S5000x384_S5000x384_0_0 : ∀ a, (![0, 0] : Fin 2 → Nat) a + S5000x384.size a ≤ S5000x384.size a
  h_S5000x384 : 0 < S5000x384.numel
  concatenates_S5000x128_S5000x384_S5000x512_d1 : Shape.Concatenates [S5000x128, S5000x384] S5000x512 1
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S256_S1x256 : S256.ShapeCasts S1x256
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  shapeCasts_S64_S1x64 : S64.ShapeCasts S1x64
  shapeCasts_S32_S1x32 : S32.ShapeCasts S1x32
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  concatenates_S5000x128_S5000x128_S5000x256_d1 : Shape.Concatenates [S5000x128, S5000x128] S5000x256 1
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S100000_S800000x1_S800000_n_0_0_1_wf : ScatterDims.WF S100000 S800000x1 S800000 [] [0] [0] 1
  dot_S5000x512_S512x128_S5000x128_1_0_0_1_n_n_wf : DotDims.WF S5000x512 S512x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x256_S5000x256_1_0_0_1_n_n_wf : DotDims.WF S5000x128 S128x256 S5000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S5000x256_S256x128_S5000x128_1_0_0_1_n_n_wf : DotDims.WF S5000x256 S256x128 S5000x128 [1] [0] [0] [1] [] []
  dot_S5000x128_S128x64_S5000x64_1_0_0_1_n_n_wf : DotDims.WF S5000x128 S128x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x384.size a ≤ S100000x384.size a
  hwx0_1 : ∀ i : grid0.Coords, EltTy.bits .f32 = 32 ∨ (Rect.block (s := S100000x384) S5000x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x256.size a ≤ S100000x256.size a
  hwx1_9 : ∀ i : grid1.Coords, EltTy.bits .f32 = 32 ∨ (Rect.block (s := S100000x256) S5000x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S100000x256.size a
  hwx2_1 : ∀ i : grid2.Coords, EltTy.bits .f32 = 32 ∨ (Rect.block (s := S100000x256) S5000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S256x128.size a ≤ S256x128.size a
  hwx2_10 : ∀ i : grid2.Coords, EltTy.bits .f32 = 32 ∨ (Rect.block (s := S256x128) S256x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128x64.size a ≤ S128x64.size a
  hwx2_12 : ∀ i : grid2.Coords, EltTy.bits .f32 = 32 ∨ (Rect.block (s := S128x64) S128x64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x64.size a ≤ S1x64.size a
  hwx2_13 : ∀ i : grid2.Coords, EltTy.bits .f32 = 32 ∨ (Rect.block (s := S1x64) S1x64.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S64x32.size a ≤ S64x32.size a
  hwx2_14 : ∀ i : grid2.Coords, EltTy.bits .f32 = 32 ∨ (Rect.block (s := S64x32) S64x32.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S1x32.size a ≤ S1x32.size a
  hwx2_15 : ∀ i : grid2.Coords, EltTy.bits .f32 = 32 ∨ (Rect.block (s := S1x32) S1x32.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S5000x32.size a ≤ S100000x32.size a
  hwx2_16 : ∀ i : grid2.Coords, EltTy.bits .f32 = 32 ∨ (Rect.block (s := S100000x32) S5000x32.size (cc2_transform_16 i) (hinb2_16 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v10) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v21) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v22) S5000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v22) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v30) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v31) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v32) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v33) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg20) S256x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v34) S1x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg22) S128x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v35) S1x64.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_arg24) S64x32.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v36) S1x32.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v37) S5000x32.size cc2_transform_16 reads2_16 true false 2 stage2_16 sem2_16
    hrank2 hreads2_16 hinb2_16 nbuf2_16 (Memref.isWhole_whole _) hwx2_16 hstage2_16

abbrev win2 : Fin 17 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | ⟨_ + 17, h⟩ => absurd h (Nat.not_lt.2 (Nat.le_add_left _ _))
abbrev spec2 : Fin 17 → Pipeline.WinSpec sig grid2.rank := fun w => (win2 w).toWinSpec

class Facts : Prop extends Facts₀ where

variable [Facts]
-- ==== ReferenceIdeal.lean ====
abbrev S100000x128 : Shape := ⟨2, ![100000, 128]⟩
abbrev S100000x384 : Shape := ⟨2, ![100000, 384]⟩
abbrev S800000 : Shape := ⟨1, ![800000]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000x512 : Shape := ⟨2, ![100000, 512]⟩
abbrev S1x128 : Shape := ⟨2, ![1, 128]⟩
abbrev S_ : Shape := ⟨0, ![]⟩
abbrev S100000x256 : Shape := ⟨2, ![100000, 256]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S100000 : Shape := ⟨1, ![100000]⟩
abbrev S100000x1 : Shape := ⟨2, ![100000, 1]⟩
abbrev S1x256 : Shape := ⟨2, ![1, 256]⟩
abbrev S800000x256 : Shape := ⟨2, ![800000, 256]⟩
abbrev S100000x64 : Shape := ⟨2, ![100000, 64]⟩
abbrev S1x64 : Shape := ⟨2, ![1, 64]⟩
abbrev S100000x32 : Shape := ⟨2, ![100000, 32]⟩
abbrev S1x32 : Shape := ⟨2, ![1, 32]⟩

abbrev nBuf : Space → Nat
  | .hbm => 177
  | .vmem => 0
  | .smem => 0
  | _ => 0

abbrev hbmTy0_0 (i : Nat) : BufTy := match i % 128 with
  | 0 => ⟨S100000x128, .f32⟩
  | 1 => ⟨S100000x384, .f32⟩
  | 2 => ⟨S800000, .i32⟩
  | 3 => ⟨S800000, .i32⟩
  | 4 => ⟨S512x128, .f32⟩
  | 5 => ⟨S128, .f32⟩
  | 6 => ⟨S128x256, .f32⟩
  | 7 => ⟨S128x256, .f32⟩
  | 8 => ⟨S256, .f32⟩
  | 9 => ⟨S256, .f32⟩
  | 10 => ⟨S256, .f32⟩
  | 11 => ⟨S256, .f32⟩
  | 12 => ⟨S256, .f32⟩
  | 13 => ⟨S256x128, .f32⟩
  | 14 => ⟨S256x128, .f32⟩
  | 15 => ⟨S128, .f32⟩
  | 16 => ⟨S128, .f32⟩
  | 17 => ⟨S128, .f32⟩
  | 18 => ⟨S128, .f32⟩
  | 19 => ⟨S128, .f32⟩
  | 20 => ⟨S256x128, .f32⟩
  | 21 => ⟨S128, .f32⟩
  | 22 => ⟨S128x64, .f32⟩
  | 23 => ⟨S64, .f32⟩
  | 24 => ⟨S64x32, .f32⟩
  | 25 => ⟨S32, .f32⟩
  | 26 => ⟨S100000x512, .f32⟩
  | 27 => ⟨S100000x128, .f32⟩
  | 28 => ⟨S1x128, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S100000x256, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S1, .i32⟩
  | 44 => ⟨S_, .i32⟩
  | 45 => ⟨S800000x1, .i32⟩
  | 46 => ⟨S800000x1, .i1⟩
  | 47 => ⟨S1x1, .i32⟩
  | 48 => ⟨S800000x1, .i32⟩
  | 49 => ⟨S800000x1, .i1⟩
  | 50 => ⟨S800000x1, .i1⟩
  | 51 => ⟨S_, .i1⟩
  | 52 => ⟨S800000, .i1⟩
  | 53 => ⟨S800000x128, .f32⟩
  | 54 => ⟨S800000x128, .i1⟩
  | 55 => ⟨S_, .f32⟩
  | 56 => ⟨S800000x128, .f32⟩
  | 57 => ⟨S800000x128, .f32⟩
  | 58 => ⟨S_, .f32⟩
  | 59 => ⟨S100000x128, .f32⟩
  | 60 => ⟨S800000x1, .i32⟩
  | 61 => ⟨S100000x128, .f32⟩
  | 62 => ⟨S_, .f32⟩
  | 63 => ⟨S800000, .f32⟩
  | 64 => ⟨S_, .f32⟩
  | 65 => ⟨S100000, .f32⟩
  | 66 => ⟨S800000x1, .i32⟩
  | 67 => ⟨S100000, .f32⟩
  | 68 => ⟨S_, .f32⟩
  | 69 => ⟨S100000, .f32⟩
  | 70 => ⟨S100000, .f32⟩
  | 71 => ⟨S100000x1, .f32⟩
  | 72 => ⟨S100000x128, .f32⟩
  | 73 => ⟨S100000x128, .f32⟩
  | 74 => ⟨S100000x256, .f32⟩
  | 75 => ⟨S100000x256, .f32⟩
  | 76 => ⟨S1x256, .f32⟩
  | 77 => ⟨S100000x256, .f32⟩
  | 78 => ⟨S100000x256, .f32⟩
  | 79 => ⟨S1x256, .f32⟩
  | 80 => ⟨S100000x256, .f32⟩
  | 81 => ⟨S100000x256, .f32⟩
  | 82 => ⟨S_, .f32⟩
  | 83 => ⟨S256, .f32⟩
  | 84 => ⟨S256, .f32⟩
  | 85 => ⟨S256, .f32⟩
  | 86 => ⟨S256, .f32⟩
  | 87 => ⟨S1x256, .f32⟩
  | 88 => ⟨S100000x256, .f32⟩
  | 89 => ⟨S100000x256, .f32⟩
  | 90 => ⟨S1x256, .f32⟩
  | 91 => ⟨S100000x256, .f32⟩
  | 92 => ⟨S100000x256, .f32⟩
  | 93 => ⟨S_, .f32⟩
  | 94 => ⟨S100000x256, .f32⟩
  | 95 => ⟨S100000x256, .f32⟩
  | 96 => ⟨S100000x128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S1, .i32⟩
  | 106 => ⟨S_, .i32⟩
  | 107 => ⟨S800000x1, .i32⟩
  | 108 => ⟨S800000x1, .i1⟩
  | 109 => ⟨S1x1, .i32⟩
  | 110 => ⟨S800000x1, .i32⟩
  | 111 => ⟨S800000x1, .i1⟩
  | 112 => ⟨S800000x1, .i1⟩
  | 113 => ⟨S_, .i1⟩
  | 114 => ⟨S800000, .i1⟩
  | 115 => ⟨S800000x256, .f32⟩
  | 116 => ⟨S800000x256, .i1⟩
  | 117 => ⟨S_, .f32⟩
  | 118 => ⟨S800000x256, .f32⟩
  | 119 => ⟨S800000x256, .f32⟩
  | 120 => ⟨S_, .f32⟩
  | 121 => ⟨S100000x256, .f32⟩
  | 122 => ⟨S800000x1, .i32⟩
  | 123 => ⟨S100000x256, .f32⟩
  | 124 => ⟨S_, .f32⟩
  | 125 => ⟨S800000, .f32⟩
  | 126 => ⟨S_, .f32⟩
  | 127 => ⟨S100000, .f32⟩
  | _ => ⟨S100000x128, .f32⟩

abbrev hbmTy0_1 (i : Nat) : BufTy := match i % 128 with
  | 0 => ⟨S800000x1, .i32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x256, .f32⟩
  | 7 => ⟨S100000x256, .f32⟩
  | 8 => ⟨S100000x128, .f32⟩
  | 9 => ⟨S100000x128, .f32⟩
  | 10 => ⟨S1x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S128, .f32⟩
  | 18 => ⟨S128, .f32⟩
  | 19 => ⟨S128, .f32⟩
  | 20 => ⟨S128, .f32⟩
  | 21 => ⟨S1x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S100000x256, .f32⟩
  | 31 => ⟨S100000x128, .f32⟩
  | 32 => ⟨S1x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S100000x64, .f32⟩
  | 39 => ⟨S1x64, .f32⟩
  | 40 => ⟨S100000x64, .f32⟩
  | 41 => ⟨S100000x64, .f32⟩
  | 42 => ⟨S_, .f32⟩
  | 43 => ⟨S100000x64, .f32⟩
  | 44 => ⟨S100000x64, .f32⟩
  | 45 => ⟨S100000x32, .f32⟩
  | 46 => ⟨S1x32, .f32⟩
  | 47 => ⟨S100000x32, .f32⟩
  | 48 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_call0_cst : Ref sig .tc := ⟨.hbm, 31, rfl⟩
abbrev main_call0_v0 : Ref sig .tc := ⟨.hbm, 32, rfl⟩
abbrev main_v5 : Ref sig .tc := ⟨.hbm, 33, rfl⟩
abbrev main_v6 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v7 : Ref sig .tc := ⟨.hbm, 57, rfl⟩
abbrev main_cst : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_cst_0 : Ref sig .tc := ⟨.hbm, 62, rfl⟩
abbrev main_v11 : Ref sig .tc := ⟨.hbm, 63, rfl⟩
abbrev main_cst_1 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_cst_2 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_cst_3 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_call2_cst : Ref sig .tc := ⟨.hbm, 93, rfl⟩
abbrev main_call2_v0 : Ref sig .tc := ⟨.hbm, 94, rfl⟩
abbrev main_v38 : Ref sig .tc := ⟨.hbm, 95, rfl⟩
abbrev main_v39 : Ref sig .tc := ⟨.hbm, 96, rfl⟩
abbrev main_call3_c : Ref sig .tc := ⟨.hbm, 97, rfl⟩
abbrev main_call3_v0 : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_c_1 : Ref sig .tc := ⟨.hbm, 105, rfl⟩
abbrev main_call3_c_2 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_3 : Ref sig .tc := ⟨.hbm, 113, rfl⟩
abbrev main_call3_v12 : Ref sig .tc := ⟨.hbm, 114, rfl⟩
abbrev main_call3_v13 : Ref sig .tc := ⟨.hbm, 115, rfl⟩
abbrev main_call3_v14 : Ref sig .tc := ⟨.hbm, 116, rfl⟩
abbrev main_call3_cst : Ref sig .tc := ⟨.hbm, 117, rfl⟩
abbrev main_call3_v15 : Ref sig .tc := ⟨.hbm, 118, rfl⟩
abbrev main_v40 : Ref sig .tc := ⟨.hbm, 119, rfl⟩
abbrev main_cst_4 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_cst_5 : Ref sig .tc := ⟨.hbm, 124, rfl⟩
abbrev main_v44 : Ref sig .tc := ⟨.hbm, 125, rfl⟩
abbrev main_cst_6 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_cst_7 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_cst_8 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_call4_cst : Ref sig .tc := ⟨.hbm, 155, rfl⟩
abbrev main_call4_v0 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_call5_cst : Ref sig .tc := ⟨.hbm, 163, rfl⟩
abbrev main_call5_v0 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_call6_cst : Ref sig .tc := ⟨.hbm, 170, rfl⟩
abbrev main_call6_v0 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩

abbrev nD : Nat := 1
abbrev τ : Topo := Topo.v7x

variable {F : FTy → Type} [FloatOps F]

class Facts₀ : Prop where
  concatenates_S100000x128_S100000x384_S100000x512_d1 : Shape.Concatenates [S100000x128, S100000x384] S100000x512 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S256 : S_.BroadcastsInDim S256 (![] : Fin 0 → Fin S256.rank)
  bcast_S_S100000x256 : S_.BroadcastsInDim S100000x256 (![] : Fin 0 → Fin S100000x256.rank)
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S100000x1_S100000x256_0_1 : S100000x1.BroadcastsInDim S100000x256 (![0, 1] : Fin 2 → Fin S100000x256.rank)
  bcast_S_S128 : S_.BroadcastsInDim S128 (![] : Fin 0 → Fin S128.rank)
  concatenates_S100000x128_S100000x128_S100000x256_d1 : Shape.Concatenates [S100000x128, S100000x128] S100000x256 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x512_S512x128_S100000x128_1_0_0_1_n_n_wf : DotDims.WF S100000x512 S512x128 S100000x128 [1] [0] [0] [1] [] []
  dot_S100000x128_S128x256_S100000x256_1_0_0_1_n_n_wf : DotDims.WF S100000x128 S128x256 S100000x256 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x256_S256x128_S100000x128_1_0_0_1_n_n_wf : DotDims.WF S100000x256 S256x128 S100000x128 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x128_S128x64_S100000x64_1_0_0_1_n_n_wf : DotDims.WF S100000x128 S128x64 S100000x64 [1] [0] [0] [1] [] []
  dot_S100000x64_S64x32_S100000x32_1_0_0_1_n_n_wf : DotDims.WF S100000x64 S64x32 S100000x32 [1] [0] [0] [1] [] []

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KerRun.lean ====
/- The run of the idealized kernel program with its result named.

   The program is three launched regions among five stretches of host operations.  Its generated frame proves
   that every weakly fair execution ends with the twenty-six argument arrays as launched; the same launch
   argument also names the result array: when the last region is left, every unscoped buffer holds the last
   boundary's contents `Gen.W8`, and the result buffer is one of them.  `W8_out` then says that the result
   buffer at that boundary is what the last region's write-backs leave in its output window's array. -/
import proofs.«138145_j65584150610482_1_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer at the last boundary is the array of the last region's output window (window 16) after
    all of the region's write-backs. -/
theorem W8_out (c : Dev nD) :
    W8 m ρ c (Proc.devRef .tc main_v37) = (dat2 (V7 m ρ) c).arrAt 16 cfg2.N :=
  W8_arr m ρ c 16

set_option backward.isDefEq.respectTransparency.types false in
/-- Every weakly fair execution of the program terminates without a fault; at the end the result buffer holds
    the last boundary's contents and every argument array is as launched. -/
theorem run : θ_run defs (onTc (τ := τ) (main (F := F))) ⟨m, fun _ => 0, ρ⟩ (fun r => ∀ c : Dev nD,
      r.2.mem ((c.tc : Thread nD τ).loc main_v37) = W8 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v37 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c),
       (h c _ (mem_uc main_arg22 (by decide))).trans (W8_main_arg22 m ρ c),
       (h c _ (mem_uc main_arg23 (by decide))).trans (W8_main_arg23 m ρ c),
       (h c _ (mem_uc main_arg24 (by decide))).trans (W8_main_arg24 m ρ c),
       (h c _ (mem_uc main_arg25 (by decide))).trans (W8_main_arg25 m ρ c)⟩)

end Cert.KernelIdeal.KerRun

end
-- ==== Proof.KerFoldWalk.lean ====
/- Walking a buffer back through the fold of buffer contents at the segment boundaries of the idealized kernel
   program.  A stretch of host operations changes only the buffers its operations write, so any other buffer
   holds after the stretch what it held before (`keepK`); a launched region changes only its output window's
   array, so an input window's array and every buffer that is no window hold at the exit what they held at the
   entry.  `wrK` lists the buffers the K-th stretch writes. -/
import proofs.«138145_j65584150610482_1_alg».proof.Proof.Gen.KernelIdeal.Frame

set_option maxRecDepth 16384

noncomputable section

namespace Cert.KernelIdeal.KerFold

open Idealize.ShloMosaic Idealize.ShloMosaic.TcCoe Idealize.SL.Sem
open Idealize.ShloMosaic.Pipeline (Dat)
open Cert.KernelIdeal.Gen

variable {F : FTy → Type} [FloatOps F]
variable (m : (ℓ : Loc nD τ sig) → Buf (Elt F) ℓ) (ρ : Dev nD → PrngReg) (c : Dev nD)

/-- The buffers written by the stretch `hostOps0`. -/
abbrev wr0 : List (Ref sig .tc) := [main_cst, main_v0, main_cst_0, main_v1, main_v2, main_v3, main_cst_1, main_v4, main_v5, main_cst_2, main_v6, main_v7, main_v8, main_v9]
theorem wr0_sub : (hostOps0 : List (HloOp τ sig (Elt F))).Forall fun op => op.writes ⊆ ((wr0).map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- A buffer the stretch `hostOps0` does not write holds after it what it held before. -/
theorem keep1 {r : Ref sig .tc} (hr : r ∉ wr0) :
    W1 m ρ c (Proc.devRef .tc r) = W0 m ρ c (Proc.devRef .tc r) :=
  StableHlo.after_of_writes_sub (hostOps0 : List (HloOp τ sig (Elt F))) _ wr0_sub hr

/-- The buffers written by the stretch `hostOps1`. -/
abbrev wr1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v11]
theorem wr1_sub : (hostOps1 : List (HloOp τ sig (Elt F))).Forall fun op => op.writes ⊆ ((wr1).map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- A buffer the stretch `hostOps1` does not write holds after it what it held before. -/
theorem keep3 {r : Ref sig .tc} (hr : r ∉ wr1) :
    W3 m ρ c (Proc.devRef .tc r) = W2 m ρ c (Proc.devRef .tc r) :=
  StableHlo.after_of_writes_sub (hostOps1 : List (HloOp τ sig (Elt F))) _ wr1_sub hr

/-- The buffers written by the stretch `hostOps1_1`. -/
abbrev wr1_1 : List (Ref sig .tc) := [main_cst_3, main_v12, main_v13, main_v14, main_v15, main_v16, main_v17, main_v18, main_v19, main_v20, main_v21]
theorem wr1_1_sub : (hostOps1_1 : List (HloOp τ sig (Elt F))).Forall fun op => op.writes ⊆ ((wr1_1).map (Proc.devRef (τ := τ) .tc)).toFinset := by
  simp only [hostOps1_1, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- A buffer the stretch `hostOps1_1` does not write holds after it what it held before. -/
theorem keep4 {r : Ref sig .tc} (hr : r ∉ wr1_1) :
    W4 m ρ c (Proc.devRef .tc r) = W3 m ρ c (Proc.devRef .tc r) :=
  StableHlo.after_of_writes_sub (hostOps1_1 : List (HloOp τ sig (Elt F))) _ wr1_1_sub hr

/-- The buffers written by the stretch `hostOps2`. -/
abbrev wr2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v23]
theorem wr2_sub : (hostOps2 : List (HloOp τ sig (Elt F))).Forall fun op => op.writes ⊆ ((wr2).map (Proc.devRef (τ := τ) .tc)).toFinset := by
  simp only [hostOps2, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- A buffer the stretch `hostOps2` does not write holds after it what it held before. -/
theorem keep6 {r : Ref sig .tc} (hr : r ∉ wr2) :
    W6 m ρ c (Proc.devRef .tc r) = W5 m ρ c (Proc.devRef .tc r) :=
  StableHlo.after_of_writes_sub (hostOps2 : List (HloOp τ sig (Elt F))) _ wr2_sub hr

/-- The buffers written by the stretch `hostOps2_1`. -/
abbrev wr2_1 : List (Ref sig .tc) := [main_cst_4, main_v24, main_v25, main_v26, main_v27, main_v28, main_v29, main_v30, main_v31, main_v32, main_v33, main_v34, main_v35, main_v36]
theorem wr2_1_sub : (hostOps2_1 : List (HloOp τ sig (Elt F))).Forall fun op => op.writes ⊆ ((wr2_1).map (Proc.devRef (τ := τ) .tc)).toFinset := by
  simp only [hostOps2_1, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- A buffer the stretch `hostOps2_1` does not write holds after it what it held before. -/
theorem keep7 {r : Ref sig .tc} (hr : r ∉ wr2_1) :
    W7 m ρ c (Proc.devRef .tc r) = W6 m ρ c (Proc.devRef .tc r) :=
  StableHlo.after_of_writes_sub (hostOps2_1 : List (HloOp τ sig (Elt F))) _ wr2_1_sub hr

/-- An input window's array of region 0 holds at the region's exit what it held at the entry. -/
theorem in2 (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- An input window's array of region 1 holds at the region's exit what it held at the entry. -/
theorem in5 (w : Fin cfg1.W) (hin : (cfg1.win w).isOut = false) :
    W5 m ρ c (Proc.devRef .tc (Pipeline.arrRef spec1 w)) = W4 m ρ c (Proc.devRef .tc (Pipeline.arrRef spec1 w)) :=
  (W5_arr m ρ c w).trans (((dat1 (V4 m ρ) c).arrAt_in w hin _).trans (A_eq1 (V4 m ρ) c w))

/-- An input window's array of region 2 holds at the region's exit what it held at the entry. -/
theorem in8 (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hin _).trans (A_eq2 (V7 m ρ) c w))

end Cert.KernelIdeal.KerFold

end
-- ==== Proof.KerFoldDefs.lean ====
/- The three host-side stages of the idealized kernel program, each as one function of the arrays it reads.

   `kInv a3` is the inverse in-degree column: ones are scatter-added at the destination indices `a3` into a zero
   vector of length 100000 (the in-degree of every node), the count is raised to at least one, one is divided by
   it, and the result is laid out as a column [100000, 1].

   `kTake0 h a2` / `kTake1 h a2` gather the rows of `h` at the source indices `a2` (negative indices wrapped
   by 100000; a row whose wrapped index is outside [0, 99999] is replaced by the quiet-NaN word), at widths 128
   and 256.

   `kAgg0 h inv a2 a3` / `kAgg1 h inv a2 a3` are the mean aggregations: the gathered rows are scatter-added at
   the destination indices `a3` into a zero array, and every row is multiplied by the inverse in-degree of its
   node.  `kSum0 g inv a3` / `kSum1 g inv a3` are their second halves, from rows `g` already gathered. -/
import proofs.«138145_j65584150610482_1_alg».proof.Proof.Gen.KernelIdeal
import Idealize.ShloMosaic.PureOps.Ideal

noncomputable section

namespace Cert.KernelIdeal.KerFold

open Idealize.ShloMosaic Idealize.SL.Sem
open Cert.KernelIdeal.Gen

/-- The inverse in-degree column [100000, 1] of the destination indices `a3`. -/
def kInv (a3 : (⟨S800000, .i32⟩ : BufTy).Contents (Elt Ideal)) : (⟨S100000x1, .f32⟩ : BufTy).Contents (Elt Ideal) :=
  broadcastInDim S100000x1 ![0] bcast_S100000_S100000x1_0
    (Host.divf (F := Ideal) (φ := .f32)
      (broadcastInDim S100000 ![] bcast_S_S100000 (constant (F := Ideal) S_ .f32 0x3F800000#32) : (⟨S100000, .f32⟩ : BufTy).Contents (Elt Ideal))
      (maximumf (F := Ideal) (φ := .f32)
        (Host.scatterAdd (F := Ideal) (φ := .f32) scatter_S100000_S800000x1_S800000_n_0_0_1
          (broadcastInDim S100000 ![] bcast_S_S100000 (constant (F := Ideal) S_ .f32 0x00000000#32) : (⟨S100000, .f32⟩ : BufTy).Contents (Elt Ideal))
          (broadcastInDim S800000x1 ![0] bcast_S800000_S800000x1_0 a3 : (⟨S800000x1, .i32⟩ : BufTy).Contents (Elt Ideal))
          (broadcastInDim S800000 ![] bcast_S_S800000 (constant (F := Ideal) S_ .f32 0x3F800000#32) : (⟨S800000, .f32⟩ : BufTy).Contents (Elt Ideal))
          : (⟨S100000, .f32⟩ : BufTy).Contents (Elt Ideal))
        (broadcastInDim S100000 ![] bcast_S_S100000 (constant (F := Ideal) S_ .f32 0x3F800000#32) : (⟨S100000, .f32⟩ : BufTy).Contents (Elt Ideal))
        : (⟨S100000, .f32⟩ : BufTy).Contents (Elt Ideal))
      : (⟨S100000, .f32⟩ : BufTy).Contents (Elt Ideal))

/-- The rows of `h` (width 128) gathered at the source indices `a2`. -/
def kTake0 (h : (⟨S100000x128, .f32⟩ : BufTy).Contents (Elt Ideal)) (a2 : (⟨S800000, .i32⟩ : BufTy).Contents (Elt Ideal)) : (⟨S800000x128, .f32⟩ : BufTy).Contents (Elt Ideal) :=
  let v5 : (⟨S800000x1, .i32⟩ : BufTy).Contents (Elt Ideal) :=
    broadcastInDim S800000x1 ![0] bcast_S800000_S800000x1_0
      (select
        (cmpi .slt a2 (broadcastInDim S800000 ![] bcast_S_S800000 (constantI S_ 32 0#32) : (⟨S800000, .i32⟩ : BufTy).Contents (Elt Ideal)) : (⟨S800000, .i1⟩ : BufTy).Contents (Elt Ideal))
        (addi a2 (broadcastInDim S800000 ![] bcast_S_S800000 (constantI S_ 32 100000#32) : (⟨S800000, .i32⟩ : BufTy).Contents (Elt Ideal)) : (⟨S800000, .i32⟩ : BufTy).Contents (Elt Ideal))
        a2 : (⟨S800000, .i32⟩ : BufTy).Contents (Elt Ideal))
  select
    (broadcastInDim S800000x128 ![0] bcast_S800000_S800000x128_0
      (Host.reduce IntOp.andi
        (andi
          (cmpi .sge v5 (broadcastInDim S800000x1 ![] bcast_S_S800000x1 (constantI S_ 32 0#32) : (⟨S800000x1, .i32⟩ : BufTy).Contents (Elt Ideal)) : (⟨S800000x1, .i1⟩ : BufTy).Contents (Elt Ideal))
          (cmpi .sle v5 (broadcastInDim S800000x1 ![0, 1] bcast_S1x1_S800000x1_0_1
            (broadcastInDim S1x1 ![1] bcast_S1_S1x1_1 (constantI S1 32 99999#32) : (⟨S1x1, .i32⟩ : BufTy).Contents (Elt Ideal)) : (⟨S800000x1, .i32⟩ : BufTy).Contents (Elt Ideal)) : (⟨S800000x1, .i1⟩ : BufTy).Contents (Elt Ideal))
          : (⟨S800000x1, .i1⟩ : BufTy).Contents (Elt Ideal))
        (constantI S_ 1 1#1) reducesTo_S800000x1_S800000_d1 h_S_ : (⟨S800000, .i1⟩ : BufTy).Contents (Elt Ideal)) : (⟨S800000x128, .i1⟩ : BufTy).Contents (Elt Ideal))
    (Host.gather gather_S100000x128_S800000x1_S800000x128_1_0_n_n_0_1_1128 h v5 : (⟨S800000x128, .f32⟩ : BufTy).Contents (Elt Ideal))
    (broadcastInDim S800000x128 ![] bcast_S_S800000x128 (constant (F := Ideal) S_ .f32 0x7FC00000#32) : (⟨S800000x128, .f32⟩ : BufTy).Contents (Elt Ideal))

/-- The rows of `h` (width 256) gathered at the source indices `a2`. -/
def kTake1 (h : (⟨S100000x256, .f32⟩ : BufTy).Contents (Elt Ideal)) (a2 : (⟨S800000, .i32⟩ : BufTy).Contents (Elt Ideal)) : (⟨S800000x256, .f32⟩ : BufTy).Contents (Elt Ideal) :=
  let v5 : (⟨S800000x1, .i32⟩ : BufTy).Contents (Elt Ideal) :=
    broadcastInDim S800000x1 ![0] bcast_S800000_S800000x1_0
      (select
        (cmpi .slt a2 (broadcastInDim S800000 ![] bcast_S_S800000 (constantI S_ 32 0#32) : (⟨S800000, .i32⟩ : BufTy).Contents (Elt Ideal)) : (⟨S800000, .i1⟩ : BufTy).Contents (Elt Ideal))
        (addi a2 (broadcastInDim S800000 ![] bcast_S_S800000 (constantI S_ 32 100000#32) : (⟨S800000, .i32⟩ : BufTy).Contents (Elt Ideal)) : (⟨S800000, .i32⟩ : BufTy).Contents (Elt Ideal))
        a2 : (⟨S800000, .i32⟩ : BufTy).Contents (Elt Ideal))
  select
    (broadcastInDim S800000x256 ![0] bcast_S800000_S800000x256_0
      (Host.reduce IntOp.andi
        (andi
          (cmpi .sge v5 (broadcastInDim S800000x1 ![] bcast_S_S800000x1 (constantI S_ 32 0#32) : (⟨S800000x1, .i32⟩ : BufTy).Contents (Elt Ideal)) : (⟨S800000x1, .i1⟩ : BufTy).Contents (Elt Ideal))
          (cmpi .sle v5 (broadcastInDim S800000x1 ![0, 1] bcast_S1x1_S800000x1_0_1
            (broadcastInDim S1x1 ![1] bcast_S1_S1x1_1 (constantI S1 32 99999#32) : (⟨S1x1, .i32⟩ : BufTy).Contents (Elt Ideal)) : (⟨S800000x1, .i32⟩ : BufTy).Contents (Elt Ideal)) : (⟨S800000x1, .i1⟩ : BufTy).Contents (Elt Ideal))
          : (⟨S800000x1, .i1⟩ : BufTy).Contents (Elt Ideal))
        (constantI S_ 1 1#1) reducesTo_S800000x1_S800000_d1 h_S_ : (⟨S800000, .i1⟩ : BufTy).Contents (Elt Ideal)) : (⟨S800000x256, .i1⟩ : BufTy).Contents (Elt Ideal))
    (Host.gather gather_S100000x256_S800000x1_S800000x256_1_0_n_n_0_1_1256 h v5 : (⟨S800000x256, .f32⟩ : BufTy).Contents (Elt Ideal))
    (broadcastInDim S800000x256 ![] bcast_S_S800000x256 (constant (F := Ideal) S_ .f32 0x7FC00000#32) : (⟨S800000x256, .f32⟩ : BufTy).Contents (Elt Ideal))

/-- The rows `g` summed per destination node of `a3` (width 128), every row times the inverse in-degree of its node. -/
def kSum0 (g : (⟨S800000x128, .f32⟩ : BufTy).Contents (Elt Ideal)) (inv : (⟨S100000x1, .f32⟩ : BufTy).Contents (Elt Ideal))
    (a3 : (⟨S800000, .i32⟩ : BufTy).Contents (Elt Ideal)) : (⟨S100000x128, .f32⟩ : BufTy).Contents (Elt Ideal) :=
  mulf (F := Ideal) (φ := .f32)
    (Host.scatterAdd (F := Ideal) (φ := .f32) scatter_S100000x128_S800000x1_S800000x128_1_0_0_1
      (broadcastInDim S100000x128 ![] bcast_S_S100000x128 (constant (F := Ideal) S_ .f32 0x00000000#32) : (⟨S100000x128, .f32⟩ : BufTy).Contents (Elt Ideal))
      (broadcastInDim S800000x1 ![0] bcast_S800000_S800000x1_0 a3 : (⟨S800000x1, .i32⟩ : BufTy).Contents (Elt Ideal))
      g : (⟨S100000x128, .f32⟩ : BufTy).Contents (Elt Ideal))
    (broadcastInDim S100000x128 ![0, 1] bcast_S100000x1_S100000x128_0_1 inv : (⟨S100000x128, .f32⟩ : BufTy).Contents (Elt Ideal))

/-- The rows `g` summed per destination node of `a3` (width 256), every row times the inverse in-degree of its node. -/
def kSum1 (g : (⟨S800000x256, .f32⟩ : BufTy).Contents (Elt Ideal)) (inv : (⟨S100000x1, .f32⟩ : BufTy).Contents (Elt Ideal))
    (a3 : (⟨S800000, .i32⟩ : BufTy).Contents (Elt Ideal)) : (⟨S100000x256, .f32⟩ : BufTy).Contents (Elt Ideal) :=
  mulf (F := Ideal) (φ := .f32)
    (Host.scatterAdd (F := Ideal) (φ := .f32) scatter_S100000x256_S800000x1_S800000x256_1_0_0_1
      (broadcastInDim S100000x256 ![] bcast_S_S100000x256 (constant (F := Ideal) S_ .f32 0x00000000#32) : (⟨S100000x256, .f32⟩ : BufTy).Contents (Elt Ideal))
      (broadcastInDim S800000x1 ![0] bcast_S800000_S800000x1_0 a3 : (⟨S800000x1, .i32⟩ : BufTy).Contents (Elt Ideal))
      g : (⟨S100000x256, .f32⟩ : BufTy).Contents (Elt Ideal))
    (broadcastInDim S100000x256 ![0, 1] bcast_S100000x1_S100000x256_0_1 inv : (⟨S100000x256, .f32⟩ : BufTy).Contents (Elt Ideal))

/-- The mean aggregation at width 128: gathered rows summed per destination node, times the inverse in-degree. -/
def kAgg0 (h : (⟨S100000x128, .f32⟩ : BufTy).Contents (Elt Ideal)) (inv : (⟨S100000x1, .f32⟩ : BufTy).Contents (Elt Ideal))
    (a2 a3 : (⟨S800000, .i32⟩ : BufTy).Contents (Elt Ideal)) : (⟨S100000x128, .f32⟩ : BufTy).Contents (Elt Ideal) :=
  mulf (F := Ideal) (φ := .f32)
    (Host.scatterAdd (F := Ideal) (φ := .f32) scatter_S100000x128_S800000x1_S800000x128_1_0_0_1
      (broadcastInDim S100000x128 ![] bcast_S_S100000x128 (constant (F := Ideal) S_ .f32 0x00000000#32) : (⟨S100000x128, .f32⟩ : BufTy).Contents (Elt Ideal))
      (broadcastInDim S800000x1 ![0] bcast_S800000_S800000x1_0 a3 : (⟨S800000x1, .i32⟩ : BufTy).Contents (Elt Ideal))
      (kTake0 h a2) : (⟨S100000x128, .f32⟩ : BufTy).Contents (Elt Ideal))
    (broadcastInDim S100000x128 ![0, 1] bcast_S100000x1_S100000x128_0_1 inv : (⟨S100000x128, .f32⟩ : BufTy).Contents (Elt Ideal))

/-- The mean aggregation at width 256. -/
def kAgg1 (h : (⟨S100000x256, .f32⟩ : BufTy).Contents (Elt Ideal)) (inv : (⟨S100000x1, .f32⟩ : BufTy).Contents (Elt Ideal))
    (a2 a3 : (⟨S800000, .i32⟩ : BufTy).Contents (Elt Ideal)) : (⟨S100000x256, .f32⟩ : BufTy).Contents (Elt Ideal) :=
  mulf (F := Ideal) (φ := .f32)
    (Host.scatterAdd (F := Ideal) (φ := .f32) scatter_S100000x256_S800000x1_S800000x256_1_0_0_1
      (broadcastInDim S100000x256 ![] bcast_S_S100000x256 (constant (F := Ideal) S_ .f32 0x00000000#32) : (⟨S100000x256, .f32⟩ : BufTy).Contents (Elt Ideal))
      (broadcastInDim S800000x1 ![0] bcast_S800000_S800000x1_0 a3 : (⟨S800000x1, .i32⟩ : BufTy).Contents (Elt Ideal))
      (kTake1 h a2) : (⟨S100000x256, .f32⟩ : BufTy).Contents (Elt Ideal))
    (broadcastInDim S100000x256 ![0, 1] bcast_S100000x1_S100000x256_0_1 inv : (⟨S100000x256, .f32⟩ : BufTy).Contents (Elt Ideal))

/-- The aggregation is the gathered rows summed per destination node and scaled. -/
theorem kAgg0_eq (h : (⟨S100000x128, .f32⟩ : BufTy).Contents (Elt Ideal)) (inv : (⟨S100000x1, .f32⟩ : BufTy).Contents (Elt Ideal)) (a2 a3 : (⟨S800000, .i32⟩ : BufTy).Contents (Elt Ideal)) :
    kAgg0 h inv a2 a3 = kSum0 (kTake0 h a2) inv a3 := rfl
theorem kAgg1_eq (h : (⟨S100000x256, .f32⟩ : BufTy).Contents (Elt Ideal)) (inv : (⟨S100000x1, .f32⟩ : BufTy).Contents (Elt Ideal)) (a2 a3 : (⟨S800000, .i32⟩ : BufTy).Contents (Elt Ideal)) :
    kAgg1 h inv a2 a3 = kSum1 (kTake1 h a2) inv a3 := rfl

end Cert.KernelIdeal.KerFold

end
-- ==== Proof.KerFoldStagesA.lean ====
/- The stretches of host operations of the idealized kernel program that lay out vectors as rows, count degrees and
   sum gathered rows, read at the buffers a later region takes as window arrays: the buffer's contents after the
   stretch as a function of the contents before it, for an arbitrary valuation `X` of the buffers before it. -/
import proofs.«138145_j65584150610482_1_alg».proof.Proof.Gen.KernelIdeal.Launch
import proofs.«138145_j65584150610482_1_alg».proof.Proof.KerFoldDefs
import Idealize.ShloMosaic.Lib.StableHlo.Run

set_option maxRecDepth 16384

noncomputable section

namespace Cert.KernelIdeal.KerFold

open Idealize.ShloMosaic Idealize.ShloMosaic.TcCoe Idealize.SL.Sem
open Cert.KernelIdeal.Gen

variable (X : Valuation τ sig (Elt Ideal))

/-- After the first stretch the column buffer holds the inverse in-degree of the destination indices. -/
theorem ops0_v8 :
    (StableHlo.after (hostOps0 (F := Ideal)) X (Proc.devRef .tc main_v8) : (⟨S100000x1, .f32⟩ : BufTy).Contents (Elt Ideal))
      = kInv (X (Proc.devRef .tc main_arg3)) := by
  after_results
  rfl

/-- After the stretch `hostOps0` the buffer `main_v9` holds `main_arg5`'s vector laid out as one row. -/
theorem ops0_v9 :
    (StableHlo.after (hostOps0 (F := Ideal)) X (Proc.devRef .tc main_v9) : (⟨S1x128, .f32⟩ : BufTy).Contents (Elt Ideal))
      = shapeCast S1x128 (X (Proc.devRef .tc main_arg5) : (⟨S128, .f32⟩ : BufTy).Contents (Elt Ideal)) shapeCasts_S128_S1x128 := by
  after_results
  rfl

/-- After the stretch `hostOps1_1` the buffer `main_v16` holds the gathered rows summed per destination node and
    scaled by the inverse in-degree. -/
theorem ops1_1_v16 :
    (StableHlo.after (hostOps1_1 (F := Ideal)) X (Proc.devRef .tc main_v16) : (⟨S100000x128, .f32⟩ : BufTy).Contents (Elt Ideal))
      = kSum0 (X (Proc.devRef .tc main_v11)) (X (Proc.devRef .tc main_v8)) (X (Proc.devRef .tc main_arg3)) := by
  after_results
  rfl

/-- After the stretch `hostOps1_1` the buffer `main_v17` holds `main_arg8`'s vector laid out as one row. -/
theorem ops1_1_v17 :
    (StableHlo.after (hostOps1_1 (F := Ideal)) X (Proc.devRef .tc main_v17) : (⟨S1x256, .f32⟩ : BufTy).Contents (Elt Ideal))
      = shapeCast S1x256 (X (Proc.devRef .tc main_arg8) : (⟨S256, .f32⟩ : BufTy).Contents (Elt Ideal)) shapeCasts_S256_S1x256 := by
  after_results
  rfl

/-- After the stretch `hostOps1_1` the buffer `main_v18` holds `main_arg9`'s vector laid out as one row. -/
theorem ops1_1_v18 :
    (StableHlo.after (hostOps1_1 (F := Ideal)) X (Proc.devRef .tc main_v18) : (⟨S1x256, .f32⟩ : BufTy).Contents (Elt Ideal))
      = shapeCast S1x256 (X (Proc.devRef .tc main_arg9) : (⟨S256, .f32⟩ : BufTy).Contents (Elt Ideal)) shapeCasts_S256_S1x256 := by
  after_results
  rfl

/-- After the stretch `hostOps1_1` the buffer `main_v19` holds `main_arg10`'s vector laid out as one row. -/
theorem ops1_1_v19 :
    (StableHlo.after (hostOps1_1 (F := Ideal)) X (Proc.devRef .tc main_v19) : (⟨S1x256, .f32⟩ : BufTy).Contents (Elt Ideal))
      = shapeCast S1x256 (X (Proc.devRef .tc main_arg10) : (⟨S256, .f32⟩ : BufTy).Contents (Elt Ideal)) shapeCasts_S256_S1x256 := by
  after_results
  rfl

/-- After the stretch `hostOps1_1` the buffer `main_v20` holds `main_arg11`'s vector laid out as one row. -/
theorem ops1_1_v20 :
    (StableHlo.after (hostOps1_1 (F := Ideal)) X (Proc.devRef .tc main_v20) : (⟨S1x256, .f32⟩ : BufTy).Contents (Elt Ideal))
      = shapeCast S1x256 (X (Proc.devRef .tc main_arg11) : (⟨S256, .f32⟩ : BufTy).Contents (Elt Ideal)) shapeCasts_S256_S1x256 := by
  after_results
  rfl

/-- After the stretch `hostOps1_1` the buffer `main_v21` holds `main_arg12`'s vector laid out as one row. -/
theorem ops1_1_v21 :
    (StableHlo.after (hostOps1_1 (F := Ideal)) X (Proc.devRef .tc main_v21) : (⟨S1x256, .f32⟩ : BufTy).Contents (Elt Ideal))
      = shapeCast S1x256 (X (Proc.devRef .tc main_arg12) : (⟨S256, .f32⟩ : BufTy).Contents (Elt Ideal)) shapeCasts_S256_S1x256 := by
  after_results
  rfl

/-- After the stretch `hostOps2_1` the buffer `main_v28` holds the gathered rows summed per destination node and
    scaled by the inverse in-degree. -/
theorem ops2_1_v28 :
    (StableHlo.after (hostOps2_1 (F := Ideal)) X (Proc.devRef .tc main_v28) : (⟨S100000x256, .f32⟩ : BufTy).Contents (Elt Ideal))
      = kSum1 (X (Proc.devRef .tc main_v23)) (X (Proc.devRef .tc main_v8)) (X (Proc.devRef .tc main_arg3)) := by
  after_results
  rfl

/-- After the stretch `hostOps2_1` the buffer `main_v29` holds `main_arg15`'s vector laid out as one row. -/
theorem ops2_1_v29 :
    (StableHlo.after (hostOps2_1 (F := Ideal)) X (Proc.devRef .tc main_v29) : (⟨S1x128, .f32⟩ : BufTy).Contents (Elt Ideal))
      = shapeCast S1x128 (X (Proc.devRef .tc main_arg15) : (⟨S128, .f32⟩ : BufTy).Contents (Elt Ideal)) shapeCasts_S128_S1x128 := by
  after_results
  rfl

/-- After the stretch `hostOps2_1` the buffer `main_v30` holds `main_arg16`'s vector laid out as one row. -/
theorem ops2_1_v30 :
    (StableHlo.after (hostOps2_1 (F := Ideal)) X (Proc.devRef .tc main_v30) : (⟨S1x128, .f32⟩ : BufTy).Contents (Elt Ideal))
      = shapeCast S1x128 (X (Proc.devRef .tc main_arg16) : (⟨S128, .f32⟩ : BufTy).Contents (Elt Ideal)) shapeCasts_S128_S1x128 := by
  after_results
  rfl

/-- After the stretch `hostOps2_1` the buffer `main_v31` holds `main_arg17`'s vector laid out as one row. -/
theorem ops2_1_v31 :
    (StableHlo.after (hostOps2_1 (F := Ideal)) X (Proc.devRef .tc main_v31) : (⟨S1x128, .f32⟩ : BufTy).Contents (Elt Ideal))
      = shapeCast S1x128 (X (Proc.devRef .tc main_arg17) : (⟨S128, .f32⟩ : BufTy).Contents (Elt Ideal)) shapeCasts_S128_S1x128 := by
  after_results
  rfl

/-- After the stretch `hostOps2_1` the buffer `main_v32` holds `main_arg18`'s vector laid out as one row. -/
theorem ops2_1_v32 :
    (StableHlo.after (hostOps2_1 (F := Ideal)) X (Proc.devRef .tc main_v32) : (⟨S1x128, .f32⟩ : BufTy).Contents (Elt Ideal))
      = shapeCast S1x128 (X (Proc.devRef .tc main_arg18) : (⟨S128, .f32⟩ : BufTy).Contents (Elt Ideal)) shapeCasts_S128_S1x128 := by
  after_results
  rfl

/-- After the stretch `hostOps2_1` the buffer `main_v33` holds `main_arg19`'s vector laid out as one row. -/
theorem ops2_1_v33 :
    (StableHlo.after (hostOps2_1 (F := Ideal)) X (Proc.devRef .tc main_v33) : (⟨S1x128, .f32⟩ : BufTy).Contents (Elt Ideal))
      = shapeCast S1x128 (X (Proc.devRef .tc main_arg19) : (⟨S128, .f32⟩ : BufTy).Contents (Elt Ideal)) shapeCasts_S128_S1x128 := by
  after_results
  rfl

/-- After the stretch `hostOps2_1` the buffer `main_v34` holds `main_arg21`'s vector laid out as one row. -/
theorem ops2_1_v34 :
    (StableHlo.after (hostOps2_1 (F := Ideal)) X (Proc.devRef .tc main_v34) : (⟨S1x128, .f32⟩ : BufTy).Contents (Elt Ideal))
      = shapeCast S1x128 (X (Proc.devRef .tc main_arg21) : (⟨S128, .f32⟩ : BufTy).Contents (Elt Ideal)) shapeCasts_S128_S1x128 := by
  after_results
  rfl

/-- After the stretch `hostOps2_1` the buffer `main_v35` holds `main_arg23`'s vector laid out as one row. -/
theorem ops2_1_v35 :
    (StableHlo.after (hostOps2_1 (F := Ideal)) X (Proc.devRef .tc main_v35) : (⟨S1x64, .f32⟩ : BufTy).Contents (Elt Ideal))
      = shapeCast S1x64 (X (Proc.devRef .tc main_arg23) : (⟨S64, .f32⟩ : BufTy).Contents (Elt Ideal)) shapeCasts_S64_S1x64 := by
  after_results
  rfl

/-- After the stretch `hostOps2_1` the buffer `main_v36` holds `main_arg25`'s vector laid out as one row. -/
theorem ops2_1_v36 :
    (StableHlo.after (hostOps2_1 (F := Ideal)) X (Proc.devRef .tc main_v36) : (⟨S1x32, .f32⟩ : BufTy).Contents (Elt Ideal))
      = shapeCast S1x32 (X (Proc.devRef .tc main_arg25) : (⟨S32, .f32⟩ : BufTy).Contents (Elt Ideal)) shapeCasts_S32_S1x32 := by
  after_results
  rfl

end Cert.KernelIdeal.KerFold

end
-- ==== Proof.KerFold0.lean ====
/- The contents of the input arrays of the first launched region (the encoder) of the idealized kernel program,
   when the region is entered: the node features, the positional features, the weight matrix as launched, and the
   bias vector laid out as one row. -/
import proofs.«138145_j65584150610482_1_alg».proof.Proof.Gen.KernelIdeal.Frame
import proofs.«138145_j65584150610482_1_alg».proof.Proof.KerFoldWalk
import proofs.«138145_j65584150610482_1_alg».proof.Proof.KerFoldStagesA

set_option maxRecDepth 16384

noncomputable section

namespace Cert.KernelIdeal.KerFold

open Idealize.ShloMosaic Idealize.ShloMosaic.TcCoe Idealize.SL.Sem
open Idealize.ShloMosaic.Pipeline (Dat)
open Cert.KernelIdeal.Gen

variable (m : (ℓ : Loc nD τ sig) → Buf (Elt Ideal) ℓ) (ρ : Dev nD → PrngReg) (c : Dev nD)

/-- Window 0 of region 0 reads the first argument as launched. -/
theorem V1_w0 : V1 m ρ c (Pipeline.arrRef spec0 0) = m ((c.tc : Thread nD τ).loc main_arg0) :=
  (keep1 m ρ c (r := main_arg0) (by decide)).trans rfl

/-- Window 1 of region 0 reads the second argument as launched. -/
theorem V1_w1 : V1 m ρ c (Pipeline.arrRef spec0 1) = m ((c.tc : Thread nD τ).loc main_arg1) :=
  (keep1 m ρ c (r := main_arg1) (by decide)).trans rfl

/-- Window 2 of region 0 reads the fifth argument (the encoder's weight matrix) as launched. -/
theorem V1_w2 : V1 m ρ c (Pipeline.arrRef spec0 2) = m ((c.tc : Thread nD τ).loc main_arg4) :=
  (keep1 m ρ c (r := main_arg4) (by decide)).trans rfl

/-- Window 3 of region 0 reads the encoder's bias vector laid out as one row. -/
theorem V1_w3 :
    (V1 m ρ c (Pipeline.arrRef spec0 3) : (⟨S1x128, .f32⟩ : BufTy).Contents (Elt Ideal))
      = shapeCast S1x128 (m ((c.tc : Thread nD τ).loc main_arg5) : (⟨S128, .f32⟩ : BufTy).Contents (Elt Ideal)) shapeCasts_S128_S1x128 :=
  ops0_v9 (W0 m ρ c)

end Cert.KernelIdeal.KerFold

end
-- ==== Proof.KerFoldTake0.lean ====
/- The gather stretch `hostOps1` of the idealized kernel program read at its result buffer: the rows of the
   previous region's output gathered at the source indices, as a function of the contents before the stretch.
   The stretch is an outlined function; its operations carry each value at the type written in the program and move
   it to the buffer's own type and back, which at a literal buffer is the identity. -/
import proofs.«138145_j65584150610482_1_alg».proof.Proof.Gen.KernelIdeal.Launch
import proofs.«138145_j65584150610482_1_alg».proof.Proof.KerFoldDefs
import Idealize.ShloMosaic.Lib.StableHlo.Run

set_option maxRecDepth 16384

noncomputable section

namespace Cert.KernelIdeal.KerFold

open Idealize.ShloMosaic Idealize.ShloMosaic.TcCoe Idealize.SL.Sem
open Cert.KernelIdeal.Gen

variable (X : Valuation τ sig (Elt Ideal))

/-- Moving a value to a typed buffer's own type and back is the identity. -/
private theorem ofBuf_toBuf {T : BufTy} (x : StableHlo.TRef sig T) (v : T.Contents (Elt Ideal)) :
    x.ofBuf (x.toBuf v) = v := by
  obtain ⟨r, rfl, _, _⟩ := x; rfl

/-- At the result buffer the move is the identity. -/
private theorem toBuf_out (p1 p2 p3) (v : (⟨S800000x128, .f32⟩ : BufTy).Contents (Elt Ideal)) :
    ((StableHlo.TRef.of (T := ⟨S800000x128, .f32⟩) main_v11 p1 p2 p3).toBuf v : (⟨S800000x128, .f32⟩ : BufTy).Contents (Elt Ideal)) = v := rfl
/-- At the gathered array's buffer the move is the identity. -/
private theorem ofBuf_h (p1 p2 p3) (u : (⟨S100000x128, .f32⟩ : BufTy).Contents (Elt Ideal)) :
    ((StableHlo.TRef.of (T := ⟨S100000x128, .f32⟩) main_v10 p1 p2 p3).ofBuf u : (⟨S100000x128, .f32⟩ : BufTy).Contents (Elt Ideal)) = u := rfl
/-- At the source-index argument's buffer the move is the identity. -/
private theorem ofBuf_a2 (p1 p2 p3) (u : (⟨S800000, .i32⟩ : BufTy).Contents (Elt Ideal)) :
    ((StableHlo.TRef.of (T := ⟨S800000, .i32⟩) main_arg2 p1 p2 p3).ofBuf u : (⟨S800000, .i32⟩ : BufTy).Contents (Elt Ideal)) = u := rfl

/-- After the stretch `hostOps1` the buffer `main_v11` holds the rows of `main_v10` gathered at the source indices. -/
theorem ops1_v11 :
    (StableHlo.after (hostOps1 (F := Ideal)) X (Proc.devRef .tc main_v11) : (⟨S800000x128, .f32⟩ : BufTy).Contents (Elt Ideal))
      = kTake0 (X (Proc.devRef .tc main_v10)) (X (Proc.devRef .tc main_arg2)) := by
  after_results_simp
  simp only [ofBuf_toBuf]
  rw [toBuf_out, ofBuf_h, ofBuf_a2]
  unfold kTake0
  with_reducible rfl

end Cert.KernelIdeal.KerFold

end
-- ==== Proof.KerFold1.lean ====
/- The contents of the input arrays of the second launched region (the first aggregation layer) of the idealized
   kernel program, when the region is entered: the encoder's output array, its mean aggregation over the graph's
   edges, the two weight matrices as launched, and the five parameter vectors each laid out as one row. -/
import proofs.«138145_j65584150610482_1_alg».proof.Proof.Gen.KernelIdeal.Frame
import proofs.«138145_j65584150610482_1_alg».proof.Proof.KerFoldWalk
import proofs.«138145_j65584150610482_1_alg».proof.Proof.KerFoldStagesA
import proofs.«138145_j65584150610482_1_alg».proof.Proof.KerFoldTake0

set_option maxRecDepth 16384

noncomputable section

namespace Cert.KernelIdeal.KerFold

open Idealize.ShloMosaic Idealize.ShloMosaic.TcCoe Idealize.SL.Sem
open Idealize.ShloMosaic.Pipeline (Dat)
open Cert.KernelIdeal.Gen

variable (m : (ℓ : Loc nD τ sig) → Buf (Elt Ideal) ℓ) (ρ : Dev nD → PrngReg) (c : Dev nD)

/-- Window 0 of region 1 reads the array region 0 left in its output window. -/
theorem V4_w0 : V4 m ρ c (Pipeline.arrRef spec1 0) = (dat0 (V1 m ρ) c).arrAt 4 cfg0.N :=
  ((keep4 m ρ c (r := main_v10) (by decide)).trans (keep3 m ρ c (r := main_v10) (by decide))).trans (W2_arr m ρ c 4)

/-- When the gather stretch is entered the source-index argument is as launched. -/
theorem W2_arg2 : W2 m ρ c (Proc.devRef .tc main_arg2) = m ((c.tc : Thread nD τ).loc main_arg2) :=
  ((W2_of_ne m ρ c main_arg2 (by decide)).trans (keep1 m ρ c (r := main_arg2) (by decide)))

/-- The rows gathered for the first aggregation. -/
theorem W3_v11 :
    (W3 m ρ c (Proc.devRef .tc main_v11) : (⟨S800000x128, .f32⟩ : BufTy).Contents (Elt Ideal))
      = kTake0 ((dat0 (V1 m ρ) c).arrAt 4 cfg0.N) (m ((c.tc : Thread nD τ).loc main_arg2)) := by
  refine (ops1_v11 (W2 m ρ c)).trans ?_
  rw [W2_arr m ρ c 4, W2_arg2 m ρ c]

/-- The inverse in-degree column when the summing stretch is entered. -/
theorem W3_v8 :
    (W3 m ρ c (Proc.devRef .tc main_v8) : (⟨S100000x1, .f32⟩ : BufTy).Contents (Elt Ideal)) = kInv (m ((c.tc : Thread nD τ).loc main_arg3)) :=
  ((keep3 m ρ c (r := main_v8) (by decide)).trans (W2_of_ne m ρ c main_v8 (by decide))).trans (ops0_v8 (W0 m ρ c))

/-- The destination-index argument when the summing stretch is entered. -/
theorem W3_arg3 : W3 m ρ c (Proc.devRef .tc main_arg3) = m ((c.tc : Thread nD τ).loc main_arg3) :=
  ((keep3 m ρ c (r := main_arg3) (by decide)).trans ((W2_of_ne m ρ c main_arg3 (by decide)).trans (keep1 m ρ c (r := main_arg3) (by decide))))

/-- Window 1 of region 1 reads the mean aggregation of region 0's output over the graph's edges. -/
theorem V4_w1 :
    (V4 m ρ c (Pipeline.arrRef spec1 1) : (⟨S100000x128, .f32⟩ : BufTy).Contents (Elt Ideal))
      = kAgg0 ((dat0 (V1 m ρ) c).arrAt 4 cfg0.N) (kInv (m ((c.tc : Thread nD τ).loc main_arg3))) (m ((c.tc : Thread nD τ).loc main_arg2)) (m ((c.tc : Thread nD τ).loc main_arg3)) := by
  refine (ops1_1_v16 (W3 m ρ c)).trans ?_
  rw [W3_v11 m ρ c, W3_v8 m ρ c, W3_arg3 m ρ c, kAgg0_eq]

/-- Window 2 of region 1 reads `main_arg6` as launched. -/
theorem V4_w2 : V4 m ρ c (Pipeline.arrRef spec1 2) = m ((c.tc : Thread nD τ).loc main_arg6) :=
  ((keep4 m ρ c (r := main_arg6) (by decide)).trans ((keep3 m ρ c (r := main_arg6) (by decide)).trans ((W2_of_ne m ρ c main_arg6 (by decide)).trans (keep1 m ρ c (r := main_arg6) (by decide)))))

/-- Window 3 of region 1 reads `main_arg7` as launched. -/
theorem V4_w3 : V4 m ρ c (Pipeline.arrRef spec1 3) = m ((c.tc : Thread nD τ).loc main_arg7) :=
  ((keep4 m ρ c (r := main_arg7) (by decide)).trans ((keep3 m ρ c (r := main_arg7) (by decide)).trans ((W2_of_ne m ρ c main_arg7 (by decide)).trans (keep1 m ρ c (r := main_arg7) (by decide)))))

/-- Window 4 of region 1 reads `main_arg8`'s vector laid out as one row. -/
theorem V4_w4 :
    (V4 m ρ c (Pipeline.arrRef spec1 4) : (⟨S1x256, .f32⟩ : BufTy).Contents (Elt Ideal))
      = shapeCast S1x256 (m ((c.tc : Thread nD τ).loc main_arg8) : (⟨S256, .f32⟩ : BufTy).Contents (Elt Ideal)) shapeCasts_S256_S1x256 :=
  (ops1_1_v17 (W3 m ρ c)).trans
    (congrArg (fun x : (⟨S256, .f32⟩ : BufTy).Contents (Elt Ideal) => shapeCast S1x256 x shapeCasts_S256_S1x256) ((keep3 m ρ c (r := main_arg8) (by decide)).trans ((W2_of_ne m ρ c main_arg8 (by decide)).trans (keep1 m ρ c (r := main_arg8) (by decide)))))

/-- Window 5 of region 1 reads `main_arg9`'s vector laid out as one row. -/
theorem V4_w5 :
    (V4 m ρ c (Pipeline.arrRef spec1 5) : (⟨S1x256, .f32⟩ : BufTy).Contents (Elt Ideal))
      = shapeCast S1x256 (m ((c.tc : Thread nD τ).loc main_arg9) : (⟨S256, .f32⟩ : BufTy).Contents (Elt Ideal)) shapeCasts_S256_S1x256 :=
  (ops1_1_v18 (W3 m ρ c)).trans
    (congrArg (fun x : (⟨S256, .f32⟩ : BufTy).Contents (Elt Ideal) => shapeCast S1x256 x shapeCasts_S256_S1x256) ((keep3 m ρ c (r := main_arg9) (by decide)).trans ((W2_of_ne m ρ c main_arg9 (by decide)).trans (keep1 m ρ c (r := main_arg9) (by decide)))))

/-- Window 6 of region 1 reads `main_arg10`'s vector laid out as one row. -/
theorem V4_w6 :
    (V4 m ρ c (Pipeline.arrRef spec1 6) : (⟨S1x256, .f32⟩ : BufTy).Contents (Elt Ideal))
      = shapeCast S1x256 (m ((c.tc : Thread nD τ).loc main_arg10) : (⟨S256, .f32⟩ : BufTy).Contents (Elt Ideal)) shapeCasts_S256_S1x256 :=
  (ops1_1_v19 (W3 m ρ c)).trans
    (congrArg (fun x : (⟨S256, .f32⟩ : BufTy).Contents (Elt Ideal) => shapeCast S1x256 x shapeCasts_S256_S1x256) ((keep3 m ρ c (r := main_arg10) (by decide)).trans ((W2_of_ne m ρ c main_arg10 (by decide)).trans (keep1 m ρ c (r := main_arg10) (by decide)))))

/-- Window 7 of region 1 reads `main_arg11`'s vector laid out as one row. -/
theorem V4_w7 :
    (V4 m ρ c (Pipeline.arrRef spec1 7) : (⟨S1x256, .f32⟩ : BufTy).Contents (Elt Ideal))
      = shapeCast S1x256 (m ((c.tc : Thread nD τ).loc main_arg11) : (⟨S256, .f32⟩ : BufTy).Contents (Elt Ideal)) shapeCasts_S256_S1x256 :=
  (ops1_1_v20 (W3 m ρ c)).trans
    (congrArg (fun x : (⟨S256, .f32⟩ : BufTy).Contents (Elt Ideal) => shapeCast S1x256 x shapeCasts_S256_S1x256) ((keep3 m ρ c (r := main_arg11) (by decide)).trans ((W2_of_ne m ρ c main_arg11 (by decide)).trans (keep1 m ρ c (r := main_arg11) (by decide)))))

/-- Window 8 of region 1 reads `main_arg12`'s vector laid out as one row. -/
theorem V4_w8 :
    (V4 m ρ c (Pipeline.arrRef spec1 8) : (⟨S1x256, .f32⟩ : BufTy).Contents (Elt Ideal))
      = shapeCast S1x256 (m ((c.tc : Thread nD τ).loc main_arg12) : (⟨S256, .f32⟩ : BufTy).Contents (Elt Ideal)) shapeCasts_S256_S1x256 :=
  (ops1_1_v21 (W3 m ρ c)).trans
    (congrArg (fun x : (⟨S256, .f32⟩ : BufTy).Contents (Elt Ideal) => shapeCast S1x256 x shapeCasts_S256_S1x256) ((keep3 m ρ c (r := main_arg12) (by decide)).trans ((W2_of_ne m ρ c main_arg12 (by decide)).trans (keep1 m ρ c (r := main_arg12) (by decide)))))

end Cert.KernelIdeal.KerFold

end
-- ==== Proof.KerFoldTake1.lean ====
/- The gather stretch `hostOps2` of the idealized kernel program read at its result buffer: the rows of the
   previous region's output gathered at the source indices, as a function of the contents before the stretch.
   The stretch is an outlined function; its operations carry each value at the type written in the program and move
   it to the buffer's own type and back, which at a literal buffer is the identity. -/
import proofs.«138145_j65584150610482_1_alg».proof.Proof.Gen.KernelIdeal.Launch
import proofs.«138145_j65584150610482_1_alg».proof.Proof.KerFoldDefs
import Idealize.ShloMosaic.Lib.StableHlo.Run

set_option maxRecDepth 16384

noncomputable section

namespace Cert.KernelIdeal.KerFold

open Idealize.ShloMosaic Idealize.ShloMosaic.TcCoe Idealize.SL.Sem
open Cert.KernelIdeal.Gen

variable (X : Valuation τ sig (Elt Ideal))

/-- Moving a value to a typed buffer's own type and back is the identity. -/
private theorem ofBuf_toBuf {T : BufTy} (x : StableHlo.TRef sig T) (v : T.Contents (Elt Ideal)) :
    x.ofBuf (x.toBuf v) = v := by
  obtain ⟨r, rfl, _, _⟩ := x; rfl

/-- At the result buffer the move is the identity. -/
private theorem toBuf_out (p1 p2 p3) (v : (⟨S800000x256, .f32⟩ : BufTy).Contents (Elt Ideal)) :
    ((StableHlo.TRef.of (T := ⟨S800000x256, .f32⟩) main_v23 p1 p2 p3).toBuf v : (⟨S800000x256, .f32⟩ : BufTy).Contents (Elt Ideal)) = v := rfl
/-- At the gathered array's buffer the move is the identity. -/
private theorem ofBuf_h (p1 p2 p3) (u : (⟨S100000x256, .f32⟩ : BufTy).Contents (Elt Ideal)) :
    ((StableHlo.TRef.of (T := ⟨S100000x256, .f32⟩) main_v22 p1 p2 p3).ofBuf u : (⟨S100000x256, .f32⟩ : BufTy).Contents (Elt Ideal)) = u := rfl
/-- At the source-index argument's buffer the move is the identity. -/
private theorem ofBuf_a2 (p1 p2 p3) (u : (⟨S800000, .i32⟩ : BufTy).Contents (Elt Ideal)) :
    ((StableHlo.TRef.of (T := ⟨S800000, .i32⟩) main_arg2 p1 p2 p3).ofBuf u : (⟨S800000, .i32⟩ : BufTy).Contents (Elt Ideal)) = u := rfl

/-- After the stretch `hostOps2` the buffer `main_v23` holds the rows of `main_v22` gathered at the source indices. -/
theorem ops2_v23 :
    (StableHlo.after (hostOps2 (F := Ideal)) X (Proc.devRef .tc main_v23) : (⟨S800000x256, .f32⟩ : BufTy).Contents (Elt Ideal))
      = kTake1 (X (Proc.devRef .tc main_v22)) (X (Proc.devRef .tc main_arg2)) := by
  after_results_simp
  simp only [ofBuf_toBuf]
  rw [toBuf_out, ofBuf_h, ofBuf_a2]
  unfold kTake1
  with_reducible rfl

end Cert.KernelIdeal.KerFold

end
-- ==== Proof.KerFold2.lean ====
/- The contents of the input arrays of the third launched region (the second aggregation layer and the head) of
   the idealized kernel program, when the region is entered: the first layer's output array, its mean aggregation
   over the graph's edges, the encoder's output array, the weight matrices as launched, and the parameter vectors
   each laid out as one row. -/
import proofs.«138145_j65584150610482_1_alg».proof.Proof.Gen.KernelIdeal.Frame
import proofs.«138145_j65584150610482_1_alg».proof.Proof.KerFoldWalk
import proofs.«138145_j65584150610482_1_alg».proof.Proof.KerFoldStagesA
import proofs.«138145_j65584150610482_1_alg».proof.Proof.KerFoldTake1

set_option maxRecDepth 16384

noncomputable section

namespace Cert.KernelIdeal.KerFold

open Idealize.ShloMosaic Idealize.ShloMosaic.TcCoe Idealize.SL.Sem
open Idealize.ShloMosaic.Pipeline (Dat)
open Cert.KernelIdeal.Gen

variable (m : (ℓ : Loc nD τ sig) → Buf (Elt Ideal) ℓ) (ρ : Dev nD → PrngReg) (c : Dev nD)

/-- Window 0 of region 2 reads the array region 1 left in its output window. -/
theorem V7_w0 : V7 m ρ c (Pipeline.arrRef spec2 0) = (dat1 (V4 m ρ) c).arrAt 9 cfg1.N :=
  ((keep7 m ρ c (r := main_v22) (by decide)).trans (keep6 m ρ c (r := main_v22) (by decide))).trans (W5_arr m ρ c 9)

/-- When the second gather stretch is entered the source-index argument is as launched. -/
theorem W5_arg2 : W5 m ρ c (Proc.devRef .tc main_arg2) = m ((c.tc : Thread nD τ).loc main_arg2) :=
  ((W5_of_ne m ρ c main_arg2 (by decide)).trans ((keep4 m ρ c (r := main_arg2) (by decide)).trans ((keep3 m ρ c (r := main_arg2) (by decide)).trans ((W2_of_ne m ρ c main_arg2 (by decide)).trans (keep1 m ρ c (r := main_arg2) (by decide))))))

/-- The rows gathered for the second aggregation. -/
theorem W6_v23 :
    (W6 m ρ c (Proc.devRef .tc main_v23) : (⟨S800000x256, .f32⟩ : BufTy).Contents (Elt Ideal))
      = kTake1 ((dat1 (V4 m ρ) c).arrAt 9 cfg1.N) (m ((c.tc : Thread nD τ).loc main_arg2)) := by
  refine (ops2_v23 (W5 m ρ c)).trans ?_
  rw [W5_arr m ρ c 9, W5_arg2 m ρ c]

/-- The inverse in-degree column when the second summing stretch is entered. -/
theorem W6_v8 :
    (W6 m ρ c (Proc.devRef .tc main_v8) : (⟨S100000x1, .f32⟩ : BufTy).Contents (Elt Ideal)) = kInv (m ((c.tc : Thread nD τ).loc main_arg3)) :=
  ((keep6 m ρ c (r := main_v8) (by decide)).trans ((W5_of_ne m ρ c main_v8 (by decide)).trans ((keep4 m ρ c (r := main_v8) (by decide)).trans ((keep3 m ρ c (r := main_v8) (by decide)).trans (W2_of_ne m ρ c main_v8 (by decide)))))).trans (ops0_v8 (W0 m ρ c))

/-- The destination-index argument when the second summing stretch is entered. -/
theorem W6_arg3 : W6 m ρ c (Proc.devRef .tc main_arg3) = m ((c.tc : Thread nD τ).loc main_arg3) :=
  ((keep6 m ρ c (r := main_arg3) (by decide)).trans ((W5_of_ne m ρ c main_arg3 (by decide)).trans ((keep4 m ρ c (r := main_arg3) (by decide)).trans ((keep3 m ρ c (r := main_arg3) (by decide)).trans ((W2_of_ne m ρ c main_arg3 (by decide)).trans (keep1 m ρ c (r := main_arg3) (by decide)))))))

/-- Window 1 of region 2 reads the mean aggregation of region 1's output over the graph's edges. -/
theorem V7_w1 :
    (V7 m ρ c (Pipeline.arrRef spec2 1) : (⟨S100000x256, .f32⟩ : BufTy).Contents (Elt Ideal))
      = kAgg1 ((dat1 (V4 m ρ) c).arrAt 9 cfg1.N) (kInv (m ((c.tc : Thread nD τ).loc main_arg3))) (m ((c.tc : Thread nD τ).loc main_arg2)) (m ((c.tc : Thread nD τ).loc main_arg3)) := by
  refine (ops2_1_v28 (W6 m ρ c)).trans ?_
  rw [W6_v23 m ρ c, W6_v8 m ρ c, W6_arg3 m ρ c, kAgg1_eq]

/-- Window 2 of region 2 reads the array region 0 left in its output window, carried unchanged through region 1. -/
theorem V7_w2 : V7 m ρ c (Pipeline.arrRef spec2 2) = (dat0 (V1 m ρ) c).arrAt 4 cfg0.N :=
  ((keep7 m ρ c (r := main_v10) (by decide)).trans ((keep6 m ρ c (r := main_v10) (by decide)).trans ((in5 m ρ c 0 rfl).trans ((keep4 m ρ c (r := main_v10) (by decide)).trans (keep3 m ρ c (r := main_v10) (by decide)))))).trans (W2_arr m ρ c 4)

/-- Window 3 of region 2 reads `main_arg13` as launched. -/
theorem V7_w3 : V7 m ρ c (Pipeline.arrRef spec2 3) = m ((c.tc : Thread nD τ).loc main_arg13) :=
  ((keep7 m ρ c (r := main_arg13) (by decide)).trans ((keep6 m ρ c (r := main_arg13) (by decide)).trans ((W5_of_ne m ρ c main_arg13 (by decide)).trans ((keep4 m ρ c (r := main_arg13) (by decide)).trans ((keep3 m ρ c (r := main_arg13) (by decide)).trans ((W2_of_ne m ρ c main_arg13 (by decide)).trans (keep1 m ρ c (r := main_arg13) (by decide))))))))

/-- Window 4 of region 2 reads `main_arg14` as launched. -/
theorem V7_w4 : V7 m ρ c (Pipeline.arrRef spec2 4) = m ((c.tc : Thread nD τ).loc main_arg14) :=
  ((keep7 m ρ c (r := main_arg14) (by decide)).trans ((keep6 m ρ c (r := main_arg14) (by decide)).trans ((W5_of_ne m ρ c main_arg14 (by decide)).trans ((keep4 m ρ c (r := main_arg14) (by decide)).trans ((keep3 m ρ c (r := main_arg14) (by decide)).trans ((W2_of_ne m ρ c main_arg14 (by decide)).trans (keep1 m ρ c (r := main_arg14) (by decide))))))))

/-- Window 5 of region 2 reads `main_arg15`'s vector laid out as one row. -/
theorem V7_w5 :
    (V7 m ρ c (Pipeline.arrRef spec2 5) : (⟨S1x128, .f32⟩ : BufTy).Contents (Elt Ideal))
      = shapeCast S1x128 (m ((c.tc : Thread nD τ).loc main_arg15) : (⟨S128, .f32⟩ : BufTy).Contents (Elt Ideal)) shapeCasts_S128_S1x128 :=
  (ops2_1_v29 (W6 m ρ c)).trans
    (congrArg (fun x : (⟨S128, .f32⟩ : BufTy).Contents (Elt Ideal) => shapeCast S1x128 x shapeCasts_S128_S1x128) ((keep6 m ρ c (r := main_arg15) (by decide)).trans ((W5_of_ne m ρ c main_arg15 (by decide)).trans ((keep4 m ρ c (r := main_arg15) (by decide)).trans ((keep3 m ρ c (r := main_arg15) (by decide)).trans ((W2_of_ne m ρ c main_arg15 (by decide)).trans (keep1 m ρ c (r := main_arg15) (by decide))))))))

/-- Window 6 of region 2 reads `main_arg16`'s vector laid out as one row. -/
theorem V7_w6 :
    (V7 m ρ c (Pipeline.arrRef spec2 6) : (⟨S1x128, .f32⟩ : BufTy).Contents (Elt Ideal))
      = shapeCast S1x128 (m ((c.tc : Thread nD τ).loc main_arg16) : (⟨S128, .f32⟩ : BufTy).Contents (Elt Ideal)) shapeCasts_S128_S1x128 :=
  (ops2_1_v30 (W6 m ρ c)).trans
    (congrArg (fun x : (⟨S128, .f32⟩ : BufTy).Contents (Elt Ideal) => shapeCast S1x128 x shapeCasts_S128_S1x128) ((keep6 m ρ c (r := main_arg16) (by decide)).trans ((W5_of_ne m ρ c main_arg16 (by decide)).trans ((keep4 m ρ c (r := main_arg16) (by decide)).trans ((keep3 m ρ c (r := main_arg16) (by decide)).trans ((W2_of_ne m ρ c main_arg16 (by decide)).trans (keep1 m ρ c (r := main_arg16) (by decide))))))))

/-- Window 7 of region 2 reads `main_arg17`'s vector laid out as one row. -/
theorem V7_w7 :
    (V7 m ρ c (Pipeline.arrRef spec2 7) : (⟨S1x128, .f32⟩ : BufTy).Contents (Elt Ideal))
      = shapeCast S1x128 (m ((c.tc : Thread nD τ).loc main_arg17) : (⟨S128, .f32⟩ : BufTy).Contents (Elt Ideal)) shapeCasts_S128_S1x128 :=
  (ops2_1_v31 (W6 m ρ c)).trans
    (congrArg (fun x : (⟨S128, .f32⟩ : BufTy).Contents (Elt Ideal) => shapeCast S1x128 x shapeCasts_S128_S1x128) ((keep6 m ρ c (r := main_arg17) (by decide)).trans ((W5_of_ne m ρ c main_arg17 (by decide)).trans ((keep4 m ρ c (r := main_arg17) (by decide)).trans ((keep3 m ρ c (r := main_arg17) (by decide)).trans ((W2_of_ne m ρ c main_arg17 (by decide)).trans (keep1 m ρ c (r := main_arg17) (by decide))))))))

/-- Window 8 of region 2 reads `main_arg18`'s vector laid out as one row. -/
theorem V7_w8 :
    (V7 m ρ c (Pipeline.arrRef spec2 8) : (⟨S1x128, .f32⟩ : BufTy).Contents (Elt Ideal))
      = shapeCast S1x128 (m ((c.tc : Thread nD τ).loc main_arg18) : (⟨S128, .f32⟩ : BufTy).Contents (Elt Ideal)) shapeCasts_S128_S1x128 :=
  (ops2_1_v32 (W6 m ρ c)).trans
    (congrArg (fun x : (⟨S128, .f32⟩ : BufTy).Contents (Elt Ideal) => shapeCast S1x128 x shapeCasts_S128_S1x128) ((keep6 m ρ c (r := main_arg18) (by decide)).trans ((W5_of_ne m ρ c main_arg18 (by decide)).trans ((keep4 m ρ c (r := main_arg18) (by decide)).trans ((keep3 m ρ c (r := main_arg18) (by decide)).trans ((W2_of_ne m ρ c main_arg18 (by decide)).trans (keep1 m ρ c (r := main_arg18) (by decide))))))))

/-- Window 9 of region 2 reads `main_arg19`'s vector laid out as one row. -/
theorem V7_w9 :
    (V7 m ρ c (Pipeline.arrRef spec2 9) : (⟨S1x128, .f32⟩ : BufTy).Contents (Elt Ideal))
      = shapeCast S1x128 (m ((c.tc : Thread nD τ).loc main_arg19) : (⟨S128, .f32⟩ : BufTy).Contents (Elt Ideal)) shapeCasts_S128_S1x128 :=
  (ops2_1_v33 (W6 m ρ c)).trans
    (congrArg (fun x : (⟨S128, .f32⟩ : BufTy).Contents (Elt Ideal) => shapeCast S1x128 x shapeCasts_S128_S1x128) ((keep6 m ρ c (r := main_arg19) (by decide)).trans ((W5_of_ne m ρ c main_arg19 (by decide)).trans ((keep4 m ρ c (r := main_arg19) (by decide)).trans ((keep3 m ρ c (r := main_arg19) (by decide)).trans ((W2_of_ne m ρ c main_arg19 (by decide)).trans (keep1 m ρ c (r := main_arg19) (by decide))))))))

/-- Window 10 of region 2 reads `main_arg20` as launched. -/
theorem V7_w10 : V7 m ρ c (Pipeline.arrRef spec2 10) = m ((c.tc : Thread nD τ).loc main_arg20) :=
  ((keep7 m ρ c (r := main_arg20) (by decide)).trans ((keep6 m ρ c (r := main_arg20) (by decide)).trans ((W5_of_ne m ρ c main_arg20 (by decide)).trans ((keep4 m ρ c (r := main_arg20) (by decide)).trans ((keep3 m ρ c (r := main_arg20) (by decide)).trans ((W2_of_ne m ρ c main_arg20 (by decide)).trans (keep1 m ρ c (r := main_arg20) (by decide))))))))

/-- Window 11 of region 2 reads `main_arg21`'s vector laid out as one row. -/
theorem V7_w11 :
    (V7 m ρ c (Pipeline.arrRef spec2 11) : (⟨S1x128, .f32⟩ : BufTy).Contents (Elt Ideal))
      = shapeCast S1x128 (m ((c.tc : Thread nD τ).loc main_arg21) : (⟨S128, .f32⟩ : BufTy).Contents (Elt Ideal)) shapeCasts_S128_S1x128 :=
  (ops2_1_v34 (W6 m ρ c)).trans
    (congrArg (fun x : (⟨S128, .f32⟩ : BufTy).Contents (Elt Ideal) => shapeCast S1x128 x shapeCasts_S128_S1x128) ((keep6 m ρ c (r := main_arg21) (by decide)).trans ((W5_of_ne m ρ c main_arg21 (by decide)).trans ((keep4 m ρ c (r := main_arg21) (by decide)).trans ((keep3 m ρ c (r := main_arg21) (by decide)).trans ((W2_of_ne m ρ c main_arg21 (by decide)).trans (keep1 m ρ c (r := main_arg21) (by decide))))))))

/-- Window 12 of region 2 reads `main_arg22` as launched. -/
theorem V7_w12 : V7 m ρ c (Pipeline.arrRef spec2 12) = m ((c.tc : Thread nD τ).loc main_arg22) :=
  ((keep7 m ρ c (r := main_arg22) (by decide)).trans ((keep6 m ρ c (r := main_arg22) (by decide)).trans ((W5_of_ne m ρ c main_arg22 (by decide)).trans ((keep4 m ρ c (r := main_arg22) (by decide)).trans ((keep3 m ρ c (r := main_arg22) (by decide)).trans ((W2_of_ne m ρ c main_arg22 (by decide)).trans (keep1 m ρ c (r := main_arg22) (by decide))))))))

/-- Window 13 of region 2 reads `main_arg23`'s vector laid out as one row. -/
theorem V7_w13 :
    (V7 m ρ c (Pipeline.arrRef spec2 13) : (⟨S1x64, .f32⟩ : BufTy).Contents (Elt Ideal))
      = shapeCast S1x64 (m ((c.tc : Thread nD τ).loc main_arg23) : (⟨S64, .f32⟩ : BufTy).Contents (Elt Ideal)) shapeCasts_S64_S1x64 :=
  (ops2_1_v35 (W6 m ρ c)).trans
    (congrArg (fun x : (⟨S64, .f32⟩ : BufTy).Contents (Elt Ideal) => shapeCast S1x64 x shapeCasts_S64_S1x64) ((keep6 m ρ c (r := main_arg23) (by decide)).trans ((W5_of_ne m ρ c main_arg23 (by decide)).trans ((keep4 m ρ c (r := main_arg23) (by decide)).trans ((keep3 m ρ c (r := main_arg23) (by decide)).trans ((W2_of_ne m ρ c main_arg23 (by decide)).trans (keep1 m ρ c (r := main_arg23) (by decide))))))))

/-- Window 14 of region 2 reads `main_arg24` as launched. -/
theorem V7_w14 : V7 m ρ c (Pipeline.arrRef spec2 14) = m ((c.tc : Thread nD τ).loc main_arg24) :=
  ((keep7 m ρ c (r := main_arg24) (by decide)).trans ((keep6 m ρ c (r := main_arg24) (by decide)).trans ((W5_of_ne m ρ c main_arg24 (by decide)).trans ((keep4 m ρ c (r := main_arg24) (by decide)).trans ((keep3 m ρ c (r := main_arg24) (by decide)).trans ((W2_of_ne m ρ c main_arg24 (by decide)).trans (keep1 m ρ c (r := main_arg24) (by decide))))))))

/-- Window 15 of region 2 reads `main_arg25`'s vector laid out as one row. -/
theorem V7_w15 :
    (V7 m ρ c (Pipeline.arrRef spec2 15) : (⟨S1x32, .f32⟩ : BufTy).Contents (Elt Ideal))
      = shapeCast S1x32 (m ((c.tc : Thread nD τ).loc main_arg25) : (⟨S32, .f32⟩ : BufTy).Contents (Elt Ideal)) shapeCasts_S32_S1x32 :=
  (ops2_1_v36 (W6 m ρ c)).trans
    (congrArg (fun x : (⟨S32, .f32⟩ : BufTy).Contents (Elt Ideal) => shapeCast S1x32 x shapeCasts_S32_S1x32) ((keep6 m ρ c (r := main_arg25) (by decide)).trans ((W5_of_ne m ρ c main_arg25 (by decide)).trans ((keep4 m ρ c (r := main_arg25) (by decide)).trans ((keep3 m ρ c (r := main_arg25) (by decide)).trans ((W2_of_ne m ρ c main_arg25 (by decide)).trans (keep1 m ρ c (r := main_arg25) (by decide))))))))

end Cert.KernelIdeal.KerFold

end
-- ==== Proof.KerFold.lean ====
/- The contents of every launched region's input arrays of the idealized kernel program when the region is entered,
   each as a function of the launch memory and of the previous regions' output arrays: region 0 in `KerFold0`,
   region 1 in `KerFold1`, region 2 in `KerFold2`; the host-side stages they are stated with in `KerFoldDefs`. -/
import proofs.«138145_j65584150610482_1_alg».proof.Proof.KerFold0
import proofs.«138145_j65584150610482_1_alg».proof.Proof.KerFold1
import proofs.«138145_j65584150610482_1_alg».proof.Proof.KerFold2
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«138145_j65584150610482_1_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«138145_j65584150610482_1_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«138145_j65584150610482_1_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«138145_j65584150610482_1_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.LibProdRows.lean ====
/-
  A MATRIX PRODUCT AS A WHOLE ARRAY, AND SUMS OF ARRAYS, ROW BY ROW, at the ideal values.

  Over LibRegionRows' `prodArr A W` (the product of an `[R, K]` and a `[K, N]` array, entry `(p, c)` being
  `∑ k, A (p, k) · W (k, c)`), generic in every extent:
  • `kprod`: on the vector unit, the matrix product into a zero accumulator over the plain dimension record IS `prodArr`;
  • `hprod`: on the host, `dot_general` over the plain record IS `prodArr`;
  • `prodArr_rows`: row `p` of a product depends on row `p` of the left operand and on nothing else of it;
  • `addArr`, `addArr_rows`: two arrays added entry by entry, and the same locality.
  Together with LibDenseRow's `layerArr_rows` and `actArr_rows` these say that a network of products, dense layers,
  rectifiers and residual sums computed on a block of rows is that block of rows of the network computed on the whole.
  Sums are compared term by term in the same order: no algebra of the extended reals is used.
-/
import proofs.«138145_j65584150610482_1_alg».proof.Proof.LibRegionRows

noncomputable section

open scoped BigOperators

namespace Cert.ProdRows

open Idealize.ShloMosaic Idealize.ShloMosaic.ValueIdx Cert.DenseRow
open Cert.KernelIdeal.RegionValue (prodArr prodArr_apply)

/-- The vector unit's product into the zero accumulator, as a whole array. -/
theorem kprod {R K N : ℕ} {φ₁ φ₂ : FTy} (prec : Option ContractPrecision)
    (a : FVec Ideal ⟨2, ![R, K]⟩ φ₁) (w : FVec Ideal ⟨2, ![K, N]⟩ φ₂) :
    matmul (DotDims.plain R K N) prec a w (constant ⟨2, ![R, N]⟩ .f32 0x00000000#32) = prodArr a w := by
  funext i
  obtain ⟨p, c, rfl⟩ : ∃ (p : Fin R) (c : Fin N), i = ix2 p c := ⟨i 0, i 1, eq_ix2 i⟩
  exact Cert.BlockDot.kdot_apply prec a w p c

/-- The host's `dot_general`, as a whole array. -/
theorem hprod {R K N : ℕ} {φ₁ φ₂ : FTy} (prec : Option ContractPrecision)
    (a : FVec Ideal ⟨2, ![R, K]⟩ φ₁) (w : FVec Ideal ⟨2, ![K, N]⟩ φ₂) :
    Host.dotGeneral (DotDims.plain R K N) prec a w = prodArr a w := by
  funext i
  obtain ⟨p, c, rfl⟩ : ∃ (p : Fin R) (c : Fin N), i = ix2 p c := ⟨i 0, i 1, eq_ix2 i⟩
  exact Cert.BlockDot.hdot_apply prec a w p c

/-- Row `p` of a product depends on row `p` of the left operand only. -/
theorem prodArr_rows {R R' K N : ℕ} (a : (⟨2, ![R, K]⟩ : Shape).Idx → EReal) (A : (⟨2, ![R', K]⟩ : Shape).Idx → EReal)
    (w : (⟨2, ![K, N]⟩ : Shape).Idx → EReal) (p : Fin R) (p' : Fin R')
    (h : ∀ k : Fin K, a (ix2 p k) = A (ix2 p' k)) (c : Fin N) : prodArr a w (ix2 p c) = prodArr A w (ix2 p' c) := by
  rw [prodArr_apply, prodArr_apply]
  exact Finset.sum_congr rfl fun k _ => by rw [h k]

/-- Two arrays added entry by entry. -/
def addArr {s : Shape} (x y : s.Idx → EReal) : s.Idx → EReal := fun i => x i + y i

/-- On either unit, the float sum of two arrays at the ideal values. -/
theorem addf_eq {s : Shape} {φ : FTy} (x y : FVec Ideal s φ) : addf x y = addArr x y := rfl

theorem addArr_rows {R R' N : ℕ} (x y : (⟨2, ![R, N]⟩ : Shape).Idx → EReal) (X Y : (⟨2, ![R', N]⟩ : Shape).Idx → EReal)
    (p : Fin R) (p' : Fin R') (hx : ∀ k : Fin N, x (ix2 p k) = X (ix2 p' k)) (hy : ∀ k : Fin N, y (ix2 p k) = Y (ix2 p' k))
    (c : Fin N) : addArr x y (ix2 p c) = addArr X Y (ix2 p' c) := by
  show x (ix2 p c) + y (ix2 p c) = X (ix2 p' c) + Y (ix2 p' c)
  rw [hx c, hy c]

end Cert.ProdRows

end
-- ==== Proof.LibPairLayer.lean ====
/-
  A DENSE LAYER WITH TWO INPUTS, at the ideal values.

  A node of a bipartite graph keeps its own feature row `x` and receives the mean `h` of its neighbours' rows; its new row
  is  `j ↦ ((∑ k, x k · ws k j) + (∑ k, h k · wn k j)) + b j`,  optionally rectified (the larger of each entry and
  zero).  Stated here for any number `R` of rows, any inner extent `K` and any width `N`, as one whole-array function
  `pairLayer x h ws wn b` built from the product `prodArr`, the entrywise sum `addArr` and the bias repeated on every
  row (`biasRows`).  Row `p` of the result depends only on row `p` of `x` and of `h` (`pairLayer_rows`), so the layer of
  a block of rows is that block of rows of the layer of the whole arrays.  Two spellings are shown equal to it:
  • on the vector unit, two matrix products into zero accumulators over operands whose change of format is the identity,
    added, plus a one-row bias `[1, N]` broadcast over the rows (`kpair`), and the same under the rectifier with a splat
    zero (`kpair_relu`);
  • on the host, two `dot_general`s added, plus the bias `[N]` broadcast to one row and then over the rows (`hpair`), and
    the same under the rectifier with the zero constant broadcast from a scalar (`hpair_relu`).
  The sums are compared term by term in the order written: no sum is regrouped and nothing is assumed finite.
-/
import proofs.«138145_j65584150610482_1_alg».proof.Proof.LibRowBias
import proofs.«138145_j65584150610482_1_alg».proof.Proof.LibProdRows

noncomputable section

open scoped BigOperators

namespace Cert.PairLayer

open Idealize.ShloMosaic Idealize.ShloMosaic.ValueIdx Cert.DenseRow Cert.RowBias Cert.ProdRows
open Cert.KernelIdeal.RegionValue (prodArr prodArr_apply)

/-! ## The bias on every row -/

/-- A vector of `N` numbers repeated on each of `R` rows. -/
def biasRows {R N : ℕ} (b : (⟨1, ![N]⟩ : Shape).Idx → EReal) : (⟨2, ![R, N]⟩ : Shape).Idx → EReal :=
  fun i => b (ix1 (i 1))

theorem biasRows_apply {R N : ℕ} (b : (⟨1, ![N]⟩ : Shape).Idx → EReal) (p : Fin R) (c : Fin N) :
    biasRows (R := R) b (ix2 p c) = b (ix1 c) := rfl

/-- On the vector unit: a one-row array cast to itself and broadcast over the rows repeats its row. -/
theorem kbias {R N : ℕ} (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    broadcastTo ⟨2, ![R, N]⟩ (shapeCast ⟨2, ![1, N]⟩ v hc) hb = biasRows (unrow v) := by
  funext i
  obtain ⟨p, c, rfl⟩ : ∃ (p : Fin R) (c : Fin N), i = ix2 p c := ⟨i 0, i 1, eq_ix2 i⟩
  rw [shapeCast_self, broadcastTo_1b_ab_apply]
  rfl

/-- On the host: a vector broadcast to one row and then over the rows repeats it. -/
theorem hbias {R N : ℕ} (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    broadcastInDim ⟨2, ![R, N]⟩ ![0, 1] h2 (broadcastInDim ⟨2, ![1, N]⟩ ![1] h1 b) = biasRows b := by
  funext i
  obtain ⟨p, c, rfl⟩ : ∃ (p : Fin R) (c : Fin N), i = ix2 p c := ⟨i 0, i 1, eq_ix2 i⟩
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  rfl

/-! ## The layer -/

/-- `x · ws + h · wn + b` on every row. -/
def pairLayer {R K N : ℕ} (x h : (⟨2, ![R, K]⟩ : Shape).Idx → EReal) (ws wn : (⟨2, ![K, N]⟩ : Shape).Idx → EReal)
    (b : (⟨1, ![N]⟩ : Shape).Idx → EReal) : (⟨2, ![R, N]⟩ : Shape).Idx → EReal :=
  addArr (addArr (prodArr x ws) (prodArr h wn)) (biasRows b)

theorem pairLayer_apply {R K N : ℕ} (x h : (⟨2, ![R, K]⟩ : Shape).Idx → EReal) (ws wn : (⟨2, ![K, N]⟩ : Shape).Idx → EReal)
    (b : (⟨1, ![N]⟩ : Shape).Idx → EReal) (p : Fin R) (c : Fin N) :
    pairLayer x h ws wn b (ix2 p c)
      = ((∑ k : Fin K, x (ix2 p k) * ws (ix2 k c)) + (∑ k : Fin K, h (ix2 p k) * wn (ix2 k c))) + b (ix1 c) := rfl

/-- Row `p` of the layer depends on row `p` of the two tall operands only. -/
theorem pairLayer_rows {R R' K N : ℕ} (x h : (⟨2, ![R, K]⟩ : Shape).Idx → EReal) (X H : (⟨2, ![R', K]⟩ : Shape).Idx → EReal)
    (ws wn : (⟨2, ![K, N]⟩ : Shape).Idx → EReal) (b : (⟨1, ![N]⟩ : Shape).Idx → EReal) (p : Fin R) (p' : Fin R')
    (hx : ∀ k : Fin K, x (ix2 p k) = X (ix2 p' k)) (hh : ∀ k : Fin K, h (ix2 p k) = H (ix2 p' k)) (c : Fin N) :
    pairLayer x h ws wn b (ix2 p c) = pairLayer X H ws wn b (ix2 p' c) := by
  rw [pairLayer_apply, pairLayer_apply]
  rw [show (∑ k : Fin K, x (ix2 p k) * ws (ix2 k c)) = ∑ k : Fin K, X (ix2 p' k) * ws (ix2 k c) from
      Finset.sum_congr rfl fun k _ => by rw [hx k],
    show (∑ k : Fin K, h (ix2 p k) * wn (ix2 k c)) = ∑ k : Fin K, H (ix2 p' k) * wn (ix2 k c) from
      Finset.sum_congr rfl fun k _ => by rw [hh k]]

/-- The same under the rectifier. -/
theorem relu_pairLayer_rows {R R' K N : ℕ} (x h : (⟨2, ![R, K]⟩ : Shape).Idx → EReal) (X H : (⟨2, ![R', K]⟩ : Shape).Idx → EReal)
    (ws wn : (⟨2, ![K, N]⟩ : Shape).Idx → EReal) (b : (⟨1, ![N]⟩ : Shape).Idx → EReal) (p : Fin R) (p' : Fin R')
    (hx : ∀ k : Fin K, x (ix2 p k) = X (ix2 p' k)) (hh : ∀ k : Fin K, h (ix2 p k) = H (ix2 p' k)) (c : Fin N) :
    actArr zf (pairLayer x h ws wn b) (ix2 p c) = actArr zf (pairLayer X H ws wn b) (ix2 p' c) :=
  actArr_rows zf _ _ p p' (fun j => pairLayer_rows x h X H ws wn b p p' hx hh j) c

/-! ## The vector unit's spelling -/

/-- Two products into zero accumulators over operands cast to themselves and changed of format, added, plus the one-row
    bias broadcast over the rows. -/
theorem kpair {R K N : ℕ} (x0 x1 : FVec Ideal ⟨2, ![R, K]⟩ .f32) (x2 x3 : FVec Ideal ⟨2, ![K, N]⟩ .f32)
    (x4 : FVec Ideal ⟨2, ![1, N]⟩ .f32)
    (hc0 : (⟨2, ![R, K]⟩ : Shape).ShapeCasts ⟨2, ![R, K]⟩)
    (hc4 : (⟨2, ![1, N]⟩ : Shape).ShapeCasts ⟨2, ![1, N]⟩) (hb4 : (⟨2, ![1, N]⟩ : Shape).Broadcasts ⟨2, ![R, N]⟩)
    (hbits : FTy.bf16.bits < FTy.f32.bits) :
    addf (addf
        (matmul (DotDims.plain R K N) none (truncf .bf16 (shapeCast ⟨2, ![R, K]⟩ x0 hc0) hbits) (truncf .bf16 x2 hbits)
          (constant ⟨2, ![R, N]⟩ .f32 0x00000000#32))
        (matmul (DotDims.plain R K N) none (truncf .bf16 (shapeCast ⟨2, ![R, K]⟩ x1 hc0) hbits) (truncf .bf16 x3 hbits)
          (constant ⟨2, ![R, N]⟩ .f32 0x00000000#32)))
      (broadcastTo ⟨2, ![R, N]⟩ (shapeCast ⟨2, ![1, N]⟩ x4 hc4) hb4)
      = pairLayer x0 x1 x2 x3 (unrow x4) := by
  rw [kbias, kprod, kprod, shapeCast_self, shapeCast_self]
  rfl

/-- The same under the rectifier: the larger of the layer and the zero word splat over it. -/
theorem kpair_relu {R K N : ℕ} (x0 x1 : FVec Ideal ⟨2, ![R, K]⟩ .f32) (x2 x3 : FVec Ideal ⟨2, ![K, N]⟩ .f32)
    (x4 : FVec Ideal ⟨2, ![1, N]⟩ .f32)
    (hc0 : (⟨2, ![R, K]⟩ : Shape).ShapeCasts ⟨2, ![R, K]⟩)
    (hc4 : (⟨2, ![1, N]⟩ : Shape).ShapeCasts ⟨2, ![1, N]⟩) (hb4 : (⟨2, ![1, N]⟩ : Shape).Broadcasts ⟨2, ![R, N]⟩)
    (hbits : FTy.bf16.bits < FTy.f32.bits) :
    maximumf (addf (addf
        (matmul (DotDims.plain R K N) none (truncf .bf16 (shapeCast ⟨2, ![R, K]⟩ x0 hc0) hbits) (truncf .bf16 x2 hbits)
          (constant ⟨2, ![R, N]⟩ .f32 0x00000000#32))
        (matmul (DotDims.plain R K N) none (truncf .bf16 (shapeCast ⟨2, ![R, K]⟩ x1 hc0) hbits) (truncf .bf16 x3 hbits)
          (constant ⟨2, ![R, N]⟩ .f32 0x00000000#32)))
      (broadcastTo ⟨2, ![R, N]⟩ (shapeCast ⟨2, ![1, N]⟩ x4 hc4) hb4))
      (broadcast ⟨2, ![R, N]⟩ (Scalar.ofBits (F := Ideal) .f32 0x00000000#32))
      = actArr zf (pairLayer x0 x1 x2 x3 (unrow x4)) := by
  rw [kact, kpair]

/-! ## The host's spelling -/

/-- Two `dot_general`s added, plus the bias broadcast to one row and then over the rows. -/
theorem hpair {R K N : ℕ} (x h : FVec Ideal ⟨2, ![R, K]⟩ .f32) (ws wn : FVec Ideal ⟨2, ![K, N]⟩ .f32)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (addf (Host.dotGeneral (DotDims.plain R K N) none x ws) (Host.dotGeneral (DotDims.plain R K N) none h wn))
        (broadcastInDim ⟨2, ![R, N]⟩ ![0, 1] h2 (broadcastInDim ⟨2, ![1, N]⟩ ![1] h1 b))
      = pairLayer x h ws wn b := by
  rw [hbias, hprod, hprod]
  rfl

/-- The same under the rectifier: the larger of the layer and the zero constant broadcast from a scalar. -/
theorem hpair_relu {R K N : ℕ} (x h : FVec Ideal ⟨2, ![R, K]⟩ .f32) (ws wn : FVec Ideal ⟨2, ![K, N]⟩ .f32)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (h0 : (⟨0, ![]⟩ : Shape).BroadcastsInDim ⟨2, ![R, N]⟩ ![]) :
    maximumf (addf (addf (Host.dotGeneral (DotDims.plain R K N) none x ws) (Host.dotGeneral (DotDims.plain R K N) none h wn))
        (broadcastInDim ⟨2, ![R, N]⟩ ![0, 1] h2 (broadcastInDim ⟨2, ![1, N]⟩ ![1] h1 b)))
      (broadcastInDim ⟨2, ![R, N]⟩ ![] h0 (constant (F := Ideal) ⟨0, ![]⟩ .f32 0x00000000#32))
      = actArr zf (pairLayer x h ws wn b) := by
  rw [hact, hpair]

end Cert.PairLayer

end
-- ==== Proof.Net.lean ====
/-
  THE NETWORK'S LAYERS AS WHOLE-ARRAY FUNCTIONS, at the ideal values.

  Three layers, each for any number `R` of rows, each acting on every row by itself:
  • the encoder: two feature arrays side by side, a dense layer, the rectifier (`enc`);
  • a neighbourhood layer: a two-input dense layer `x · ws + h · wn + b`, then on every column `j` the affine map
    `y ↦ (y − mu j) · sc j + be j` (a batch normalisation with a given scale vector `sc`), then the rectifier (`sage`);
  • the read-out: the two hidden arrays side by side, three dense layers with a rectifier after the first two (`head`).
  Row `p` of each result depends only on row `p` of the tall operands (`enc_rows`, `sage_rows`, `head_rows`), so the
  layer of a block of rows is that block of rows of the layer of the whole arrays.
  The normalisation's scale vector is spelt two ways, `g j · rsqrt (v j + ε)` and `g j / sqrt (v j + ε)`; for a variance
  `v j ≥ 0` and `ε > 0` the argument of the root is a positive real, both are `g j` times the reciprocal of its square
  root, and they agree (`scaleK_eq_scaleR`).
-/
import proofs.«138145_j65584150610482_1_alg».proof.Proof.LibPairLayer

noncomputable section

open scoped BigOperators

namespace Cert.Net

open Idealize.ShloMosaic Idealize.ShloMosaic.ValueIdx Cert.DenseRow Cert.RowBias Cert.ProdRows Cert.PairLayer
open Cert.KernelIdeal.RegionValue (prodArr prodArr_apply)

/-- A matrix of extended reals with `R` rows and `N` columns. -/
abbrev A2 (R N : ℕ) : Type := (⟨2, ![R, N]⟩ : Shape).Idx → EReal
/-- A vector of `N` extended reals. -/
abbrev A1 (N : ℕ) : Type := (⟨1, ![N]⟩ : Shape).Idx → EReal

/-! ## The encoder -/

def enc {R : ℕ} (s : A2 R 128) (mm : A2 R 384) (w : A2 512 128) (b : A1 128) : A2 R 128 :=
  actArr zf (layerArr (catArr (show 512 = 128 + 384 from rfl) s mm) w b)

theorem enc_rows {R R' : ℕ} (s : A2 R 128) (mm : A2 R 384) (S : A2 R' 128) (MM : A2 R' 384) (w : A2 512 128) (b : A1 128)
    (p : Fin R) (p' : Fin R') (hs : ∀ k : Fin 128, s (ix2 p k) = S (ix2 p' k)) (hm : ∀ k : Fin 384, mm (ix2 p k) = MM (ix2 p' k))
    (c : Fin 128) : enc s mm w b (ix2 p c) = enc S MM w b (ix2 p' c) :=
  actArr_rows zf _ _ p p' (fun j => layerArr_rows _ _ w b p p' (fun k => catArr_rows _ s mm S MM p p' hs hm k) j) c

/-! ## The affine map on every column -/

/-- `y ↦ (y − mu j) · sc j + be j` on column `j`, every row. -/
def affRows {R N : ℕ} (y : A2 R N) (mu sc be : A1 N) : A2 R N :=
  fun i => (y i - biasRows (R := R) mu i) * biasRows (R := R) sc i + biasRows (R := R) be i

theorem affRows_apply {R N : ℕ} (y : A2 R N) (mu sc be : A1 N) (p : Fin R) (c : Fin N) :
    affRows y mu sc be (ix2 p c) = (y (ix2 p c) - mu (ix1 c)) * sc (ix1 c) + be (ix1 c) := rfl

theorem affRows_rows {R R' N : ℕ} (y : A2 R N) (Y : A2 R' N) (mu sc be : A1 N) (p : Fin R) (p' : Fin R')
    (h : ∀ k : Fin N, y (ix2 p k) = Y (ix2 p' k)) (c : Fin N) :
    affRows y mu sc be (ix2 p c) = affRows Y mu sc be (ix2 p' c) := by
  rw [affRows_apply, affRows_apply, h c]

/-! ## A neighbourhood layer -/

def sage {R K N : ℕ} (x h : A2 R K) (ws wn : A2 K N) (b mu sc be : A1 N) : A2 R N :=
  actArr zf (affRows (pairLayer x h ws wn b) mu sc be)

theorem sage_rows {R R' K N : ℕ} (x h : A2 R K) (X H : A2 R' K) (ws wn : A2 K N) (b mu sc be : A1 N) (p : Fin R) (p' : Fin R')
    (hx : ∀ k : Fin K, x (ix2 p k) = X (ix2 p' k)) (hh : ∀ k : Fin K, h (ix2 p k) = H (ix2 p' k)) (c : Fin N) :
    sage x h ws wn b mu sc be (ix2 p c) = sage X H ws wn b mu sc be (ix2 p' c) :=
  actArr_rows zf _ _ p p' (fun j => affRows_rows _ _ mu sc be p p' (fun k => pairLayer_rows x h X H ws wn b p p' hx hh k) j) c

/-! ## The read-out -/

def head {R : ℕ} (h0 h1 : A2 R 128) (wr : A2 256 128) (br : A1 128) (w1 : A2 128 64) (b1 : A1 64) (w2 : A2 64 32) (b2 : A1 32) :
    A2 R 32 :=
  layerArr (actArr zf (layerArr (actArr zf (layerArr (catArr (show 256 = 128 + 128 from rfl) h0 h1) wr br)) w1 b1)) w2 b2

theorem head_rows {R R' : ℕ} (h0 h1 : A2 R 128) (H0 H1 : A2 R' 128) (wr : A2 256 128) (br : A1 128) (w1 : A2 128 64) (b1 : A1 64)
    (w2 : A2 64 32) (b2 : A1 32) (p : Fin R) (p' : Fin R')
    (e0 : ∀ k : Fin 128, h0 (ix2 p k) = H0 (ix2 p' k)) (e1 : ∀ k : Fin 128, h1 (ix2 p k) = H1 (ix2 p' k)) (c : Fin 32) :
    head h0 h1 wr br w1 b1 w2 b2 (ix2 p c) = head H0 H1 wr br w1 b1 w2 b2 (ix2 p' c) :=
  layerArr_rows _ _ w2 b2 p p' (fun k2 => actArr_rows zf _ _ p p' (fun j2 => layerArr_rows _ _ w1 b1 p p'
    (fun k1 => actArr_rows zf _ _ p p' (fun j1 => layerArr_rows _ _ wr br p p'
      (fun k0 => catArr_rows _ h0 h1 H0 H1 p p' e0 e1 k0) j1) k1) j2) k2) c

/-! ## The scale vector's two spellings -/

/-- The small positive number added under the root: the value of the word `0x3727C5AC`, never evaluated further than its sign. -/
def eps : EReal := Ideal.ofBits .f32 0x3727C5AC#32

/-- `g j · rsqrt (v j + ε)`. -/
def scaleK {N : ℕ} (g v : A1 N) : A1 N := fun j => g j * Ideal.rsqrt (v j + eps)

/-- `g j / sqrt (v j + ε)`. -/
def scaleR {N : ℕ} (g v : A1 N) : A1 N := fun j => Ideal.div (g j) (Ideal.sqrt (v j + eps))

end Cert.Net

end
-- ==== Proof.Region0.lean ====
/-
  THE FIRST REGION'S ARRAY: the encoder of the whole feature arrays.

  The region runs the encoder on 20 blocks of 5000 rows.  At a point `t` the two feature windows hold rows
  `5000·t … 5000·t + 4999` of their arrays, the weight and the one-row bias are whole at every point, and the body stores
  `relu ([s | mm] · w + b)` of its blocks (`pay`).  Each output row depends only on the same row of the two feature
  arrays, so what point `t` writes back is rows `5000·t …` of the encoder of the whole arrays (`flushed_eq`); the 20
  blocks tile the 100000 rows (`cover`), so the array ends at the encoder of the whole arrays (`final`).  Stated for any
  contents `V` the region is entered with.
-/
import proofs.«138145_j65584150610482_1_alg».proof.Proof.Gen.KernelIdeal.Frame
import proofs.«138145_j65584150610482_1_alg».proof.Proof.Net
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen Cert.DenseRow Cert.RowBias Cert.Net

variable (V : (c : Dev nD) → (b : Ref sig .tc) → Buf (Elt Ideal) ((c : Thread nD τ).loc b))

theorem hz : (![0, 0] : Fin 2 → Nat) = fun _ => 0 := funext fun a => by fin_cases a <;> rfl

/-- The body's stored value is the encoder of its loaded blocks. -/
theorem pay (v0 : Vec Ideal S5000x128 .f32) (v1 : Vec Ideal S5000x384 .f32) (v4 : Vec Ideal S512x128 .f32) (v7 : Vec Ideal S1x128 .f32) :
    k0_pay1 v0 v1 v4 v7 = enc (R := 5000) v0 v1 v4 (unrow v7) := by
  unfold k0_pay1 enc
  dsimp only
  rw [kact]
  refine congrArg (actArr zf) ?_
  refine (klayer1Arr (DotDims.plain 5000 512 128) rfl rfl (Cert.PlainDot.lhs_at 5000 512 128) (Cert.PlainDot.rhs_at 5000 512 128)
    none _ _ v7 _ _).trans ?_
  refine congrArg (fun a => layerArr a v4 (unrow v7)) ?_
  show concatenate S5000x512 1 [⟨S5000x128, v0⟩, ⟨S5000x384, v1⟩] concatenates_S5000x128_S5000x384_S5000x512_d1 = _
  exact concatArr (show 512 = 128 + 384 from rfl) v0 v1 concatenates_S5000x128_S5000x384_S5000x512_d1

/-- The index maps over the grid: the row windows sit at block `t`, the weight and bias windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Window 0's block at point `t`, read at `(p, k)`: row `5000·t + p` of its array. -/
theorem blk0 (c : Dev nD) (t : Fin cfg0.N) (p : Fin 5000) (k : Fin 128) (p' : Fin 100000) (hp : p'.val = 5000 * t.val + p.val) :
    (iblk0 V c 0 t : S5000x128.Idx → EReal) (ix2 p k) = (V c (Pipeline.arrRef spec0 0) : S100000x128.Idx → EReal) (ix2 p' k) := by
  obtain ⟨e0, e1, -⟩ := idx_facts t
  unfold iblk0
  rw [View.read_apply]
  refine congrArg (V c (Pipeline.arrRef spec0 0) : S100000x128.Idx → EReal) ?_
  funext a
  apply Fin.ext
  match a with
  | ⟨0, _⟩ => show win0_0.index t (0 : Fin 2) * 5000 + 1 * p.val = p'.val; rw [e0, hp]; omega
  | ⟨1, _⟩ => show win0_0.index t (1 : Fin 2) * 128 + 1 * k.val = k.val; rw [e1]; omega

/-- Window 1's block at point `t`, read at `(p, k)`: row `5000·t + p` of its array. -/
theorem blk1 (c : Dev nD) (t : Fin cfg0.N) (p : Fin 5000) (k : Fin 384) (p' : Fin 100000) (hp : p'.val = 5000 * t.val + p.val) :
    (iblk0 V c 1 t : S5000x384.Idx → EReal) (ix2 p k) = (V c (Pipeline.arrRef spec0 1) : S100000x384.Idx → EReal) (ix2 p' k) := by
  obtain ⟨-, -, e0, e1, -⟩ := idx_facts t
  unfold iblk0
  rw [View.read_apply]
  refine congrArg (V c (Pipeline.arrRef spec0 1) : S100000x384.Idx → EReal) ?_
  funext a
  apply Fin.ext
  match a with
  | ⟨0, _⟩ => show win0_1.index t (0 : Fin 2) * 5000 + 1 * p.val = p'.val; rw [e0, hp]; omega
  | ⟨1, _⟩ => show win0_1.index t (1 : Fin 2) * 384 + 1 * k.val = k.val; rw [e1]; omega

/-- Window 2 (the weight) is whole at every point. -/
theorem blk2 (c : Dev nD) (t : Fin cfg0.N) :
    (iblk0 V c 2 t : S512x128.Idx → EReal) = (V c (Pipeline.arrRef spec0 2) : S512x128.Idx → EReal) := by
  obtain ⟨-, -, -, -, e0, e1, -⟩ := idx_facts t
  funext y
  unfold iblk0
  rw [View.read_apply]
  refine congrArg (V c (Pipeline.arrRef spec0 2) : S512x128.Idx → EReal) ?_
  funext a
  apply Fin.ext
  match a with
  | ⟨0, _⟩ => show win0_2.index t (0 : Fin 2) * 512 + 1 * (y 0).val = (y 0).val; rw [e0]; omega
  | ⟨1, _⟩ => show win0_2.index t (1 : Fin 2) * 128 + 1 * (y 1).val = (y 1).val; rw [e1]; omega

/-- Window 3 (the one-row bias) is whole at every point. -/
theorem blk3 (c : Dev nD) (t : Fin cfg0.N) :
    (iblk0 V c 3 t : S1x128.Idx → EReal) = (V c (Pipeline.arrRef spec0 3) : S1x128.Idx → EReal) := by
  obtain ⟨-, -, -, -, -, -, e0, e1, -⟩ := idx_facts t
  funext y
  unfold iblk0
  rw [View.read_apply]
  refine congrArg (V c (Pipeline.arrRef spec0 3) : S1x128.Idx → EReal) ?_
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The region's array after the run, as a function of the contents it was entered with. -/
def G (c : Dev nD) : S100000x128.Idx → EReal :=
  enc (R := 100000) (V c (Pipeline.arrRef spec0 0)) (V c (Pipeline.arrRef spec0 1)) (V c (Pipeline.arrRef spec0 2))
    (unrow (V c (Pipeline.arrRef spec0 3)))

/-- What point `t` writes back is block `t` of `G`. -/
theorem flushed_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  unfold out0_4
  rw [View.canon_unit_zero hz]
  simp only [View.ld_unit_zero (S := S5000x128) hz, View.ld_unit_zero (S := S5000x384) hz, View.ld_unit_zero (S := S512x128) hz,
    View.ld_unit_zero (S := S1x128) hz]
  rw [pay, blk2 V c t, blk3 V c t]
  obtain ⟨-, -, -, -, -, -, -, -, e0, e1⟩ := idx_facts t
  funext j
  obtain ⟨p, q, rfl⟩ : ∃ (p : Fin 5000) (q : Fin 128), j = ix2 p q := ⟨j 0, j 1, eq_ix2 j⟩
  have ht : t.val < 20 := by have h := t.isLt; have hN : cfg0.N = 20 := N_0; omega
  have hp' : 5000 * t.val + p.val < 100000 := by have := p.isLt; omega
  rw [View.read_apply]
  have hemb : ((cfg0.win 4).blk t).view.emb (ix2 p q) = (ix2 (⟨5000 * t.val + p.val, hp'⟩ : Fin 100000) q : S100000x128.Idx) := by
    funext a
    apply Fin.ext
    match a with
    | ⟨0, _⟩ => show win0_4.index t (0 : Fin 2) * 5000 + 1 * p.val = 5000 * t.val + p.val; rw [e0]; omega
    | ⟨1, _⟩ => show win0_4.index t (1 : Fin 2) * 128 + 1 * q.val = q.val; rw [e1]; omega
  rw [hemb]
  unfold G
  exact enc_rows _ _ _ _ _ _ p ⟨5000 * t.val + p.val, hp'⟩ (fun k => blk0 V c t p k _ rfl) (fun k => blk1 V c t p k _ rfl) q

/-- An index is in point `t`'s block iff each coordinate is in the block's range. -/
theorem mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v10).slice (win0_4.rect t)).set ↔ _
  rw [View.set_slice_whole, Rect.mem_set_unit]
  exact Iff.rfl

/-- Every row is in some point's block: row `r` in block `r / 5000`. -/
theorem cover (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_4 _, ?_⟩
  rw [mem_blk]
  obtain ⟨-, -, -, -, -, -, -, -, e0, e1⟩ := idx_facts ⟨(i 0).val / 5000, by rw [hN]; omega⟩
  intro a
  match a with
  | ⟨0, _⟩ =>
    show win0_4.index _ (0 : Fin 2) * 5000 ≤ (i 0).val ∧ (i 0).val < win0_4.index _ (0 : Fin 2) * 5000 + 5000
    rw [e0]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [e1]; omega

/-- The region's array after the run is the encoder of the whole arrays it was entered with. -/
theorem final (c : Dev nD) : (dat0 V c).arrAt 4 cfg0.N = G V c :=
  (dat0 V c).arrAt_eq_of_cover 4 (G V c) (fun t _ => flushed_eq V c t) (cover)

end Cert.KernelIdeal.Reg0

end
-- ==== Proof.NetForms.lean ====
/-
  THE LAYERS' TWO SPELLINGS, at the ideal values.

  Over the whole-array layers `enc`, `sage`, `head`: the spelling a vector unit's body uses (matrix products into zero
  accumulators over operands whose change of format is the identity, one-row arrays cast to themselves and broadcast over
  the rows, a splat zero under the rectifier) and the spelling a host program uses (`dot_general`, a vector broadcast first
  to one row and then over the rows, a scalar zero broadcast under the rectifier) are each shown equal to the layer.  No sum
  is regrouped and nothing is assumed finite here.
-/
import proofs.«138145_j65584150610482_1_alg».proof.Proof.Net

noncomputable section

open scoped BigOperators

namespace Cert.Net

open Idealize.ShloMosaic Idealize.ShloMosaic.ValueIdx Cert.DenseRow Cert.RowBias Cert.ProdRows Cert.PairLayer
open Cert.KernelIdeal.RegionValue (prodArr prodArr_apply)

/-! ## One-row arrays over the rows -/

/-- On the vector unit: a one-row array broadcast over the rows repeats its row. -/
theorem kbias' {R N : ℕ} (v : FVec Ideal ⟨2, ![1, N]⟩ .f32) (hb : (⟨2, ![1, N]⟩ : Shape).Broadcasts ⟨2, ![R, N]⟩) :
    broadcastTo ⟨2, ![R, N]⟩ v hb = biasRows (R := R) (unrow v) := by
  funext i
  obtain ⟨p, c, rfl⟩ : ∃ (p : Fin R) (c : Fin N), i = ix2 p c := ⟨i 0, i 1, eq_ix2 i⟩
  rw [broadcastTo_1b_ab_apply]
  rfl

/-! ## The affine map on every column -/

/-- On the vector unit: subtract a one-row array, multiply by one, add one, each broadcast over the rows. -/
theorem kaff {R N : ℕ} (y : FVec Ideal ⟨2, ![R, N]⟩ .f32) (mu sc be : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (mulf (subf y (broadcastTo ⟨2, ![R, N]⟩ (shapeCast ⟨2, ![1, N]⟩ mu hc) hb)) (broadcastTo ⟨2, ![R, N]⟩ sc hb))
        (broadcastTo ⟨2, ![R, N]⟩ (shapeCast ⟨2, ![1, N]⟩ be hc) hb)
      = affRows y (unrow mu) (unrow sc) (unrow be) := by
  rw [kbias, kbias, kbias']
  rfl

/-- On the host: the same with vectors broadcast to one row and then over the rows. -/
theorem haff {R N : ℕ} (y : FVec Ideal ⟨2, ![R, N]⟩ .f32) (mu sc be : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (mulf (subf y (broadcastInDim ⟨2, ![R, N]⟩ ![0, 1] h2 (broadcastInDim ⟨2, ![1, N]⟩ ![1] h1 mu)))
          (broadcastInDim ⟨2, ![R, N]⟩ ![0, 1] h2 (broadcastInDim ⟨2, ![1, N]⟩ ![1] h1 sc)))
        (broadcastInDim ⟨2, ![R, N]⟩ ![0, 1] h2 (broadcastInDim ⟨2, ![1, N]⟩ ![1] h1 be))
      = affRows y mu sc be := by
  rw [hbias, hbias, hbias]
  rfl

/-! ## The scale vector -/

/-- On the vector unit: the one-row gain times the reciprocal root of the one-row variance plus the splat `ε`. -/
theorem kscale {N : ℕ} (g v : FVec Ideal ⟨2, ![1, N]⟩ .f32) (hc : (⟨2, ![1, N]⟩ : Shape).ShapeCasts ⟨2, ![1, N]⟩) :
    unrow (mulf (shapeCast ⟨2, ![1, N]⟩ g hc)
        (rsqrt (addf (shapeCast ⟨2, ![1, N]⟩ v hc) (broadcast ⟨2, ![1, N]⟩ (Scalar.ofBits (F := Ideal) .f32 0x3727C5AC#32)))))
      = scaleK (unrow g) (unrow v) := by
  rw [shapeCast_self, shapeCast_self]
  rfl

/-- On the host: the gain divided by the root of the variance plus `ε` broadcast from a scalar. -/
theorem hscale {N : ℕ} (g v : FVec Ideal ⟨1, ![N]⟩ .f32) (h0 : (⟨0, ![]⟩ : Shape).BroadcastsInDim ⟨1, ![N]⟩ ![]) :
    Host.divf g (Host.sqrt (addf v (broadcastInDim ⟨1, ![N]⟩ ![] h0 (constant (F := Ideal) ⟨0, ![]⟩ .f32 0x3727C5AC#32))))
      = scaleR g v := by
  funext i
  show Ideal.div (g i) (Ideal.sqrt (v i + broadcastInDim ⟨1, ![N]⟩ ![] h0 (constant (F := Ideal) ⟨0, ![]⟩ .f32 0x3727C5AC#32) i)) = _
  rw [broadcastInDim_apply _ h0 _ i ix0 (fun a => a.elim0)]
  rfl

/-! ## The neighbourhood layer -/

/-- On the vector unit. -/
theorem ksage {R K N : ℕ} (x0 x1 : FVec Ideal ⟨2, ![R, K]⟩ .f32) (x2 x3 : FVec Ideal ⟨2, ![K, N]⟩ .f32)
    (b mu g v be : FVec Ideal ⟨2, ![1, N]⟩ .f32)
    (hc0 : (⟨2, ![R, K]⟩ : Shape).ShapeCasts ⟨2, ![R, K]⟩)
    (hc : (⟨2, ![1, N]⟩ : Shape).ShapeCasts ⟨2, ![1, N]⟩) (hb : (⟨2, ![1, N]⟩ : Shape).Broadcasts ⟨2, ![R, N]⟩)
    (hbits : FTy.bf16.bits < FTy.f32.bits) :
    maximumf (addf (mulf (subf
        (addf (addf
          (matmul (DotDims.plain R K N) none (truncf .bf16 (shapeCast ⟨2, ![R, K]⟩ x0 hc0) hbits) (truncf .bf16 x2 hbits)
            (constant ⟨2, ![R, N]⟩ .f32 0x00000000#32))
          (matmul (DotDims.plain R K N) none (truncf .bf16 (shapeCast ⟨2, ![R, K]⟩ x1 hc0) hbits) (truncf .bf16 x3 hbits)
            (constant ⟨2, ![R, N]⟩ .f32 0x00000000#32)))
          (broadcastTo ⟨2, ![R, N]⟩ (shapeCast ⟨2, ![1, N]⟩ b hc) hb))
        (broadcastTo ⟨2, ![R, N]⟩ (shapeCast ⟨2, ![1, N]⟩ mu hc) hb))
        (broadcastTo ⟨2, ![R, N]⟩ (mulf (shapeCast ⟨2, ![1, N]⟩ g hc)
          (rsqrt (addf (shapeCast ⟨2, ![1, N]⟩ v hc) (broadcast ⟨2, ![1, N]⟩ (Scalar.ofBits (F := Ideal) .f32 0x3727C5AC#32))))) hb))
        (broadcastTo ⟨2, ![R, N]⟩ (shapeCast ⟨2, ![1, N]⟩ be hc) hb))
      (broadcast ⟨2, ![R, N]⟩ (Scalar.ofBits (F := Ideal) .f32 0x00000000#32))
      = sage x0 x1 x2 x3 (unrow b) (unrow mu) (scaleK (unrow g) (unrow v)) (unrow be) := by
  rw [kact, kpair, kaff, kscale]
  rfl

/-- On the host. -/
theorem hsage {R K N : ℕ} (x h : FVec Ideal ⟨2, ![R, K]⟩ .f32) (ws wn : FVec Ideal ⟨2, ![K, N]⟩ .f32)
    (b mu g v be : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (h0 : (⟨0, ![]⟩ : Shape).BroadcastsInDim ⟨2, ![R, N]⟩ ![]) (h0v : (⟨0, ![]⟩ : Shape).BroadcastsInDim ⟨1, ![N]⟩ ![]) :
    maximumf (addf (mulf (subf
        (addf (addf (Host.dotGeneral (DotDims.plain R K N) none x ws) (Host.dotGeneral (DotDims.plain R K N) none h wn))
          (broadcastInDim ⟨2, ![R, N]⟩ ![0, 1] h2 (broadcastInDim ⟨2, ![1, N]⟩ ![1] h1 b)))
        (broadcastInDim ⟨2, ![R, N]⟩ ![0, 1] h2 (broadcastInDim ⟨2, ![1, N]⟩ ![1] h1 mu)))
        (broadcastInDim ⟨2, ![R, N]⟩ ![0, 1] h2 (broadcastInDim ⟨2, ![1, N]⟩ ![1] h1
          (Host.divf g (Host.sqrt (addf v (broadcastInDim ⟨1, ![N]⟩ ![] h0v (constant (F := Ideal) ⟨0, ![]⟩ .f32 0x3727C5AC#32))))))))
        (broadcastInDim ⟨2, ![R, N]⟩ ![0, 1] h2 (broadcastInDim ⟨2, ![1, N]⟩ ![1] h1 be)))
      (broadcastInDim ⟨2, ![R, N]⟩ ![] h0 (constant (F := Ideal) ⟨0, ![]⟩ .f32 0x00000000#32))
      = sage x h ws wn b mu (scaleR g v) be := by
  rw [hact, hpair, haff, hscale]
  rfl

end Cert.Net

end
-- ==== Proof.Region1.lean ====
/-
  THE SECOND REGION'S ARRAY: the first neighbourhood layer of the whole arrays.

  The region runs the layer on 20 blocks of 5000 rows.  At a point `t` the two row windows (the nodes' own rows and their
  neighbourhood means) hold rows `5000·t … 5000·t + 4999` of their arrays; the two weights and the five one-row vectors
  (bias, gain, shift, mean, variance) are whole at every point.  The body stores
  `relu (((x · ws + h · wn + b) − mean) · (gain · rsqrt (variance + ε)) + shift)` of its blocks (`pay`).  Each output row
  depends only on the same row of the two row arrays, so what point `t` writes back is rows `5000·t …` of the layer of the whole
  arrays (`flushed_eq`); the blocks tile the rows (`cover`), so the array ends at the layer of the whole arrays (`final`).
  Stated for any contents `V` the region is entered with.
-/
import proofs.«138145_j65584150610482_1_alg».proof.Proof.Gen.KernelIdeal.Frame
import proofs.«138145_j65584150610482_1_alg».proof.Proof.Net
import proofs.«138145_j65584150610482_1_alg».proof.Proof.NetForms
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen Cert.DenseRow Cert.RowBias Cert.Net

variable (V : (c : Dev nD) → (b : Ref sig .tc) → Buf (Elt Ideal) ((c : Thread nD τ).loc b))

theorem hz : (![0, 0] : Fin 2 → Nat) = fun _ => 0 := funext fun a => by fin_cases a <;> rfl

/-- The body's stored value is the neighbourhood layer of its loaded blocks. -/
theorem pay (v0 v3 : Vec Ideal S5000x128 .f32) (v6 v8 : Vec Ideal S128x256 .f32) (v13 v17 v21 v23 v31 : Vec Ideal S1x256 .f32) :
    k1_pay1 v0 v3 v6 v8 v13 v17 v21 v23 v31
      = sage (R := 5000) (K := 128) (N := 256) v0 v3 v6 v8 (unrow v13) (unrow v17) (scaleK (unrow v21) (unrow v23)) (unrow v31) := by
  unfold k1_pay1
  dsimp only
  exact ksage v0 v3 v6 v8 v13 v17 v21 v23 v31 _ _ _ _

/-- The index maps over the grid: a window of row blocks sits at block `t`, a whole window at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- Window 0's block at point `t`, read at `(p, k)`: row `5000·t + p` of its array. -/
theorem blk0 (c : Dev nD) (t : Fin cfg1.N) (p : Fin 5000) (k : Fin 128) (p' : Fin 100000) (hp : p'.val = 5000 * t.val + p.val) :
    (iblk1 V c 0 t : S5000x128.Idx → EReal) (ix2 p k) = (V c (Pipeline.arrRef spec1 0) : S100000x128.Idx → EReal) (ix2 p' k) := by
  obtain ⟨e0, e1, -⟩ := idx_facts t
  unfold iblk1
  rw [View.read_apply]
  refine congrArg (V c (Pipeline.arrRef spec1 0) : S100000x128.Idx → EReal) ?_
  funext a
  apply Fin.ext
  match a with
  | ⟨0, _⟩ => show win1_0.index t (0 : Fin 2) * 5000 + 1 * p.val = p'.val; rw [e0, hp]; omega
  | ⟨1, _⟩ => show win1_0.index t (1 : Fin 2) * 128 + 1 * k.val = k.val; rw [e1]; omega

/-- Window 1's block at point `t`, read at `(p, k)`: row `5000·t + p` of its array. -/
theorem blk1 (c : Dev nD) (t : Fin cfg1.N) (p : Fin 5000) (k : Fin 128) (p' : Fin 100000) (hp : p'.val = 5000 * t.val + p.val) :
    (iblk1 V c 1 t : S5000x128.Idx → EReal) (ix2 p k) = (V c (Pipeline.arrRef spec1 1) : S100000x128.Idx → EReal) (ix2 p' k) := by
  obtain ⟨-, -, e0, e1, -⟩ := idx_facts t
  unfold iblk1
  rw [View.read_apply]
  refine congrArg (V c (Pipeline.arrRef spec1 1) : S100000x128.Idx → EReal) ?_
  funext a
  apply Fin.ext
  match a with
  | ⟨0, _⟩ => show win1_1.index t (0 : Fin 2) * 5000 + 1 * p.val = p'.val; rw [e0, hp]; omega
  | ⟨1, _⟩ => show win1_1.index t (1 : Fin 2) * 128 + 1 * k.val = k.val; rw [e1]; omega

/-- Window 2 is whole at every point. -/
theorem blk2 (c : Dev nD) (t : Fin cfg1.N) :
    (iblk1 V c 2 t : S128x256.Idx → EReal) = (V c (Pipeline.arrRef spec1 2) : S128x256.Idx → EReal) := by
  obtain ⟨-, -, -, -, e0, e1, -⟩ := idx_facts t
  funext y
  unfold iblk1
  rw [View.read_apply]
  refine congrArg (V c (Pipeline.arrRef spec1 2) : S128x256.Idx → EReal) ?_
  funext a
  apply Fin.ext
  match a with
  | ⟨0, _⟩ => show win1_2.index t (0 : Fin 2) * 128 + 1 * (y 0).val = (y 0).val; rw [e0]; omega
  | ⟨1, _⟩ => show win1_2.index t (1 : Fin 2) * 256 + 1 * (y 1).val = (y 1).val; rw [e1]; omega

/-- Window 3 is whole at every point. -/
theorem blk3 (c : Dev nD) (t : Fin cfg1.N) :
    (iblk1 V c 3 t : S128x256.Idx → EReal) = (V c (Pipeline.arrRef spec1 3) : S128x256.Idx → EReal) := by
  obtain ⟨-, -, -, -, -, -, e0, e1, -⟩ := idx_facts t
  funext y
  unfold iblk1
  rw [View.read_apply]
  refine congrArg (V c (Pipeline.arrRef spec1 3) : S128x256.Idx → EReal) ?_
  funext a
  apply Fin.ext
  match a with
  | ⟨0, _⟩ => show win1_3.index t (0 : Fin 2) * 128 + 1 * (y 0).val = (y 0).val; rw [e0]; omega
  | ⟨1, _⟩ => show win1_3.index t (1 : Fin 2) * 256 + 1 * (y 1).val = (y 1).val; rw [e1]; omega

/-- Window 4 is whole at every point. -/
theorem blk4 (c : Dev nD) (t : Fin cfg1.N) :
    (iblk1 V c 4 t : S1x256.Idx → EReal) = (V c (Pipeline.arrRef spec1 4) : S1x256.Idx → EReal) := by
  obtain ⟨-, -, -, -, -, -, -, -, e0, e1, -⟩ := idx_facts t
  funext y
  unfold iblk1
  rw [View.read_apply]
  refine congrArg (V c (Pipeline.arrRef spec1 4) : S1x256.Idx → EReal) ?_
  funext a
  apply Fin.ext
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

/-- Window 5 is whole at every point. -/
theorem blk5 (c : Dev nD) (t : Fin cfg1.N) :
    (iblk1 V c 5 t : S1x256.Idx → EReal) = (V c (Pipeline.arrRef spec1 5) : S1x256.Idx → EReal) := by
  obtain ⟨-, -, -, -, -, -, -, -, -, -, e0, e1, -⟩ := idx_facts t
  funext y
  unfold iblk1
  rw [View.read_apply]
  refine congrArg (V c (Pipeline.arrRef spec1 5) : S1x256.Idx → EReal) ?_
  funext a
  apply Fin.ext
  match a with
  | ⟨0, _⟩ => show win1_5.index t (0 : Fin 2) * 1 + 1 * (y 0).val = (y 0).val; rw [e0]; omega
  | ⟨1, _⟩ => show win1_5.index t (1 : Fin 2) * 256 + 1 * (y 1).val = (y 1).val; rw [e1]; omega

/-- Window 6 is whole at every point. -/
theorem blk6 (c : Dev nD) (t : Fin cfg1.N) :
    (iblk1 V c 6 t : S1x256.Idx → EReal) = (V c (Pipeline.arrRef spec1 6) : S1x256.Idx → EReal) := by
  obtain ⟨-, -, -, -, -, -, -, -, -, -, -, -, e0, e1, -⟩ := idx_facts t
  funext y
  unfold iblk1
  rw [View.read_apply]
  refine congrArg (V c (Pipeline.arrRef spec1 6) : S1x256.Idx → EReal) ?_
  funext a
  apply Fin.ext
  match a with
  | ⟨0, _⟩ => show win1_6.index t (0 : Fin 2) * 1 + 1 * (y 0).val = (y 0).val; rw [e0]; omega
  | ⟨1, _⟩ => show win1_6.index t (1 : Fin 2) * 256 + 1 * (y 1).val = (y 1).val; rw [e1]; omega

/-- Window 7 is whole at every point. -/
theorem blk7 (c : Dev nD) (t : Fin cfg1.N) :
    (iblk1 V c 7 t : S1x256.Idx → EReal) = (V c (Pipeline.arrRef spec1 7) : S1x256.Idx → EReal) := by
  obtain ⟨-, -, -, -, -, -, -, -, -, -, -, -, -, -, e0, e1, -⟩ := idx_facts t
  funext y
  unfold iblk1
  rw [View.read_apply]
  refine congrArg (V c (Pipeline.arrRef spec1 7) : S1x256.Idx → EReal) ?_
  funext a
  apply Fin.ext
  match a with
  | ⟨0, _⟩ => show win1_7.index t (0 : Fin 2) * 1 + 1 * (y 0).val = (y 0).val; rw [e0]; omega
  | ⟨1, _⟩ => show win1_7.index t (1 : Fin 2) * 256 + 1 * (y 1).val = (y 1).val; rw [e1]; omega

/-- Window 8 is whole at every point. -/
theorem blk8 (c : Dev nD) (t : Fin cfg1.N) :
    (iblk1 V c 8 t : S1x256.Idx → EReal) = (V c (Pipeline.arrRef spec1 8) : S1x256.Idx → EReal) := by
  obtain ⟨-, -, -, -, -, -, -, -, -, -, -, -, -, -, -, -, e0, e1, -⟩ := idx_facts t
  funext y
  unfold iblk1
  rw [View.read_apply]
  refine congrArg (V c (Pipeline.arrRef spec1 8) : S1x256.Idx → EReal) ?_
  funext a
  apply Fin.ext
  match a with
  | ⟨0, _⟩ => show win1_8.index t (0 : Fin 2) * 1 + 1 * (y 0).val = (y 0).val; rw [e0]; omega
  | ⟨1, _⟩ => show win1_8.index t (1 : Fin 2) * 256 + 1 * (y 1).val = (y 1).val; rw [e1]; omega

/-- The region's array after the run, as a function of the contents it was entered with. -/
def G (c : Dev nD) : S100000x256.Idx → EReal :=
  sage (R := 100000) (K := 128) (N := 256) (V c (Pipeline.arrRef spec1 0)) (V c (Pipeline.arrRef spec1 1)) (V c (Pipeline.arrRef spec1 2)) (V c (Pipeline.arrRef spec1 3))
    (unrow (V c (Pipeline.arrRef spec1 4))) (unrow (V c (Pipeline.arrRef spec1 7))) (scaleK (unrow (V c (Pipeline.arrRef spec1 5))) (unrow (V c (Pipeline.arrRef spec1 8)))) (unrow (V c (Pipeline.arrRef spec1 6)))

set_option maxHeartbeats 800000 in
/-- What the body leaves in the output's staging buffer at point `t`: the layer of the row blocks and the whole windows' arrays. -/
theorem stored (c : Dev nD) (t : Fin cfg1.N) :
    (dat1 V c).after 9 t = sage (R := 5000) (K := 128) (N := 256) (iblk1 V c 0 t) (iblk1 V c 1 t) (V c (Pipeline.arrRef spec1 2)) (V c (Pipeline.arrRef spec1 3))
      (unrow (V c (Pipeline.arrRef spec1 4))) (unrow (V c (Pipeline.arrRef spec1 7))) (scaleK (unrow (V c (Pipeline.arrRef spec1 5))) (unrow (V c (Pipeline.arrRef spec1 8)))) (unrow (V c (Pipeline.arrRef spec1 6))) := by
  rw [after1_9]
  unfold out1_9
  rw [View.canon_unit_zero hz]
  simp only [View.ld_unit_zero (S := S5000x128) hz, View.ld_unit_zero (S := S128x256) hz, View.ld_unit_zero (S := S1x256) hz]
  rw [pay, blk2 V c t, blk3 V c t, blk4 V c t, blk5 V c t, blk6 V c t, blk7 V c t, blk8 V c t]

set_option maxHeartbeats 800000 in
/-- What point `t` writes back is block `t` of `G`. -/
theorem flushed_eq (c : Dev nD) (t : Fin cfg1.N) :
    (dat1 V c).flushed 9 t = ((cfg1.win 9).blk t).view.read (Elt Ideal) (G V c) := by
  show (cfg1.win 9).cut (grid1.coords t) ((dat1 V c).after 9 t) = _
  rw [stored]
  obtain ⟨-, -, -, -, -, -, -, -, -, -, -, -, -, -, -, -, -, -, e0, e1⟩ := idx_facts t
  funext j
  obtain ⟨p, q, rfl⟩ : ∃ (p : Fin 5000) (q : Fin 256), j = ix2 p q := ⟨j 0, j 1, eq_ix2 j⟩
  have ht : t.val < 20 := by have h := t.isLt; have hN : cfg1.N = 20 := N_1; omega
  have hp' : 5000 * t.val + p.val < 100000 := by have := p.isLt; omega
  rw [View.read_apply]
  have hemb : ((cfg1.win 9).blk t).view.emb (ix2 p q) = (ix2 (⟨5000 * t.val + p.val, hp'⟩ : Fin 100000) q : S100000x256.Idx) := by
    funext a
    apply Fin.ext
    match a with
    | ⟨0, _⟩ => show win1_9.index t (0 : Fin 2) * 5000 + 1 * p.val = 5000 * t.val + p.val; rw [e0]; omega
    | ⟨1, _⟩ => show win1_9.index t (1 : Fin 2) * 256 + 1 * q.val = q.val; rw [e1]; omega
  rw [hemb]
  unfold G
  exact sage_rows (iblk1 V c 0 t) (iblk1 V c 1 t) (V c (Pipeline.arrRef spec1 0)) (V c (Pipeline.arrRef spec1 1)) (V c (Pipeline.arrRef spec1 2)) (V c (Pipeline.arrRef spec1 3))
    (unrow (V c (Pipeline.arrRef spec1 4))) (unrow (V c (Pipeline.arrRef spec1 7))) (scaleK (unrow (V c (Pipeline.arrRef spec1 5))) (unrow (V c (Pipeline.arrRef spec1 8)))) (unrow (V c (Pipeline.arrRef spec1 6)))
    p ⟨5000 * t.val + p.val, hp'⟩ (fun k => blk0 V c t p k ⟨5000 * t.val + p.val, hp'⟩ rfl) (fun k => blk1 V c t p k ⟨5000 * t.val + p.val, hp'⟩ rfl) q

/-- An index is in point `t`'s block iff each coordinate is in the block's range. -/
theorem mem_blk (t : Fin cfg1.N) (i : S100000x256.Idx) :
    i ∈ ((cfg1.win 9).blk t).view.set ↔ ∀ a : Fin 2, win1_9.index t a * S5000x256.size a ≤ (i a).val ∧ (i a).val < win1_9.index t a * S5000x256.size a + S5000x256.size a := by
  show i ∈ ((View.whole main_v22).slice (win1_9.rect t)).set ↔ _
  rw [View.set_slice_whole, Rect.mem_set_unit]
  exact Iff.rfl

/-- Every row is in some point's block: row `r` in block `r / 5000`. -/
theorem cover (i : S100000x256.Idx) : ∃ t : Fin cfg1.N, (cfg1.win 9).flush t = true ∧ i ∈ ((cfg1.win 9).blk t).view.set := by
  have hi0 : (i 0).val < 100000 := (i 0).isLt
  have hi1 : (i 1).val < 256 := (i 1).isLt
  have hN : cfg1.N = 20 := N_1
  refine ⟨⟨(i 0).val / 5000, by rw [hN]; omega⟩, flush1_9 _, ?_⟩
  rw [mem_blk]
  obtain ⟨-, -, -, -, -, -, -, -, -, -, -, -, -, -, -, -, -, -, e0, e1⟩ := idx_facts ⟨(i 0).val / 5000, by rw [hN]; omega⟩
  intro a
  match a with
  | ⟨0, _⟩ =>
    show win1_9.index _ (0 : Fin 2) * 5000 ≤ (i 0).val ∧ (i 0).val < win1_9.index _ (0 : Fin 2) * 5000 + 5000
    rw [e0]; show (i 0).val / 5000 * 5000 ≤ (i 0).val ∧ (i 0).val < (i 0).val / 5000 * 5000 + 5000; omega
  | ⟨1, _⟩ =>
    show win1_9.index _ (1 : Fin 2) * 256 ≤ (i 1).val ∧ (i 1).val < win1_9.index _ (1 : Fin 2) * 256 + 256
    rw [e1]; omega

/-- The region's array after the run. -/
theorem final (c : Dev nD) : (dat1 V c).arrAt 9 cfg1.N = G V c :=
  (dat1 V c).arrAt_eq_of_cover 9 (G V c) (fun t _ => flushed_eq V c t) (cover)

end Cert.KernelIdeal.Reg1

end
-- ==== Proof.NetForms2.lean ====
/-
  THE ENCODER'S AND THE READ-OUT'S TWO SPELLINGS, at the ideal values.

  Over `enc` and `head` of the layers' module: the vector unit's spelling (concatenate, change of format, matrix product into a
  zero accumulator, one-row bias broadcast over the rows, splat zero under the rectifier) and the host's (`dot_general`, a
  bias vector broadcast to one row and then over the rows, a scalar zero broadcast under the rectifier) are each the layer.
  A change of float format is the identity at the ideal values, so it disappears by unfolding.
-/
import proofs.«138145_j65584150610482_1_alg».proof.Proof.Net

noncomputable section

open scoped BigOperators

namespace Cert.Net

open Idealize.ShloMosaic Idealize.ShloMosaic.ValueIdx Cert.DenseRow Cert.RowBias Cert.ProdRows Cert.PairLayer
open Cert.KernelIdeal.RegionValue (prodArr prodArr_apply)

/-- The vector unit's dense layer with a one-row bias, over the plain dimension record. -/
theorem klayer1P {R K N : ℕ} {φ₁ φ₂ : FTy} (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul (DotDims.plain R K N) prec a w (constant ⟨2, ![R, N]⟩ .f32 0x00000000#32))
        (broadcastTo ⟨2, ![R, N]⟩ (shapeCast ⟨2, ![1, N]⟩ v hc) hb)
      = layerArr a w (unrow v) :=
  klayer1Arr (DotDims.plain R K N) rfl rfl (Cert.PlainDot.lhs_at R K N) (Cert.PlainDot.rhs_at R K N) prec a w v hc hb

/-! ## The encoder -/

theorem kenc {R : ℕ} (s : FVec Ideal ⟨2, ![R, 128]⟩ .f32) (mm : FVec Ideal ⟨2, ![R, 384]⟩ .f32) (w : FVec Ideal ⟨2, ![512, 128]⟩ .f32)
    (b : FVec Ideal ⟨2, ![1, 128]⟩ .f32)
    (hcat : Shape.Concatenates [(⟨2, ![R, 128]⟩ : Shape), ⟨2, ![R, 384]⟩] ⟨2, ![R, 512]⟩ (1 : Fin 2))
    (hc : (⟨2, ![1, 128]⟩ : Shape).ShapeCasts ⟨2, ![1, 128]⟩) (hb : (⟨2, ![1, 128]⟩ : Shape).Broadcasts ⟨2, ![R, 128]⟩)
    (hbits : FTy.bf16.bits < FTy.f32.bits) :
    maximumf (addf (matmul (DotDims.plain R 512 128) none
        (truncf .bf16 (concatenate ⟨2, ![R, 512]⟩ (1 : Fin 2) [⟨⟨2, ![R, 128]⟩, s⟩, ⟨⟨2, ![R, 384]⟩, mm⟩] hcat) hbits) (truncf .bf16 w hbits)
        (constant ⟨2, ![R, 128]⟩ .f32 0x00000000#32))
        (broadcastTo ⟨2, ![R, 128]⟩ (shapeCast ⟨2, ![1, 128]⟩ b hc) hb))
      (broadcast ⟨2, ![R, 128]⟩ (Scalar.ofBits (F := Ideal) .f32 0x00000000#32))
      = enc s mm w (unrow b) := by
  rw [kact, klayer1P, concatArr (show 512 = 128 + 384 from rfl)]
  rfl

theorem henc {R : ℕ} (s : FVec Ideal ⟨2, ![R, 128]⟩ .f32) (mm : FVec Ideal ⟨2, ![R, 384]⟩ .f32) (w : FVec Ideal ⟨2, ![512, 128]⟩ .f32)
    (b : FVec Ideal ⟨1, ![128]⟩ .f32)
    (hcat : Shape.Concatenates [(⟨2, ![R, 128]⟩ : Shape), ⟨2, ![R, 384]⟩] ⟨2, ![R, 512]⟩ (1 : Fin 2))
    (h1 : (⟨1, ![128]⟩ : Shape).BroadcastsInDim ⟨2, ![1, 128]⟩ ![1]) (h2 : (⟨2, ![1, 128]⟩ : Shape).BroadcastsInDim ⟨2, ![R, 128]⟩ ![0, 1])
    (h0 : (⟨0, ![]⟩ : Shape).BroadcastsInDim ⟨2, ![R, 128]⟩ ![]) :
    maximumf (addf (Host.dotGeneral (DotDims.plain R 512 128) none
        (concatenate ⟨2, ![R, 512]⟩ (1 : Fin 2) [⟨⟨2, ![R, 128]⟩, s⟩, ⟨⟨2, ![R, 384]⟩, mm⟩] hcat) w)
        (broadcastInDim ⟨2, ![R, 128]⟩ ![0, 1] h2 (broadcastInDim ⟨2, ![1, 128]⟩ ![1] h1 b)))
      (broadcastInDim ⟨2, ![R, 128]⟩ ![] h0 (constant (F := Ideal) ⟨0, ![]⟩ .f32 0x00000000#32))
      = enc s mm w b := by
  rw [hact, Cert.PlainDot.hlayer, concatArr (show 512 = 128 + 384 from rfl)]
  rfl

/-! ## The read-out -/

theorem khead {R : ℕ} (h0 h1 : FVec Ideal ⟨2, ![R, 128]⟩ .f32) (wr : FVec Ideal ⟨2, ![256, 128]⟩ .f32) (br : FVec Ideal ⟨2, ![1, 128]⟩ .f32)
    (w1 : FVec Ideal ⟨2, ![128, 64]⟩ .f32) (b1 : FVec Ideal ⟨2, ![1, 64]⟩ .f32) (w2 : FVec Ideal ⟨2, ![64, 32]⟩ .f32)
    (b2 : FVec Ideal ⟨2, ![1, 32]⟩ .f32)
    (hcat : Shape.Concatenates [(⟨2, ![R, 128]⟩ : Shape), ⟨2, ![R, 128]⟩] ⟨2, ![R, 256]⟩ (1 : Fin 2))
    (hc0 : (⟨2, ![R, 128]⟩ : Shape).ShapeCasts ⟨2, ![R, 128]⟩)
    (hcr : (⟨2, ![1, 128]⟩ : Shape).ShapeCasts ⟨2, ![1, 128]⟩) (hbr : (⟨2, ![1, 128]⟩ : Shape).Broadcasts ⟨2, ![R, 128]⟩)
    (hc1 : (⟨2, ![1, 64]⟩ : Shape).ShapeCasts ⟨2, ![1, 64]⟩) (hb1 : (⟨2, ![1, 64]⟩ : Shape).Broadcasts ⟨2, ![R, 64]⟩)
    (hc2 : (⟨2, ![1, 32]⟩ : Shape).ShapeCasts ⟨2, ![1, 32]⟩) (hb2 : (⟨2, ![1, 32]⟩ : Shape).Broadcasts ⟨2, ![R, 32]⟩)
    (hbits : FTy.bf16.bits < FTy.f32.bits) :
    addf (matmul (DotDims.plain R 64 32) none
        (truncf .bf16 (maximumf (addf (matmul (DotDims.plain R 128 64) none
            (truncf .bf16 (maximumf (addf (matmul (DotDims.plain R 256 128) none
                (truncf .bf16 (concatenate ⟨2, ![R, 256]⟩ (1 : Fin 2)
                  [⟨⟨2, ![R, 128]⟩, shapeCast ⟨2, ![R, 128]⟩ h0 hc0⟩, ⟨⟨2, ![R, 128]⟩, h1⟩] hcat) hbits)
                (truncf .bf16 wr hbits) (constant ⟨2, ![R, 128]⟩ .f32 0x00000000#32))
                (broadcastTo ⟨2, ![R, 128]⟩ (shapeCast ⟨2, ![1, 128]⟩ br hcr) hbr))
              (broadcast ⟨2, ![R, 128]⟩ (Scalar.ofBits (F := Ideal) .f32 0x00000000#32))) hbits)
            (truncf .bf16 w1 hbits) (constant ⟨2, ![R, 64]⟩ .f32 0x00000000#32))
            (broadcastTo ⟨2, ![R, 64]⟩ (shapeCast ⟨2, ![1, 64]⟩ b1 hc1) hb1))
          (broadcast ⟨2, ![R, 64]⟩ (Scalar.ofBits (F := Ideal) .f32 0x00000000#32))) hbits)
        (truncf .bf16 w2 hbits) (constant ⟨2, ![R, 32]⟩ .f32 0x00000000#32))
        (broadcastTo ⟨2, ![R, 32]⟩ (shapeCast ⟨2, ![1, 32]⟩ b2 hc2) hb2)
      = head h0 h1 wr (unrow br) w1 (unrow b1) w2 (unrow b2) := by
  rw [klayer1P, klayer1P, klayer1P, kact, kact, shapeCast_self, concatArr (show 256 = 128 + 128 from rfl)]
  rfl

theorem hhead {R : ℕ} (h0 h1 : FVec Ideal ⟨2, ![R, 128]⟩ .f32) (wr : FVec Ideal ⟨2, ![256, 128]⟩ .f32) (br : FVec Ideal ⟨1, ![128]⟩ .f32)
    (w1 : FVec Ideal ⟨2, ![128, 64]⟩ .f32) (b1 : FVec Ideal ⟨1, ![64]⟩ .f32) (w2 : FVec Ideal ⟨2, ![64, 32]⟩ .f32)
    (b2 : FVec Ideal ⟨1, ![32]⟩ .f32)
    (hcat : Shape.Concatenates [(⟨2, ![R, 128]⟩ : Shape), ⟨2, ![R, 128]⟩] ⟨2, ![R, 256]⟩ (1 : Fin 2))
    (r1 : (⟨1, ![128]⟩ : Shape).BroadcastsInDim ⟨2, ![1, 128]⟩ ![1]) (r2 : (⟨2, ![1, 128]⟩ : Shape).BroadcastsInDim ⟨2, ![R, 128]⟩ ![0, 1])
    (r0 : (⟨0, ![]⟩ : Shape).BroadcastsInDim ⟨2, ![R, 128]⟩ ![])
    (s1 : (⟨1, ![64]⟩ : Shape).BroadcastsInDim ⟨2, ![1, 64]⟩ ![1]) (s2 : (⟨2, ![1, 64]⟩ : Shape).BroadcastsInDim ⟨2, ![R, 64]⟩ ![0, 1])
    (s0 : (⟨0, ![]⟩ : Shape).BroadcastsInDim ⟨2, ![R, 64]⟩ ![])
    (u1 : (⟨1, ![32]⟩ : Shape).BroadcastsInDim ⟨2, ![1, 32]⟩ ![1]) (u2 : (⟨2, ![1, 32]⟩ : Shape).BroadcastsInDim ⟨2, ![R, 32]⟩ ![0, 1]) :
    addf (Host.dotGeneral (DotDims.plain R 64 32) none
        (maximumf (addf (Host.dotGeneral (DotDims.plain R 128 64) none
            (maximumf (addf (Host.dotGeneral (DotDims.plain R 256 128) none
                (concatenate ⟨2, ![R, 256]⟩ (1 : Fin 2) [⟨⟨2, ![R, 128]⟩, h0⟩, ⟨⟨2, ![R, 128]⟩, h1⟩] hcat) wr)
                (broadcastInDim ⟨2, ![R, 128]⟩ ![0, 1] r2 (broadcastInDim ⟨2, ![1, 128]⟩ ![1] r1 br)))
              (broadcastInDim ⟨2, ![R, 128]⟩ ![] r0 (constant (F := Ideal) ⟨0, ![]⟩ .f32 0x00000000#32))) w1)
            (broadcastInDim ⟨2, ![R, 64]⟩ ![0, 1] s2 (broadcastInDim ⟨2, ![1, 64]⟩ ![1] s1 b1)))
          (broadcastInDim ⟨2, ![R, 64]⟩ ![] s0 (constant (F := Ideal) ⟨0, ![]⟩ .f32 0x00000000#32))) w2)
        (broadcastInDim ⟨2, ![R, 32]⟩ ![0, 1] u2 (broadcastInDim ⟨2, ![1, 32]⟩ ![1] u1 b2))
      = head h0 h1 wr br w1 b1 w2 b2 := by
  rw [Cert.PlainDot.hlayer, Cert.PlainDot.hlayer, Cert.PlainDot.hlayer, hact, hact, concatArr (show 256 = 128 + 128 from rfl)]
  rfl

end Cert.Net

end
-- ==== Proof.NetRows.lean ====
/-
  ROW LOCALITY WITH THE SHARED OPERANDS GIVEN BY EQUATIONS.

  The neighbourhood layer and the read-out act on every row by itself; their row-locality lemmas compare a block of rows
  with the whole arrays under ONE set of shared operands (weights, bias and normalisation vectors).  Here the two sides may
  name their shared operands differently, equal by given equations: the form in which a block's windows meet the arrays.
-/
import proofs.«138145_j65584150610482_1_alg».proof.Proof.Net

noncomputable section

namespace Cert.Net

open Idealize.ShloMosaic Idealize.ShloMosaic.ValueIdx Cert.DenseRow Cert.RowBias Cert.ProdRows Cert.PairLayer

theorem sage_rows' {R R' K N : ℕ} (x h : A2 R K) (X H : A2 R' K) (ws wn : A2 K N) (b mu sc be : A1 N)
    (WS WN : A2 K N) (B MU SC BE : A1 N) (p : Fin R) (p' : Fin R')
    (hx : ∀ k : Fin K, x (ix2 p k) = X (ix2 p' k)) (hh : ∀ k : Fin K, h (ix2 p k) = H (ix2 p' k))
    (ews : ws = WS) (ewn : wn = WN) (eb : b = B) (emu : mu = MU) (esc : sc = SC) (ebe : be = BE) (c : Fin N) :
    sage x h ws wn b mu sc be (ix2 p c) = sage X H WS WN B MU SC BE (ix2 p' c) := by
  subst ews ewn eb emu esc ebe
  exact sage_rows x h X H ws wn b mu sc be p p' hx hh c

theorem head_rows' {R R' : ℕ} (h0 h1 : A2 R 128) (H0 H1 : A2 R' 128) (wr : A2 256 128) (br : A1 128) (w1 : A2 128 64) (b1 : A1 64)
    (w2 : A2 64 32) (b2 : A1 32) (WR : A2 256 128) (BR : A1 128) (W1 : A2 128 64) (B1 : A1 64) (W2 : A2 64 32) (B2 : A1 32)
    (p : Fin R) (p' : Fin R')
    (e0 : ∀ k : Fin 128, h0 (ix2 p k) = H0 (ix2 p' k)) (e1 : ∀ k : Fin 128, h1 (ix2 p k) = H1 (ix2 p' k))
    (ewr : wr = WR) (ebr : br = BR) (ew1 : w1 = W1) (eb1 : b1 = B1) (ew2 : w2 = W2) (eb2 : b2 = B2) (c : Fin 32) :
    head h0 h1 wr br w1 b1 w2 b2 (ix2 p c) = head H0 H1 WR BR W1 B1 W2 B2 (ix2 p' c) := by
  subst ewr ebr ew1 eb1 ew2 eb2
  exact head_rows h0 h1 H0 H1 wr br w1 b1 w2 b2 p p' e0 e1 c

end Cert.Net

end
-- ==== Proof.Region2.lean ====
/-
  THE THIRD REGION'S ARRAY: the second neighbourhood layer and the read-out, of the whole arrays.

  The region runs on 20 blocks of 5000 rows.  At a point `t` the three row windows (the hidden rows, their neighbourhood
  means, the encoder's rows) hold rows `5000·t … 5000·t + 4999` of their arrays; the weights and the one-row vectors are whole
  at every point.  The body computes the second neighbourhood layer of the first two blocks, puts the encoder's block beside
  it, and stores the read-out's three dense layers of that (`pay`).  Each output row depends only on the same row of the three
  row arrays, so what point `t` writes back is rows `5000·t …` of the same function of the whole arrays (`flushed_eq`); the
  blocks tile the rows (`cover`), so the array ends at that function of the whole arrays (`final`).  Stated for any contents
  `V` the region is entered with.
-/
import proofs.«138145_j65584150610482_1_alg».proof.Proof.Gen.KernelIdeal.Frame
import proofs.«138145_j65584150610482_1_alg».proof.Proof.Net
import proofs.«138145_j65584150610482_1_alg».proof.Proof.NetForms
import proofs.«138145_j65584150610482_1_alg».proof.Proof.NetForms2
import proofs.«138145_j65584150610482_1_alg».proof.Proof.NetRows
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen Cert.DenseRow Cert.RowBias Cert.Net

variable (V : (c : Dev nD) → (b : Ref sig .tc) → Buf (Elt Ideal) ((c : Thread nD τ).loc b))

theorem hz : (![0, 0] : Fin 2 → Nat) = fun _ => 0 := funext fun a => by fin_cases a <;> rfl

/-- The body's stored value: the read-out of the encoder's block beside the second neighbourhood layer of the loaded blocks. -/
theorem pay (u0 u3 : Vec Ideal S5000x256 .f32) (u6 u8 : Vec Ideal S256x128 .f32) (u13 u17 u21 u23 u31 : Vec Ideal S1x128 .f32)
    (v37 : Vec Ideal S5000x128 .f32) (v41 : Vec Ideal S256x128 .f32) (v44 : Vec Ideal S1x128 .f32) (v51 : Vec Ideal S128x64 .f32)
    (v54 : Vec Ideal S1x64 .f32) (v61 : Vec Ideal S64x32 .f32) (v64 : Vec Ideal S1x32 .f32) :
    k2_pay1 (k2_pay2 u0 u3 u6 u8 u13 u17 u21 u23 u31) v37 v41 v44 v51 v54 v61 v64
      = head (R := 5000) v37
          (sage (R := 5000) (K := 256) (N := 128) u0 u3 u6 u8 (unrow u13) (unrow u17) (scaleK (unrow u21) (unrow u23)) (unrow u31))
          v41 (unrow v44) v51 (unrow v54) v61 (unrow v64) := by
  have e : k2_pay2 u0 u3 u6 u8 u13 u17 u21 u23 u31
      = sage (R := 5000) (K := 256) (N := 128) u0 u3 u6 u8 (unrow u13) (unrow u17) (scaleK (unrow u21) (unrow u23)) (unrow u31) := by
    unfold k2_pay2
    dsimp only
    exact ksage u0 u3 u6 u8 u13 u17 u21 u23 u31 _ _ _ _
  rw [e]
  unfold k2_pay1
  dsimp only
  exact khead v37 _ v41 v44 v51 v54 v61 v64 _ _ _ _ _ _ _ _ _

/-- The index maps over the grid: a window of row blocks sits at block `t`, a whole window at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0
    ∧ win2_12.index t (0 : Fin 2) = 0 ∧ win2_12.index t (1 : Fin 2) = 0
    ∧ win2_13.index t (0 : Fin 2) = 0 ∧ win2_13.index t (1 : Fin 2) = 0
    ∧ win2_14.index t (0 : Fin 2) = 0 ∧ win2_14.index t (1 : Fin 2) = 0
    ∧ win2_15.index t (0 : Fin 2) = 0 ∧ win2_15.index t (1 : Fin 2) = 0
    ∧ win2_16.index t (0 : Fin 2) = t.val ∧ win2_16.index t (1 : Fin 2) = 0 :=
  (by decide +kernel : ∀ t : Fin grid2.N, _)

/-- Window 0's block at point `t`, read at `(p, k)`: row `5000·t + p` of its array. -/
theorem blk0 (c : Dev nD) (t : Fin cfg2.N) (p : Fin 5000) (k : Fin 256) (p' : Fin 100000) (hp : p'.val = 5000 * t.val + p.val) :
    (iblk2 V c 0 t : S5000x256.Idx → EReal) (ix2 p k) = (V c (Pipeline.arrRef spec2 0) : S100000x256.Idx → EReal) (ix2 p' k) := by
  obtain ⟨e0, e1, -⟩ := idx_facts t
  unfold iblk2
  rw [View.read_apply]
  refine congrArg (V c (Pipeline.arrRef spec2 0) : S100000x256.Idx → EReal) ?_
  funext a
  apply Fin.ext
  match a with
  | ⟨0, _⟩ => show win2_0.index t (0 : Fin 2) * 5000 + 1 * p.val = p'.val; rw [e0, hp]; omega
  | ⟨1, _⟩ => show win2_0.index t (1 : Fin 2) * 256 + 1 * k.val = k.val; rw [e1]; omega

/-- Window 1's block at point `t`, read at `(p, k)`: row `5000·t + p` of its array. -/
theorem blk1 (c : Dev nD) (t : Fin cfg2.N) (p : Fin 5000) (k : Fin 256) (p' : Fin 100000) (hp : p'.val = 5000 * t.val + p.val) :
    (iblk2 V c 1 t : S5000x256.Idx → EReal) (ix2 p k) = (V c (Pipeline.arrRef spec2 1) : S100000x256.Idx → EReal) (ix2 p' k) := by
  obtain ⟨-, -, e0, e1, -⟩ := idx_facts t
  unfold iblk2
  rw [View.read_apply]
  refine congrArg (V c (Pipeline.arrRef spec2 1) : S100000x256.Idx → EReal) ?_
  funext a
  apply Fin.ext
  match a with
  | ⟨0, _⟩ => show win2_1.index t (0 : Fin 2) * 5000 + 1 * p.val = p'.val; rw [e0, hp]; omega
  | ⟨1, _⟩ => show win2_1.index t (1 : Fin 2) * 256 + 1 * k.val = k.val; rw [e1]; omega

/-- Window 2's block at point `t`, read at `(p, k)`: row `5000·t + p` of its array. -/
theorem blk2 (c : Dev nD) (t : Fin cfg2.N) (p : Fin 5000) (k : Fin 128) (p' : Fin 100000) (hp : p'.val = 5000 * t.val + p.val) :
    (iblk2 V c 2 t : S5000x128.Idx → EReal) (ix2 p k) = (V c (Pipeline.arrRef spec2 2) : S100000x128.Idx → EReal) (ix2 p' k) := by
  obtain ⟨-, -, -, -, e0, e1, -⟩ := idx_facts t
  unfold iblk2
  rw [View.read_apply]
  refine congrArg (V c (Pipeline.arrRef spec2 2) : S100000x128.Idx → EReal) ?_
  funext a
  apply Fin.ext
  match a with
  | ⟨0, _⟩ => show win2_2.index t (0 : Fin 2) * 5000 + 1 * p.val = p'.val; rw [e0, hp]; omega
  | ⟨1, _⟩ => show win2_2.index t (1 : Fin 2) * 128 + 1 * k.val = k.val; rw [e1]; omega

/-- Window 3 is whole at every point. -/
theorem blk3 (c : Dev nD) (t : Fin cfg2.N) :
    (iblk2 V c 3 t : S256x128.Idx → EReal) = (V c (Pipeline.arrRef spec2 3) : S256x128.Idx → EReal) := by
  obtain ⟨-, -, -, -, -, -, e0, e1, -⟩ := idx_facts t
  funext y
  unfold iblk2
  rw [View.read_apply]
  refine congrArg (V c (Pipeline.arrRef spec2 3) : S256x128.Idx → EReal) ?_
  funext a
  apply Fin.ext
  match a with
  | ⟨0, _⟩ => show win2_3.index t (0 : Fin 2) * 256 + 1 * (y 0).val = (y 0).val; rw [e0]; omega
  | ⟨1, _⟩ => show win2_3.index t (1 : Fin 2) * 128 + 1 * (y 1).val = (y 1).val; rw [e1]; omega

/-- Window 4 is whole at every point. -/
theorem blk4 (c : Dev nD) (t : Fin cfg2.N) :
    (iblk2 V c 4 t : S256x128.Idx → EReal) = (V c (Pipeline.arrRef spec2 4) : S256x128.Idx → EReal) := by
  obtain ⟨-, -, -, -, -, -, -, -, e0, e1, -⟩ := idx_facts t
  funext y
  unfold iblk2
  rw [View.read_apply]
  refine congrArg (V c (Pipeline.arrRef spec2 4) : S256x128.Idx → EReal) ?_
  funext a
  apply Fin.ext
  match a with
  | ⟨0, _⟩ => show win2_4.index t (0 : Fin 2) * 256 + 1 * (y 0).val = (y 0).val; rw [e0]; omega
  | ⟨1, _⟩ => show win2_4.index t (1 : Fin 2) * 128 + 1 * (y 1).val = (y 1).val; rw [e1]; omega

/-- Window 5 is whole at every point. -/
theorem blk5 (c : Dev nD) (t : Fin cfg2.N) :
    (iblk2 V c 5 t : S1x128.Idx → EReal) = (V c (Pipeline.arrRef spec2 5) : S1x128.Idx → EReal) := by
  obtain ⟨-, -, -, -, -, -, -, -, -, -, e0, e1, -⟩ := idx_facts t
  funext y
  unfold iblk2
  rw [View.read_apply]
  refine congrArg (V c (Pipeline.arrRef spec2 5) : S1x128.Idx → EReal) ?_
  funext a
  apply Fin.ext
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

/-- Window 6 is whole at every point. -/
theorem blk6 (c : Dev nD) (t : Fin cfg2.N) :
    (iblk2 V c 6 t : S1x128.Idx → EReal) = (V c (Pipeline.arrRef spec2 6) : S1x128.Idx → EReal) := by
  obtain ⟨-, -, -, -, -, -, -, -, -, -, -, -, e0, e1, -⟩ := idx_facts t
  funext y
  unfold iblk2
  rw [View.read_apply]
  refine congrArg (V c (Pipeline.arrRef spec2 6) : S1x128.Idx → EReal) ?_
  funext a
  apply Fin.ext
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega

/-- Window 7 is whole at every point. -/
theorem blk7 (c : Dev nD) (t : Fin cfg2.N) :
    (iblk2 V c 7 t : S1x128.Idx → EReal) = (V c (Pipeline.arrRef spec2 7) : S1x128.Idx → EReal) := by
  obtain ⟨-, -, -, -, -, -, -, -, -, -, -, -, -, -, e0, e1, -⟩ := idx_facts t
  funext y
  unfold iblk2
  rw [View.read_apply]
  refine congrArg (V c (Pipeline.arrRef spec2 7) : S1x128.Idx → EReal) ?_
  funext a
  apply Fin.ext
  match a with
  | ⟨0, _⟩ => show win2_7.index t (0 : Fin 2) * 1 + 1 * (y 0).val = (y 0).val; rw [e0]; omega
  | ⟨1, _⟩ => show win2_7.index t (1 : Fin 2) * 128 + 1 * (y 1).val = (y 1).val; rw [e1]; omega

/-- Window 8 is whole at every point. -/
theorem blk8 (c : Dev nD) (t : Fin cfg2.N) :
    (iblk2 V c 8 t : S1x128.Idx → EReal) = (V c (Pipeline.arrRef spec2 8) : S1x128.Idx → EReal) := by
  obtain ⟨-, -, -, -, -, -, -, -, -, -, -, -, -, -, -, -, e0, e1, -⟩ := idx_facts t
  funext y
  unfold iblk2
  rw [View.read_apply]
  refine congrArg (V c (Pipeline.arrRef spec2 8) : S1x128.Idx → EReal) ?_
  funext a
  apply Fin.ext
  match a with
  | ⟨0, _⟩ => show win2_8.index t (0 : Fin 2) * 1 + 1 * (y 0).val = (y 0).val; rw [e0]; omega
  | ⟨1, _⟩ => show win2_8.index t (1 : Fin 2) * 128 + 1 * (y 1).val = (y 1).val; rw [e1]; omega

/-- Window 9 is whole at every point. -/
theorem blk9 (c : Dev nD) (t : Fin cfg2.N) :
    (iblk2 V c 9 t : S1x128.Idx → EReal) = (V c (Pipeline.arrRef spec2 9) : S1x128.Idx → EReal) := by
  obtain ⟨-, -, -, -, -, -, -, -, -, -, -, -, -, -, -, -, -, -, e0, e1, -⟩ := idx_facts t
  funext y
  unfold iblk2
  rw [View.read_apply]
  refine congrArg (V c (Pipeline.arrRef spec2 9) : S1x128.Idx → EReal) ?_
  funext a
  apply Fin.ext
  match a with
  | ⟨0, _⟩ => show win2_9.index t (0 : Fin 2) * 1 + 1 * (y 0).val = (y 0).val; rw [e0]; omega
  | ⟨1, _⟩ => show win2_9.index t (1 : Fin 2) * 128 + 1 * (y 1).val = (y 1).val; rw [e1]; omega

/-- Window 10 is whole at every point. -/
theorem blk10 (c : Dev nD) (t : Fin cfg2.N) :
    (iblk2 V c 10 t : S256x128.Idx → EReal) = (V c (Pipeline.arrRef spec2 10) : S256x128.Idx → EReal) := by
  obtain ⟨-, -, -, -, -, -, -, -, -, -, -, -, -, -, -, -, -, -, -, -, e0, e1, -⟩ := idx_facts t
  funext y
  unfold iblk2
  rw [View.read_apply]
  refine congrArg (V c (Pipeline.arrRef spec2 10) : S256x128.Idx → EReal) ?_
  funext a
  apply Fin.ext
  match a with
  | ⟨0, _⟩ => show win2_10.index t (0 : Fin 2) * 256 + 1 * (y 0).val = (y 0).val; rw [e0]; omega
  | ⟨1, _⟩ => show win2_10.index t (1 : Fin 2) * 128 + 1 * (y 1).val = (y 1).val; rw [e1]; omega

/-- Window 11 is whole at every point. -/
theorem blk11 (c : Dev nD) (t : Fin cfg2.N) :
    (iblk2 V c 11 t : S1x128.Idx → EReal) = (V c (Pipeline.arrRef spec2 11) : S1x128.Idx → EReal) := by
  obtain ⟨-, -, -, -, -, -, -, -, -, -, -, -, -, -, -, -, -, -, -, -, -, -, e0, e1, -⟩ := idx_facts t
  funext y
  unfold iblk2
  rw [View.read_apply]
  refine congrArg (V c (Pipeline.arrRef spec2 11) : S1x128.Idx → EReal) ?_
  funext a
  apply Fin.ext
  match a with
  | ⟨0, _⟩ => show win2_11.index t (0 : Fin 2) * 1 + 1 * (y 0).val = (y 0).val; rw [e0]; omega
  | ⟨1, _⟩ => show win2_11.index t (1 : Fin 2) * 128 + 1 * (y 1).val = (y 1).val; rw [e1]; omega

/-- Window 12 is whole at every point. -/
theorem blk12 (c : Dev nD) (t : Fin cfg2.N) :
    (iblk2 V c 12 t : S128x64.Idx → EReal) = (V c (Pipeline.arrRef spec2 12) : S128x64.Idx → EReal) := by
  obtain ⟨-, -, -, -, -, -, -, -, -, -, -, -, -, -, -, -, -, -, -, -, -, -, -, -, e0, e1, -⟩ := idx_facts t
  funext y
  unfold iblk2
  rw [View.read_apply]
  refine congrArg (V c (Pipeline.arrRef spec2 12) : S128x64.Idx → EReal) ?_
  funext a
  apply Fin.ext
  match a with
  | ⟨0, _⟩ => show win2_12.index t (0 : Fin 2) * 128 + 1 * (y 0).val = (y 0).val; rw [e0]; omega
  | ⟨1, _⟩ => show win2_12.index t (1 : Fin 2) * 64 + 1 * (y 1).val = (y 1).val; rw [e1]; omega

/-- Window 13 is whole at every point. -/
theorem blk13 (c : Dev nD) (t : Fin cfg2.N) :
    (iblk2 V c 13 t : S1x64.Idx → EReal) = (V c (Pipeline.arrRef spec2 13) : S1x64.Idx → EReal) := by
  obtain ⟨-, -, -, -, -, -, -, -, -, -, -, -, -, -, -, -, -, -, -, -, -, -, -, -, -, -, e0, e1, -⟩ := idx_facts t
  funext y
  unfold iblk2
  rw [View.read_apply]
  refine congrArg (V c (Pipeline.arrRef spec2 13) : S1x64.Idx → EReal) ?_
  funext a
  apply Fin.ext
  match a with
  | ⟨0, _⟩ => show win2_13.index t (0 : Fin 2) * 1 + 1 * (y 0).val = (y 0).val; rw [e0]; omega
  | ⟨1, _⟩ => show win2_13.index t (1 : Fin 2) * 64 + 1 * (y 1).val = (y 1).val; rw [e1]; omega

/-- Window 14 is whole at every point. -/
theorem blk14 (c : Dev nD) (t : Fin cfg2.N) :
    (iblk2 V c 14 t : S64x32.Idx → EReal) = (V c (Pipeline.arrRef spec2 14) : S64x32.Idx → EReal) := by
  obtain ⟨-, -, -, -, -, -, -, -, -, -, -, -, -, -, -, -, -, -, -, -, -, -, -, -, -, -, -, -, e0, e1, -⟩ := idx_facts t
  funext y
  unfold iblk2
  rw [View.read_apply]
  refine congrArg (V c (Pipeline.arrRef spec2 14) : S64x32.Idx → EReal) ?_
  funext a
  apply Fin.ext
  match a with
  | ⟨0, _⟩ => show win2_14.index t (0 : Fin 2) * 64 + 1 * (y 0).val = (y 0).val; rw [e0]; omega
  | ⟨1, _⟩ => show win2_14.index t (1 : Fin 2) * 32 + 1 * (y 1).val = (y 1).val; rw [e1]; omega

/-- Window 15 is whole at every point. -/
theorem blk15 (c : Dev nD) (t : Fin cfg2.N) :
    (iblk2 V c 15 t : S1x32.Idx → EReal) = (V c (Pipeline.arrRef spec2 15) : S1x32.Idx → EReal) := by
  obtain ⟨-, -, -, -, -, -, -, -, -, -, -, -, -, -, -, -, -, -, -, -, -, -, -, -, -, -, -, -, -, -, e0, e1, -⟩ := idx_facts t
  funext y
  unfold iblk2
  rw [View.read_apply]
  refine congrArg (V c (Pipeline.arrRef spec2 15) : S1x32.Idx → EReal) ?_
  funext a
  apply Fin.ext
  match a with
  | ⟨0, _⟩ => show win2_15.index t (0 : Fin 2) * 1 + 1 * (y 0).val = (y 0).val; rw [e0]; omega
  | ⟨1, _⟩ => show win2_15.index t (1 : Fin 2) * 32 + 1 * (y 1).val = (y 1).val; rw [e1]; omega

/-- The region's array after the run, as a function of the contents it was entered with. -/
def G (c : Dev nD) : S100000x32.Idx → EReal :=
  head (R := 100000) (V c (Pipeline.arrRef spec2 2))
    (sage (R := 100000) (K := 256) (N := 128) (V c (Pipeline.arrRef spec2 0)) (V c (Pipeline.arrRef spec2 1)) (V c (Pipeline.arrRef spec2 3)) (V c (Pipeline.arrRef spec2 4))
      (unrow (V c (Pipeline.arrRef spec2 5))) (unrow (V c (Pipeline.arrRef spec2 8))) (scaleK (unrow (V c (Pipeline.arrRef spec2 6))) (unrow (V c (Pipeline.arrRef spec2 9)))) (unrow (V c (Pipeline.arrRef spec2 7))))
    (V c (Pipeline.arrRef spec2 10)) (unrow (V c (Pipeline.arrRef spec2 11))) (V c (Pipeline.arrRef spec2 12)) (unrow (V c (Pipeline.arrRef spec2 13))) (V c (Pipeline.arrRef spec2 14)) (unrow (V c (Pipeline.arrRef spec2 15)))

set_option maxHeartbeats 800000 in
/-- What the body leaves in the output's staging buffer at point `t`: the read-out over the second neighbourhood layer, of the
    windows' blocks. -/
theorem stored (c : Dev nD) (t : Fin cfg2.N) :
    (dat2 V c).after 16 t = head (R := 5000) (iblk2 V c 2 t)
      (sage (R := 5000) (K := 256) (N := 128) (iblk2 V c 0 t) (iblk2 V c 1 t) (iblk2 V c 3 t) (iblk2 V c 4 t)
        (unrow (iblk2 V c 5 t)) (unrow (iblk2 V c 8 t)) (scaleK (unrow (iblk2 V c 6 t)) (unrow (iblk2 V c 9 t))) (unrow (iblk2 V c 7 t)))
      (iblk2 V c 10 t) (unrow (iblk2 V c 11 t)) (iblk2 V c 12 t) (unrow (iblk2 V c 13 t)) (iblk2 V c 14 t) (unrow (iblk2 V c 15 t)) := by
  rw [after2_16]
  unfold out2_16
  rw [View.canon_unit_zero hz]
  simp only [View.ld_unit_zero (S := S5000x256) hz, View.ld_unit_zero (S := S5000x128) hz, View.ld_unit_zero (S := S256x128) hz, View.ld_unit_zero (S := S1x128) hz, View.ld_unit_zero (S := S128x64) hz, View.ld_unit_zero (S := S1x64) hz, View.ld_unit_zero (S := S64x32) hz, View.ld_unit_zero (S := S1x32) hz]
  exact pay (iblk2 V c 0 t) (iblk2 V c 1 t) (iblk2 V c 3 t) (iblk2 V c 4 t) (iblk2 V c 5 t) (iblk2 V c 8 t) (iblk2 V c 6 t) (iblk2 V c 9 t) (iblk2 V c 7 t)
    (iblk2 V c 2 t) (iblk2 V c 10 t) (iblk2 V c 11 t) (iblk2 V c 12 t) (iblk2 V c 13 t) (iblk2 V c 14 t) (iblk2 V c 15 t)

set_option maxHeartbeats 800000 in
/-- What point `t` writes back is block `t` of `G`. -/
theorem flushed_eq (c : Dev nD) (t : Fin cfg2.N) :
    (dat2 V c).flushed 16 t = ((cfg2.win 16).blk t).view.read (Elt Ideal) (G V c) := by
  show (cfg2.win 16).cut (grid2.coords t) ((dat2 V c).after 16 t) = _
  rw [stored]
  obtain ⟨-, -, -, -, -, -, -, -, -, -, -, -, -, -, -, -, -, -, -, -, -, -, -, -, -, -, -, -, -, -, -, -, e0, e1⟩ := idx_facts t
  funext j
  obtain ⟨p, q, rfl⟩ : ∃ (p : Fin 5000) (q : Fin 32), j = ix2 p q := ⟨j 0, j 1, eq_ix2 j⟩
  have ht : t.val < 20 := by have h := t.isLt; have hN : cfg2.N = 20 := N_2; omega
  have hp' : 5000 * t.val + p.val < 100000 := by have := p.isLt; omega
  rw [View.read_apply]
  have hemb : ((cfg2.win 16).blk t).view.emb (ix2 p q) = (ix2 (⟨5000 * t.val + p.val, hp'⟩ : Fin 100000) q : S100000x32.Idx) := by
    funext a
    apply Fin.ext
    match a with
    | ⟨0, _⟩ => show win2_16.index t (0 : Fin 2) * 5000 + 1 * p.val = 5000 * t.val + p.val; rw [e0]; omega
    | ⟨1, _⟩ => show win2_16.index t (1 : Fin 2) * 32 + 1 * q.val = q.val; rw [e1]; omega
  rw [hemb]
  unfold G
  have esc : scaleK (unrow (iblk2 V c 6 t)) (unrow (iblk2 V c 9 t)) = scaleK (unrow (V c (Pipeline.arrRef spec2 6))) (unrow (V c (Pipeline.arrRef spec2 9))) := by
    rw [blk6 V c t, blk9 V c t]
  exact head_rows' (iblk2 V c 2 t)
      (sage (R := 5000) (K := 256) (N := 128) (iblk2 V c 0 t) (iblk2 V c 1 t) (iblk2 V c 3 t) (iblk2 V c 4 t)
        (unrow (iblk2 V c 5 t)) (unrow (iblk2 V c 8 t)) (scaleK (unrow (iblk2 V c 6 t)) (unrow (iblk2 V c 9 t))) (unrow (iblk2 V c 7 t)))
      (V c (Pipeline.arrRef spec2 2))
      (sage (R := 100000) (K := 256) (N := 128) (V c (Pipeline.arrRef spec2 0)) (V c (Pipeline.arrRef spec2 1)) (V c (Pipeline.arrRef spec2 3)) (V c (Pipeline.arrRef spec2 4))
        (unrow (V c (Pipeline.arrRef spec2 5))) (unrow (V c (Pipeline.arrRef spec2 8))) (scaleK (unrow (V c (Pipeline.arrRef spec2 6))) (unrow (V c (Pipeline.arrRef spec2 9)))) (unrow (V c (Pipeline.arrRef spec2 7))))
      (iblk2 V c 10 t) (unrow (iblk2 V c 11 t)) (iblk2 V c 12 t) (unrow (iblk2 V c 13 t)) (iblk2 V c 14 t) (unrow (iblk2 V c 15 t))
      (V c (Pipeline.arrRef spec2 10)) (unrow (V c (Pipeline.arrRef spec2 11))) (V c (Pipeline.arrRef spec2 12)) (unrow (V c (Pipeline.arrRef spec2 13))) (V c (Pipeline.arrRef spec2 14)) (unrow (V c (Pipeline.arrRef spec2 15)))
    p ⟨5000 * t.val + p.val, hp'⟩ (fun k => blk2 V c t p k ⟨5000 * t.val + p.val, hp'⟩ rfl)
    (fun k => sage_rows' (iblk2 V c 0 t) (iblk2 V c 1 t) (V c (Pipeline.arrRef spec2 0)) (V c (Pipeline.arrRef spec2 1)) (iblk2 V c 3 t) (iblk2 V c 4 t)
      (unrow (iblk2 V c 5 t)) (unrow (iblk2 V c 8 t)) (scaleK (unrow (iblk2 V c 6 t)) (unrow (iblk2 V c 9 t))) (unrow (iblk2 V c 7 t))
      (V c (Pipeline.arrRef spec2 3)) (V c (Pipeline.arrRef spec2 4)) (unrow (V c (Pipeline.arrRef spec2 5))) (unrow (V c (Pipeline.arrRef spec2 8))) (scaleK (unrow (V c (Pipeline.arrRef spec2 6))) (unrow (V c (Pipeline.arrRef spec2 9)))) (unrow (V c (Pipeline.arrRef spec2 7)))
      p ⟨5000 * t.val + p.val, hp'⟩ (fun k' => blk0 V c t p k' ⟨5000 * t.val + p.val, hp'⟩ rfl) (fun k' => blk1 V c t p k' ⟨5000 * t.val + p.val, hp'⟩ rfl)
      (blk3 V c t) (blk4 V c t) (congrArg unrow (blk5 V c t)) (congrArg unrow (blk8 V c t)) esc (congrArg unrow (blk7 V c t)) k)
    (blk10 V c t) (congrArg unrow (blk11 V c t)) (blk12 V c t) (congrArg unrow (blk13 V c t)) (blk14 V c t) (congrArg unrow (blk15 V c t)) q

/-- An index is in point `t`'s block iff each coordinate is in the block's range. -/
theorem mem_blk (t : Fin cfg2.N) (i : S100000x32.Idx) :
    i ∈ ((cfg2.win 16).blk t).view.set ↔ ∀ a : Fin 2, win2_16.index t a * S5000x32.size a ≤ (i a).val ∧ (i a).val < win2_16.index t a * S5000x32.size a + S5000x32.size a := by
  show i ∈ ((View.whole main_v37).slice (win2_16.rect t)).set ↔ _
  rw [View.set_slice_whole, Rect.mem_set_unit]
  exact Iff.rfl

/-- Every row is in some point's block: row `r` in block `r / 5000`. -/
theorem cover (i : S100000x32.Idx) : ∃ t : Fin cfg2.N, (cfg2.win 16).flush t = true ∧ i ∈ ((cfg2.win 16).blk t).view.set := by
  have hi0 : (i 0).val < 100000 := (i 0).isLt
  have hi1 : (i 1).val < 32 := (i 1).isLt
  have hN : cfg2.N = 20 := N_2
  refine ⟨⟨(i 0).val / 5000, by rw [hN]; omega⟩, flush2_16 _, ?_⟩
  rw [mem_blk]
  obtain ⟨-, -, -, -, -, -, -, -, -, -, -, -, -, -, -, -, -, -, -, -, -, -, -, -, -, -, -, -, -, -, -, -, e0, e1⟩ := idx_facts ⟨(i 0).val / 5000, by rw [hN]; omega⟩
  intro a
  match a with
  | ⟨0, _⟩ =>
    show win2_16.index _ (0 : Fin 2) * 5000 ≤ (i 0).val ∧ (i 0).val < win2_16.index _ (0 : Fin 2) * 5000 + 5000
    rw [e0]; show (i 0).val / 5000 * 5000 ≤ (i 0).val ∧ (i 0).val < (i 0).val / 5000 * 5000 + 5000; omega
  | ⟨1, _⟩ =>
    show win2_16.index _ (1 : Fin 2) * 32 ≤ (i 1).val ∧ (i 1).val < win2_16.index _ (1 : Fin 2) * 32 + 32
    rw [e1]; omega

/-- The region's array after the run. -/
theorem final (c : Dev nD) : (dat2 V c).arrAt 16 cfg2.N = G V c :=
  (dat2 V c).arrAt_eq_of_cover 16 (G V c) (fun t _ => flushed_eq V c t) (cover)

end Cert.KernelIdeal.Reg2

end
-- ==== Proof.RegionF.lean ====
/-
  THE REGIONS' ARRAYS WITH THE ENTRY CONTENTS GIVEN BY EQUATIONS.

  Each region's array after the run is its layer of the arrays the region is entered with.  Here those arrays are named by
  variables equal to the entry contents by given equations, the form in which the contents read through the program meet the
  regions: nothing is found by search, the equations are substituted.
-/
import proofs.«138145_j65584150610482_1_alg».proof.Proof.Region1
import proofs.«138145_j65584150610482_1_alg».proof.Proof.Region2

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RegF

open Cert.KernelIdeal Cert.KernelIdeal.Gen Cert.DenseRow Cert.RowBias Cert.Net

variable (V : (c : Dev nD) → (b : Ref sig .tc) → Buf (Elt Ideal) ((c : Thread nD τ).loc b)) (c : Dev nD)

/-- The second region's array: the neighbourhood layer of the named entry arrays. -/
theorem final1 (x0 : S100000x128.Idx → EReal) (x1 : S100000x128.Idx → EReal) (x2 : S128x256.Idx → EReal) (x3 : S128x256.Idx → EReal) (x4 : S1x256.Idx → EReal) (x5 : S1x256.Idx → EReal) (x6 : S1x256.Idx → EReal) (x7 : S1x256.Idx → EReal) (x8 : S1x256.Idx → EReal)
    (e0 : (V c (Pipeline.arrRef spec1 0) : S100000x128.Idx → EReal) = x0)
    (e1 : (V c (Pipeline.arrRef spec1 1) : S100000x128.Idx → EReal) = x1)
    (e2 : (V c (Pipeline.arrRef spec1 2) : S128x256.Idx → EReal) = x2)
    (e3 : (V c (Pipeline.arrRef spec1 3) : S128x256.Idx → EReal) = x3)
    (e4 : (V c (Pipeline.arrRef spec1 4) : S1x256.Idx → EReal) = x4)
    (e5 : (V c (Pipeline.arrRef spec1 5) : S1x256.Idx → EReal) = x5)
    (e6 : (V c (Pipeline.arrRef spec1 6) : S1x256.Idx → EReal) = x6)
    (e7 : (V c (Pipeline.arrRef spec1 7) : S1x256.Idx → EReal) = x7)
    (e8 : (V c (Pipeline.arrRef spec1 8) : S1x256.Idx → EReal) = x8) :
    (dat1 V c).arrAt 9 cfg1.N
      = sage (R := 100000) (K := 128) (N := 256) x0 x1 x2 x3 (unrow x4) (unrow x7) (scaleK (unrow x5) (unrow x8)) (unrow x6) := by
  subst e0 e1 e2 e3 e4 e5 e6 e7 e8
  exact Reg1.final V c

set_option maxHeartbeats 1600000 in
/-- The third region's array: the read-out over the second neighbourhood layer, of the named entry arrays. -/
theorem final2 (x0 : S100000x256.Idx → EReal) (x1 : S100000x256.Idx → EReal) (x2 : S100000x128.Idx → EReal) (x3 : S256x128.Idx → EReal) (x4 : S256x128.Idx → EReal) (x5 : S1x128.Idx → EReal) (x6 : S1x128.Idx → EReal) (x7 : S1x128.Idx → EReal) (x8 : S1x128.Idx → EReal) (x9 : S1x128.Idx → EReal) (x10 : S256x128.Idx → EReal) (x11 : S1x128.Idx → EReal) (x12 : S128x64.Idx → EReal) (x13 : S1x64.Idx → EReal) (x14 : S64x32.Idx → EReal) (x15 : S1x32.Idx → EReal)
    (e0 : (V c (Pipeline.arrRef spec2 0) : S100000x256.Idx → EReal) = x0)
    (e1 : (V c (Pipeline.arrRef spec2 1) : S100000x256.Idx → EReal) = x1)
    (e2 : (V c (Pipeline.arrRef spec2 2) : S100000x128.Idx → EReal) = x2)
    (e3 : (V c (Pipeline.arrRef spec2 3) : S256x128.Idx → EReal) = x3)
    (e4 : (V c (Pipeline.arrRef spec2 4) : S256x128.Idx → EReal) = x4)
    (e5 : (V c (Pipeline.arrRef spec2 5) : S1x128.Idx → EReal) = x5)
    (e6 : (V c (Pipeline.arrRef spec2 6) : S1x128.Idx → EReal) = x6)
    (e7 : (V c (Pipeline.arrRef spec2 7) : S1x128.Idx → EReal) = x7)
    (e8 : (V c (Pipeline.arrRef spec2 8) : S1x128.Idx → EReal) = x8)
    (e9 : (V c (Pipeline.arrRef spec2 9) : S1x128.Idx → EReal) = x9)
    (e10 : (V c (Pipeline.arrRef spec2 10) : S256x128.Idx → EReal) = x10)
    (e11 : (V c (Pipeline.arrRef spec2 11) : S1x128.Idx → EReal) = x11)
    (e12 : (V c (Pipeline.arrRef spec2 12) : S128x64.Idx → EReal) = x12)
    (e13 : (V c (Pipeline.arrRef spec2 13) : S1x64.Idx → EReal) = x13)
    (e14 : (V c (Pipeline.arrRef spec2 14) : S64x32.Idx → EReal) = x14)
    (e15 : (V c (Pipeline.arrRef spec2 15) : S1x32.Idx → EReal) = x15) :
    (dat2 V c).arrAt 16 cfg2.N
      = head (R := 100000) x2
          (sage (R := 100000) (K := 256) (N := 128) x0 x1 x3 x4 (unrow x5) (unrow x8) (scaleK (unrow x6) (unrow x9)) (unrow x7))
          x10 (unrow x11) x12 (unrow x13) x14 (unrow x15) := by
  subst e0 e1 e2 e3 e4 e5 e6 e7 e8 e9 e10 e11 e12 e13 e14 e15
  exact Reg2.final V c

end Cert.KernelIdeal.RegF

end
-- ==== Proof.RefRunDefs.lean ====
/- The reference program's six stages as whole-array functions, for any float values `F` (read at the ideal
   instance by the certificate: applied to arrays of `Elt Ideal` the implicit `F` is `Ideal`). Each body is the
   composition of the program's own operations for that stage, in the program's order of nesting, with the
   operations of a called function standing in the place of its call; `refOut` composes the stages as the
   program does (the first layer's output feeds the second layer, the first aggregation and the head; the
   second layer's output feeds the third layer and the second aggregation). -/
import proofs.«138145_j65584150610482_1_alg».proof.Proof.Gen.ReferenceIdeal
import Idealize.ShloMosaic.PureOps.Ideal

noncomputable section

namespace Cert.ReferenceIdeal.RefRun

open Cert.ReferenceIdeal Cert.ReferenceIdeal.Gen Idealize.ShloMosaic Idealize.SL.Sem

variable {F : FTy → Type} [FloatOps F]

/-- The first hidden layer: the two feature blocks side by side, times the weights, plus the bias row, clamped below at zero. -/
def sH0
    (a0 : (⟨S100000x128, .f32⟩ : BufTy).Contents (Elt F))
    (a1 : (⟨S100000x384, .f32⟩ : BufTy).Contents (Elt F))
    (a4 : (⟨S512x128, .f32⟩ : BufTy).Contents (Elt F))
    (a5 : (⟨S128, .f32⟩ : BufTy).Contents (Elt F)) :
    (⟨S100000x128, .f32⟩ : BufTy).Contents (Elt F) :=
  maximumf (addf (Host.dotGeneral dot_S100000x512_S512x128_S100000x128_1_0_0_1_n_n none (concatenate S100000x512 1 [⟨S100000x128, a0⟩, ⟨S100000x384, a1⟩] concatenates_S100000x128_S100000x384_S100000x512_d1) a4) (broadcastInDim S100000x128 ![0, 1] bcast_S1x128_S100000x128_0_1 (broadcastInDim S1x128 ![1] bcast_S128_S1x128_1 a5))) (broadcastInDim S100000x128 ![] bcast_S_S100000x128 (constant S_ .f32 0x00000000#32))

/-- The mean of the gathered rows per target: rows of `h0` taken at the (wrapped, range-checked) source indices `a2`, summed into the rows named by `a3`, divided by the number of edges per target (at least one). -/
def sAgg0
    (h0 : (⟨S100000x128, .f32⟩ : BufTy).Contents (Elt F))
    (a2 : (⟨S800000, .i32⟩ : BufTy).Contents (Elt F))
    (a3 : (⟨S800000, .i32⟩ : BufTy).Contents (Elt F)) :
    (⟨S100000x128, .f32⟩ : BufTy).Contents (Elt F) :=
  Host.divf (Host.scatterAdd scatter_S100000x128_S800000x1_S800000x128_1_0_0_1 (broadcastInDim S100000x128 ![] bcast_S_S100000x128 (constant S_ .f32 0x00000000#32)) (broadcastInDim S800000x1 ![0] bcast_S800000_S800000x1_0 a3) (select (broadcastInDim S800000x128 ![0] bcast_S800000_S800000x128_0 (Host.reduce IntOp.andi (andi (cmpi .sge (broadcastInDim S800000x1 ![0] bcast_S800000_S800000x1_0 (select (cmpi .slt a2 (broadcastInDim S800000 ![] bcast_S_S800000 (constantI S_ 32 0#32))) (addi a2 (broadcastInDim S800000 ![] bcast_S_S800000 (constantI S_ 32 100000#32))) a2)) (broadcastInDim S800000x1 ![] bcast_S_S800000x1 (constantI S_ 32 0#32))) (cmpi .sle (broadcastInDim S800000x1 ![0] bcast_S800000_S800000x1_0 (select (cmpi .slt a2 (broadcastInDim S800000 ![] bcast_S_S800000 (constantI S_ 32 0#32))) (addi a2 (broadcastInDim S800000 ![] bcast_S_S800000 (constantI S_ 32 100000#32))) a2)) (broadcastInDim S800000x1 ![0, 1] bcast_S1x1_S800000x1_0_1 (broadcastInDim S1x1 ![1] bcast_S1_S1x1_1 (constantI S1 32 99999#32))))) (constantI S_ 1 1#1) reducesTo_S800000x1_S800000_d1 h_S_)) (Host.gather gather_S100000x128_S800000x1_S800000x128_1_0_n_n_0_1_1128 h0 (broadcastInDim S800000x1 ![0] bcast_S800000_S800000x1_0 (select (cmpi .slt a2 (broadcastInDim S800000 ![] bcast_S_S800000 (constantI S_ 32 0#32))) (addi a2 (broadcastInDim S800000 ![] bcast_S_S800000 (constantI S_ 32 100000#32))) a2))) (broadcastInDim S800000x128 ![] bcast_S_S800000x128 (constant S_ .f32 0x7FC00000#32)))) (broadcastInDim S100000x128 ![0, 1] bcast_S100000x1_S100000x128_0_1 (broadcastInDim S100000x1 ![0] bcast_S100000_S100000x1_0 (maximumf (Host.scatterAdd scatter_S100000_S800000x1_S800000_n_0_0_1 (broadcastInDim S100000 ![] bcast_S_S100000 (constant S_ .f32 0x00000000#32)) (broadcastInDim S800000x1 ![0] bcast_S800000_S800000x1_0 a3) (broadcastInDim S800000 ![] bcast_S_S800000 (constant S_ .f32 0x3F800000#32))) (broadcastInDim S100000 ![] bcast_S_S100000 (constant S_ .f32 0x3F800000#32)))))

/-- The second layer: self term plus neighbour term plus bias, normalized with the running statistics, scaled and shifted, clamped below at zero. -/
def sH
    (h0 : (⟨S100000x128, .f32⟩ : BufTy).Contents (Elt F))
    (agg0 : (⟨S100000x128, .f32⟩ : BufTy).Contents (Elt F))
    (a6 : (⟨S128x256, .f32⟩ : BufTy).Contents (Elt F))
    (a7 : (⟨S128x256, .f32⟩ : BufTy).Contents (Elt F))
    (a8 : (⟨S256, .f32⟩ : BufTy).Contents (Elt F))
    (a9 : (⟨S256, .f32⟩ : BufTy).Contents (Elt F))
    (a10 : (⟨S256, .f32⟩ : BufTy).Contents (Elt F))
    (a11 : (⟨S256, .f32⟩ : BufTy).Contents (Elt F))
    (a12 : (⟨S256, .f32⟩ : BufTy).Contents (Elt F)) :
    (⟨S100000x256, .f32⟩ : BufTy).Contents (Elt F) :=
  maximumf (addf (mulf (subf (addf (addf (Host.dotGeneral dot_S100000x128_S128x256_S100000x256_1_0_0_1_n_n none h0 a6) (Host.dotGeneral dot_S100000x128_S128x256_S100000x256_1_0_0_1_n_n none agg0 a7)) (broadcastInDim S100000x256 ![0, 1] bcast_S1x256_S100000x256_0_1 (broadcastInDim S1x256 ![1] bcast_S256_S1x256_1 a8))) (broadcastInDim S100000x256 ![0, 1] bcast_S1x256_S100000x256_0_1 (broadcastInDim S1x256 ![1] bcast_S256_S1x256_1 a11))) (broadcastInDim S100000x256 ![0, 1] bcast_S1x256_S100000x256_0_1 (broadcastInDim S1x256 ![1] bcast_S256_S1x256_1 (Host.divf a9 (Host.sqrt (addf a12 (broadcastInDim S256 ![] bcast_S_S256 (constant S_ .f32 0x3727C5AC#32)))))))) (broadcastInDim S100000x256 ![0, 1] bcast_S1x256_S100000x256_0_1 (broadcastInDim S1x256 ![1] bcast_S256_S1x256_1 a10))) (broadcastInDim S100000x256 ![] bcast_S_S100000x256 (constant S_ .f32 0x00000000#32))

/-- The same mean over edges, of the rows of `h`. -/
def sAgg1
    (h : (⟨S100000x256, .f32⟩ : BufTy).Contents (Elt F))
    (a2 : (⟨S800000, .i32⟩ : BufTy).Contents (Elt F))
    (a3 : (⟨S800000, .i32⟩ : BufTy).Contents (Elt F)) :
    (⟨S100000x256, .f32⟩ : BufTy).Contents (Elt F) :=
  Host.divf (Host.scatterAdd scatter_S100000x256_S800000x1_S800000x256_1_0_0_1 (broadcastInDim S100000x256 ![] bcast_S_S100000x256 (constant S_ .f32 0x00000000#32)) (broadcastInDim S800000x1 ![0] bcast_S800000_S800000x1_0 a3) (select (broadcastInDim S800000x256 ![0] bcast_S800000_S800000x256_0 (Host.reduce IntOp.andi (andi (cmpi .sge (broadcastInDim S800000x1 ![0] bcast_S800000_S800000x1_0 (select (cmpi .slt a2 (broadcastInDim S800000 ![] bcast_S_S800000 (constantI S_ 32 0#32))) (addi a2 (broadcastInDim S800000 ![] bcast_S_S800000 (constantI S_ 32 100000#32))) a2)) (broadcastInDim S800000x1 ![] bcast_S_S800000x1 (constantI S_ 32 0#32))) (cmpi .sle (broadcastInDim S800000x1 ![0] bcast_S800000_S800000x1_0 (select (cmpi .slt a2 (broadcastInDim S800000 ![] bcast_S_S800000 (constantI S_ 32 0#32))) (addi a2 (broadcastInDim S800000 ![] bcast_S_S800000 (constantI S_ 32 100000#32))) a2)) (broadcastInDim S800000x1 ![0, 1] bcast_S1x1_S800000x1_0_1 (broadcastInDim S1x1 ![1] bcast_S1_S1x1_1 (constantI S1 32 99999#32))))) (constantI S_ 1 1#1) reducesTo_S800000x1_S800000_d1 h_S_)) (Host.gather gather_S100000x256_S800000x1_S800000x256_1_0_n_n_0_1_1256 h (broadcastInDim S800000x1 ![0] bcast_S800000_S800000x1_0 (select (cmpi .slt a2 (broadcastInDim S800000 ![] bcast_S_S800000 (constantI S_ 32 0#32))) (addi a2 (broadcastInDim S800000 ![] bcast_S_S800000 (constantI S_ 32 100000#32))) a2))) (broadcastInDim S800000x256 ![] bcast_S_S800000x256 (constant S_ .f32 0x7FC00000#32)))) (broadcastInDim S100000x256 ![0, 1] bcast_S100000x1_S100000x256_0_1 (broadcastInDim S100000x1 ![0] bcast_S100000_S100000x1_0 (maximumf (Host.scatterAdd scatter_S100000_S800000x1_S800000_n_0_0_1 (broadcastInDim S100000 ![] bcast_S_S100000 (constant S_ .f32 0x00000000#32)) (broadcastInDim S800000x1 ![0] bcast_S800000_S800000x1_0 a3) (broadcastInDim S800000 ![] bcast_S_S800000 (constant S_ .f32 0x3F800000#32))) (broadcastInDim S100000 ![] bcast_S_S100000 (constant S_ .f32 0x3F800000#32)))))

/-- The third layer, the same shape as the second at width 128. -/
def sH1
    (h : (⟨S100000x256, .f32⟩ : BufTy).Contents (Elt F))
    (agg1 : (⟨S100000x256, .f32⟩ : BufTy).Contents (Elt F))
    (a13 : (⟨S256x128, .f32⟩ : BufTy).Contents (Elt F))
    (a14 : (⟨S256x128, .f32⟩ : BufTy).Contents (Elt F))
    (a15 : (⟨S128, .f32⟩ : BufTy).Contents (Elt F))
    (a16 : (⟨S128, .f32⟩ : BufTy).Contents (Elt F))
    (a17 : (⟨S128, .f32⟩ : BufTy).Contents (Elt F))
    (a18 : (⟨S128, .f32⟩ : BufTy).Contents (Elt F))
    (a19 : (⟨S128, .f32⟩ : BufTy).Contents (Elt F)) :
    (⟨S100000x128, .f32⟩ : BufTy).Contents (Elt F) :=
  maximumf (addf (mulf (subf (addf (addf (Host.dotGeneral dot_S100000x256_S256x128_S100000x128_1_0_0_1_n_n none h a13) (Host.dotGeneral dot_S100000x256_S256x128_S100000x128_1_0_0_1_n_n none agg1 a14)) (broadcastInDim S100000x128 ![0, 1] bcast_S1x128_S100000x128_0_1 (broadcastInDim S1x128 ![1] bcast_S128_S1x128_1 a15))) (broadcastInDim S100000x128 ![0, 1] bcast_S1x128_S100000x128_0_1 (broadcastInDim S1x128 ![1] bcast_S128_S1x128_1 a18))) (broadcastInDim S100000x128 ![0, 1] bcast_S1x128_S100000x128_0_1 (broadcastInDim S1x128 ![1] bcast_S128_S1x128_1 (Host.divf a16 (Host.sqrt (addf a19 (broadcastInDim S128 ![] bcast_S_S128 (constant S_ .f32 0x3727C5AC#32)))))))) (broadcastInDim S100000x128 ![0, 1] bcast_S1x128_S100000x128_0_1 (broadcastInDim S1x128 ![1] bcast_S128_S1x128_1 a17))) (broadcastInDim S100000x128 ![] bcast_S_S100000x128 (constant S_ .f32 0x00000000#32))

/-- The head: the first and third layers side by side through three dense layers, the first two clamped below at zero. -/
def sOut
    (h0 : (⟨S100000x128, .f32⟩ : BufTy).Contents (Elt F))
    (h1 : (⟨S100000x128, .f32⟩ : BufTy).Contents (Elt F))
    (a20 : (⟨S256x128, .f32⟩ : BufTy).Contents (Elt F))
    (a21 : (⟨S128, .f32⟩ : BufTy).Contents (Elt F))
    (a22 : (⟨S128x64, .f32⟩ : BufTy).Contents (Elt F))
    (a23 : (⟨S64, .f32⟩ : BufTy).Contents (Elt F))
    (a24 : (⟨S64x32, .f32⟩ : BufTy).Contents (Elt F))
    (a25 : (⟨S32, .f32⟩ : BufTy).Contents (Elt F)) :
    (⟨S100000x32, .f32⟩ : BufTy).Contents (Elt F) :=
  addf (Host.dotGeneral dot_S100000x64_S64x32_S100000x32_1_0_0_1_n_n none (maximumf (addf (Host.dotGeneral dot_S100000x128_S128x64_S100000x64_1_0_0_1_n_n none (maximumf (addf (Host.dotGeneral dot_S100000x256_S256x128_S100000x128_1_0_0_1_n_n none (concatenate S100000x256 1 [⟨S100000x128, h0⟩, ⟨S100000x128, h1⟩] concatenates_S100000x128_S100000x128_S100000x256_d1) a20) (broadcastInDim S100000x128 ![0, 1] bcast_S1x128_S100000x128_0_1 (broadcastInDim S1x128 ![1] bcast_S128_S1x128_1 a21))) (broadcastInDim S100000x128 ![] bcast_S_S100000x128 (constant S_ .f32 0x00000000#32))) a22) (broadcastInDim S100000x64 ![0, 1] bcast_S1x64_S100000x64_0_1 (broadcastInDim S1x64 ![1] bcast_S64_S1x64_1 a23))) (broadcastInDim S100000x64 ![] bcast_S_S100000x64 (constant S_ .f32 0x00000000#32))) a24) (broadcastInDim S100000x32 ![0, 1] bcast_S1x32_S100000x32_0_1 (broadcastInDim S1x32 ![1] bcast_S32_S1x32_1 a25))

/-- The whole reference: the result array as a function of the twenty-six argument arrays. -/
def refOut
    (a0 : (⟨S100000x128, .f32⟩ : BufTy).Contents (Elt F))
    (a1 : (⟨S100000x384, .f32⟩ : BufTy).Contents (Elt F))
    (a2 : (⟨S800000, .i32⟩ : BufTy).Contents (Elt F))
    (a3 : (⟨S800000, .i32⟩ : BufTy).Contents (Elt F))
    (a4 : (⟨S512x128, .f32⟩ : BufTy).Contents (Elt F))
    (a5 : (⟨S128, .f32⟩ : BufTy).Contents (Elt F))
    (a6 : (⟨S128x256, .f32⟩ : BufTy).Contents (Elt F))
    (a7 : (⟨S128x256, .f32⟩ : BufTy).Contents (Elt F))
    (a8 : (⟨S256, .f32⟩ : BufTy).Contents (Elt F))
    (a9 : (⟨S256, .f32⟩ : BufTy).Contents (Elt F))
    (a10 : (⟨S256, .f32⟩ : BufTy).Contents (Elt F))
    (a11 : (⟨S256, .f32⟩ : BufTy).Contents (Elt F))
    (a12 : (⟨S256, .f32⟩ : BufTy).Contents (Elt F))
    (a13 : (⟨S256x128, .f32⟩ : BufTy).Contents (Elt F))
    (a14 : (⟨S256x128, .f32⟩ : BufTy).Contents (Elt F))
    (a15 : (⟨S128, .f32⟩ : BufTy).Contents (Elt F))
    (a16 : (⟨S128, .f32⟩ : BufTy).Contents (Elt F))
    (a17 : (⟨S128, .f32⟩ : BufTy).Contents (Elt F))
    (a18 : (⟨S128, .f32⟩ : BufTy).Contents (Elt F))
    (a19 : (⟨S128, .f32⟩ : BufTy).Contents (Elt F))
    (a20 : (⟨S256x128, .f32⟩ : BufTy).Contents (Elt F))
    (a21 : (⟨S128, .f32⟩ : BufTy).Contents (Elt F))
    (a22 : (⟨S128x64, .f32⟩ : BufTy).Contents (Elt F))
    (a23 : (⟨S64, .f32⟩ : BufTy).Contents (Elt F))
    (a24 : (⟨S64x32, .f32⟩ : BufTy).Contents (Elt F))
    (a25 : (⟨S32, .f32⟩ : BufTy).Contents (Elt F)) :
    (⟨S100000x32, .f32⟩ : BufTy).Contents (Elt F) :=
  let h0 := sH0 a0 a1 a4 a5
  let h := sH h0 (sAgg0 h0 a2 a3) a6 a7 a8 a9 a10 a11 a12
  sOut h0 (sH1 h (sAgg1 h a2 a3) a13 a14 a15 a16 a17 a18 a19) a20 a21 a22 a23 a24 a25

/-- The stages at the ideal instance elaborate from their arguments' type alone. -/
example (a0 : (⟨S100000x128, .f32⟩ : BufTy).Contents (Elt Ideal)) (a1 : (⟨S100000x384, .f32⟩ : BufTy).Contents (Elt Ideal))
    (a4 : (⟨S512x128, .f32⟩ : BufTy).Contents (Elt Ideal)) (a5 : (⟨S128, .f32⟩ : BufTy).Contents (Elt Ideal)) :
    (⟨S100000x128, .f32⟩ : BufTy).Contents (Elt Ideal) := sH0 a0 a1 a4 a5

end Cert.ReferenceIdeal.RefRun

end
-- ==== Proof.Laws.lean ====
/-
  THE TWO LAWS THAT JOIN THE PROGRAMS, on the extended reals.

  • A mean written `s · (1 / d)` and written `s / d`: for a divisor `d ≠ 0` the quotient `x / d` is `x · d⁻¹` by
    definition, and `1 / d = 1 · d⁻¹ = d⁻¹`, so the two are one number for EVERY `s`, finite or not (`mul_inv_eq_div`).
    The divisor here is `max (deg) 1 ≥ 1`, never zero (`max_one_ne_zero`).
  • A normalisation's scale written `g · rsqrt (v + ε)` and written `g / sqrt (v + ε)`: for a real `v ≥ 0` and a real
    `ε > 0` the number under the root is a positive real `w`; `rsqrt w` is the real `(√w)⁻¹`, `sqrt w` the nonzero real
    `√w`, and dividing by a nonzero real is multiplying by its reciprocal (`scale_point`, `scaleK_eq_scaleR`).
    `ε` is the value of the word `0x3727C5AC`, the positive real `10995116 · 2⁻⁴⁰` (`eps_real`).
-/
import proofs.«138145_j65584150610482_1_alg».proof.Proof.Net
import Idealize.ShloMosaic.Lib.IdealHost

noncomputable section

namespace Cert.Net

open Idealize.ShloMosaic Idealize.ShloMosaic.ValueIdx

/-! ## The mean -/

theorem max_one_ne_zero (a : EReal) : max a 1 ≠ 0 :=
  ne_of_gt (lt_of_lt_of_le (zero_lt_one' EReal) (le_max_right a 1))

/-- `x · (1 / d) = x / d` for a divisor that is not zero. -/
theorem mul_inv_eq_div (x d : EReal) (hd : d ≠ 0) : x * Ideal.div 1 d = Ideal.div x d := by
  unfold Ideal.div
  rw [if_neg hd, if_neg hd, one_mul]

/-! ## The scale -/

theorem eps_real : ∃ e : ℝ, 0 < e ∧ eps = (e : EReal) := by
  refine ⟨(10995116 : ℝ) * (2 : ℝ) ^ (-40 : ℤ), by positivity, ?_⟩
  unfold eps
  simp [Ideal.ofBits, Ideal.ieee, -EReal.coe_mul]

/-- At one entry: a gain `g`, a real variance `r ≥ 0`, a real `e > 0`. -/
theorem scale_point (g : EReal) (r e : ℝ) (hr : 0 ≤ r) (he : 0 < e) :
    g * Ideal.rsqrt ((r : EReal) + (e : EReal)) = Ideal.div g (Ideal.sqrt ((r : EReal) + (e : EReal))) := by
  have hw : 0 < r + e := by linarith
  have hs : Real.sqrt (r + e) ≠ 0 := ne_of_gt (Real.sqrt_pos.mpr hw)
  rw [← EReal.coe_add, Ideal.rsqrt_coe, Ideal.sqrt_coe, if_neg (not_lt.mpr hw.le), if_neg (ne_of_gt hw),
    if_neg (not_lt.mpr hw.le), Ideal.div_coe hs, one_div]

/-- The two spellings of the scale vector agree when every variance is a nonnegative real. -/
theorem scaleK_eq_scaleR {N : ℕ} (g v : A1 N) (hv : ∀ i, ∃ r : ℝ, 0 ≤ r ∧ v i = (r : EReal)) : scaleK g v = scaleR g v := by
  obtain ⟨e, he, hee⟩ := eps_real
  funext i
  obtain ⟨r, hr, hvr⟩ := hv i
  show g i * Ideal.rsqrt (v i + eps) = Ideal.div (g i) (Ideal.sqrt (v i + eps))
  rw [hvr, hee]
  exact scale_point (g i) r e hr he

end Cert.Net

end
-- ==== Proof.AggLaw.lean ====
/-
  A MEAN OVER NEIGHBOURS WRITTEN TWO WAYS, as whole arrays at the ideal values.

  Row `p` of an array of sums `S` is divided by `d p = max (deg p) 1`, the number of summands of that row and at least one.
  One program divides, `S / d`, with `d` laid out over the columns; the other first forms `1 / d` and multiplies,
  `S · (1 / d)`.  A column vector broadcast over the columns reads at `(p, c)` as its entry `p` (`col_apply`), the
  constant one is the number one, and for the nonzero divisor `d p` the two entries are the same number whatever
  `S (p, c)` is, finite or not (`mul_inv_eq_div`).
-/
import proofs.«138145_j65584150610482_1_alg».proof.Proof.Laws

noncomputable section

namespace Cert.Net

open Idealize.ShloMosaic Idealize.ShloMosaic.ValueIdx

/-- A vector of `R` entries laid out as a column and then over `N` columns, read at `(p, c)`: its entry `p`. -/
theorem col_apply {R N : ℕ} (x : FVec Ideal ⟨1, ![R]⟩ .f32)
    (h1 : (⟨1, ![R]⟩ : Shape).BroadcastsInDim ⟨2, ![R, 1]⟩ ![0])
    (h2 : (⟨2, ![R, 1]⟩ : Shape).BroadcastsInDim ⟨2, ![R, N]⟩ ![0, 1]) (p : Fin R) (c : Fin N) :
    broadcastInDim ⟨2, ![R, N]⟩ ![0, 1] h2 (broadcastInDim ⟨2, ![R, 1]⟩ ![0] h1 x) (ix2 p c) = x (ix1 p) := by
  have e2 : broadcastInDim ⟨2, ![R, N]⟩ ![0, 1] h2 (broadcastInDim ⟨2, ![R, 1]⟩ ![0] h1 x) (ix2 p c)
      = broadcastInDim ⟨2, ![R, 1]⟩ ![0] h1 x (ix2 p (0 : Fin 1)) :=
    broadcastInDim_apply _ h2 _ (ix2 p c) (ix2 p (0 : Fin 1)) fun ax => by
      match ax with
      | ⟨0, _⟩ =>
        show p.val = if R = 1 then 0 else p.val
        split
        · have := p.isLt; omega
        · rfl
      | ⟨1, _⟩ => show 0 = if (1 : ℕ) = 1 then 0 else c.val; rw [if_pos rfl]
  have e1 : broadcastInDim ⟨2, ![R, 1]⟩ ![0] h1 x (ix2 p (0 : Fin 1)) = x (ix1 p) :=
    broadcastInDim_apply _ h1 x (ix2 p (0 : Fin 1)) (ix1 p) fun ax => by
      match ax with
      | ⟨0, _⟩ =>
        show p.val = if R = 1 then 0 else p.val
        split
        · have := p.isLt; omega
        · rfl
  rw [e2, e1]

/-- The constant one broadcast from a scalar reads as the number one. -/
theorem ones_apply {R : ℕ} (h0 : (⟨0, ![]⟩ : Shape).BroadcastsInDim ⟨1, ![R]⟩ ![]) (i : (⟨1, ![R]⟩ : Shape).Idx) :
    broadcastInDim ⟨1, ![R]⟩ ![] h0 (constant (F := Ideal) ⟨0, ![]⟩ .f32 0x3F800000#32) i = (1 : EReal) := by
  rw [broadcastInDim_apply _ h0 _ i ix0 (fun a => a.elim0)]
  exact Ideal.ofBits_one_f32

/-- `S · (1 / max (deg, 1))` is `S / max (deg, 1)`, the divisor laid out over the columns. -/
theorem agg_law {R N : ℕ} (S : FVec Ideal ⟨2, ![R, N]⟩ .f32) (deg : FVec Ideal ⟨1, ![R]⟩ .f32)
    (h0 : (⟨0, ![]⟩ : Shape).BroadcastsInDim ⟨1, ![R]⟩ ![])
    (h1 : (⟨1, ![R]⟩ : Shape).BroadcastsInDim ⟨2, ![R, 1]⟩ ![0])
    (h2 : (⟨2, ![R, 1]⟩ : Shape).BroadcastsInDim ⟨2, ![R, N]⟩ ![0, 1]) :
    mulf S (broadcastInDim ⟨2, ![R, N]⟩ ![0, 1] h2 (broadcastInDim ⟨2, ![R, 1]⟩ ![0] h1
        (Host.divf (broadcastInDim ⟨1, ![R]⟩ ![] h0 (constant (F := Ideal) ⟨0, ![]⟩ .f32 0x3F800000#32))
          (maximumf deg (broadcastInDim ⟨1, ![R]⟩ ![] h0 (constant (F := Ideal) ⟨0, ![]⟩ .f32 0x3F800000#32))))))
      = Host.divf S (broadcastInDim ⟨2, ![R, N]⟩ ![0, 1] h2 (broadcastInDim ⟨2, ![R, 1]⟩ ![0] h1
          (maximumf deg (broadcastInDim ⟨1, ![R]⟩ ![] h0 (constant (F := Ideal) ⟨0, ![]⟩ .f32 0x3F800000#32))))) := by
  funext i
  obtain ⟨p, c, rfl⟩ : ∃ (p : Fin R) (c : Fin N), i = ix2 p c := ⟨i 0, i 1, eq_ix2 i⟩
  show S (ix2 p c) * broadcastInDim ⟨2, ![R, N]⟩ ![0, 1] h2 (broadcastInDim ⟨2, ![R, 1]⟩ ![0] h1
        (Host.divf (broadcastInDim ⟨1, ![R]⟩ ![] h0 (constant (F := Ideal) ⟨0, ![]⟩ .f32 0x3F800000#32))
          (maximumf deg (broadcastInDim ⟨1, ![R]⟩ ![] h0 (constant (F := Ideal) ⟨0, ![]⟩ .f32 0x3F800000#32))))) (ix2 p c)
      = Ideal.div (S (ix2 p c)) (broadcastInDim ⟨2, ![R, N]⟩ ![0, 1] h2 (broadcastInDim ⟨2, ![R, 1]⟩ ![0] h1
          (maximumf deg (broadcastInDim ⟨1, ![R]⟩ ![] h0 (constant (F := Ideal) ⟨0, ![]⟩ .f32 0x3F800000#32)))) (ix2 p c))
  rw [col_apply, col_apply]
  show S (ix2 p c) * Ideal.div (broadcastInDim ⟨1, ![R]⟩ ![] h0 (constant (F := Ideal) ⟨0, ![]⟩ .f32 0x3F800000#32) (ix1 p))
        (max (deg (ix1 p)) (broadcastInDim ⟨1, ![R]⟩ ![] h0 (constant (F := Ideal) ⟨0, ![]⟩ .f32 0x3F800000#32) (ix1 p)))
      = Ideal.div (S (ix2 p c)) (max (deg (ix1 p)) (broadcastInDim ⟨1, ![R]⟩ ![] h0 (constant (F := Ideal) ⟨0, ![]⟩ .f32 0x3F800000#32) (ix1 p)))
  rw [ones_apply]
  exact mul_inv_eq_div _ _ (max_one_ne_zero _)

end Cert.Net

end
-- ==== Proof.AggBridgeRec.lean ====
/-
  THE TWO PROGRAMS' GATHER AND SCATTER RECORDS ARE THE SAME RECORDS.

  The idealized kernel program and the reference program each declare a dimension record for the row gather, for the
  accumulating row scatter (at widths 128 and 256) and for the accumulating scatter that counts a node's incoming
  edges. The two programs declare them over the same shapes with the same lists, so each pair is one record.
-/
import proofs.«138145_j65584150610482_1_alg».proof.Proof.Gen.KernelIdeal
import proofs.«138145_j65584150610482_1_alg».proof.Proof.Gen.ReferenceIdeal

noncomputable section

namespace Cert.AggBridge

open Idealize.ShloMosaic

/-- The scatter that counts incoming edges. -/
theorem deg_scatter :
    Cert.KernelIdeal.scatter_S100000_S800000x1_S800000_n_0_0_1 = Cert.ReferenceIdeal.scatter_S100000_S800000x1_S800000_n_0_0_1 := rfl

/-- The row gather at width 128. -/
theorem gather128 :
    Cert.KernelIdeal.gather_S100000x128_S800000x1_S800000x128_1_0_n_n_0_1_1128
      = Cert.ReferenceIdeal.gather_S100000x128_S800000x1_S800000x128_1_0_n_n_0_1_1128 := rfl

/-- The row scatter at width 128. -/
theorem scatter128 :
    Cert.KernelIdeal.scatter_S100000x128_S800000x1_S800000x128_1_0_0_1
      = Cert.ReferenceIdeal.scatter_S100000x128_S800000x1_S800000x128_1_0_0_1 := rfl

/-- The row gather at width 256. -/
theorem gather256 :
    Cert.KernelIdeal.gather_S100000x256_S800000x1_S800000x256_1_0_n_n_0_1_1256
      = Cert.ReferenceIdeal.gather_S100000x256_S800000x1_S800000x256_1_0_n_n_0_1_1256 := rfl

/-- The row scatter at width 256. -/
theorem scatter256 :
    Cert.KernelIdeal.scatter_S100000x256_S800000x1_S800000x256_1_0_0_1
      = Cert.ReferenceIdeal.scatter_S100000x256_S800000x1_S800000x256_1_0_0_1 := rfl

end Cert.AggBridge

end
-- ==== Proof.AggBridge.lean ====
/-
  THE NEIGHBOURHOOD MEAN, THE KERNEL PROGRAM'S HOST CHAIN AGAINST THE REFERENCE'S, at the ideal values.

  Both programs gather the rows of a hidden array at the source indices (the same wrap of negative indices, the same
  range test, the same replacement row), add them up per destination node by the same accumulating scatter into zeros, and
  count the incoming edges of every node by the same accumulating scatter of ones. The kernel program then multiplies
  every row of sums by one over `max (count, 1)`; the reference divides it by `max (count, 1)`. The two programs'
  gather and scatter records are the same records, so the array of sums and the count are the same terms on both sides;
  named as one array `S` and one vector `deg`, the two results are `S · (1 / max (deg, 1))` and `S / max (deg, 1)`,
  which agree entry by entry because the divisor is not zero. The sums themselves are never opened.
-/
import proofs.«138145_j65584150610482_1_alg».proof.Proof.KerFoldDefs
import proofs.«138145_j65584150610482_1_alg».proof.Proof.RefRunDefs
import proofs.«138145_j65584150610482_1_alg».proof.Proof.AggLaw
import proofs.«138145_j65584150610482_1_alg».proof.Proof.AggBridgeRec

noncomputable section

namespace Cert.AggBridge

open Idealize.ShloMosaic Idealize.SL.Sem

/-- Width 128. -/
theorem agg0 (h : (⟨Cert.KernelIdeal.S100000x128, .f32⟩ : BufTy).Contents (Elt Ideal))
    (a2 a3 : (⟨Cert.KernelIdeal.S800000, .i32⟩ : BufTy).Contents (Elt Ideal)) :
    Cert.KernelIdeal.KerFold.kAgg0 h (Cert.KernelIdeal.KerFold.kInv a3) a2 a3
      = Cert.ReferenceIdeal.RefRun.sAgg0 (F := Ideal) h a2 a3 := by
  unfold Cert.KernelIdeal.KerFold.kAgg0 Cert.KernelIdeal.KerFold.kInv Cert.KernelIdeal.KerFold.kTake0 Cert.ReferenceIdeal.RefRun.sAgg0
  dsimp only
  rw [scatter128, gather128, deg_scatter]
  exact Cert.Net.agg_law _ _ _ _ _

/-- Width 256. -/
theorem agg1 (h : (⟨Cert.KernelIdeal.S100000x256, .f32⟩ : BufTy).Contents (Elt Ideal))
    (a2 a3 : (⟨Cert.KernelIdeal.S800000, .i32⟩ : BufTy).Contents (Elt Ideal)) :
    Cert.KernelIdeal.KerFold.kAgg1 h (Cert.KernelIdeal.KerFold.kInv a3) a2 a3
      = Cert.ReferenceIdeal.RefRun.sAgg1 (F := Ideal) h a2 a3 := by
  unfold Cert.KernelIdeal.KerFold.kAgg1 Cert.KernelIdeal.KerFold.kInv Cert.KernelIdeal.KerFold.kTake1 Cert.ReferenceIdeal.RefRun.sAgg1
  dsimp only
  rw [scatter256, gather256, deg_scatter]
  exact Cert.Net.agg_law _ _ _ _ _

end Cert.AggBridge

end
-- ==== Proof.RefStages.lean ====
/-
  THE REFERENCE'S STAGES ARE THE WHOLE-ARRAY LAYERS, at the ideal values.

  Four of the reference program's stages, each the composition of its own host operations, are the network's layers
  applied to whole arrays of 100000 rows: the first hidden stage is the encoder, the two normalised stages are the
  neighbourhood layer at widths 128 → 256 and 256 → 128 with the scale vector spelt `g / sqrt (v + ε)`, and the last
  stage is the read-out. Each stage is literally the host spelling of its layer: the program's dimension records are
  the plain matrix product's records (the same six lists), its shapes are the generic shapes at these sizes, so the
  host-spelling lemma applies as it stands. No sum is regrouped and nothing is assumed finite.
-/
import proofs.«138145_j65584150610482_1_alg».proof.Proof.RefRunDefs
import proofs.«138145_j65584150610482_1_alg».proof.Proof.NetForms
import proofs.«138145_j65584150610482_1_alg».proof.Proof.NetForms2

set_option maxRecDepth 16384

noncomputable section

namespace Cert.ReferenceIdeal.RefStages

open Cert.ReferenceIdeal Cert.ReferenceIdeal.Gen Idealize.ShloMosaic Idealize.SL.Sem

/-- The first hidden stage is the encoder of the two feature arrays. -/
theorem sH0_eq (a0 : (⟨S100000x128, .f32⟩ : BufTy).Contents (Elt Ideal)) (a1 : (⟨S100000x384, .f32⟩ : BufTy).Contents (Elt Ideal))
    (a4 : (⟨S512x128, .f32⟩ : BufTy).Contents (Elt Ideal)) (a5 : (⟨S128, .f32⟩ : BufTy).Contents (Elt Ideal)) :
    RefRun.sH0 (F := Ideal) a0 a1 a4 a5 = Cert.Net.enc (R := 100000) a0 a1 a4 a5 := by
  unfold RefRun.sH0
  exact Cert.Net.henc (R := 100000) a0 a1 a4 a5 _ _ _ _

/-- The second stage is the neighbourhood layer from width 128 to width 256; its normalisation has gain `a9`, shift
    `a10`, mean `a11` and variance `a12`. -/
theorem sH_eq (h0 agg0 : (⟨S100000x128, .f32⟩ : BufTy).Contents (Elt Ideal))
    (a6 a7 : (⟨S128x256, .f32⟩ : BufTy).Contents (Elt Ideal))
    (a8 a9 a10 a11 a12 : (⟨S256, .f32⟩ : BufTy).Contents (Elt Ideal)) :
    RefRun.sH (F := Ideal) h0 agg0 a6 a7 a8 a9 a10 a11 a12
      = Cert.Net.sage (R := 100000) (K := 128) (N := 256) h0 agg0 a6 a7 a8 a11 (Cert.Net.scaleR a9 a12) a10 := by
  unfold RefRun.sH
  exact Cert.Net.hsage (R := 100000) (K := 128) (N := 256) h0 agg0 a6 a7 a8 a11 a9 a12 a10 _ _ _ _

/-- The third stage is the neighbourhood layer from width 256 to width 128; its normalisation has gain `a16`, shift
    `a17`, mean `a18` and variance `a19`. -/
theorem sH1_eq (h agg1 : (⟨S100000x256, .f32⟩ : BufTy).Contents (Elt Ideal))
    (a13 a14 : (⟨S256x128, .f32⟩ : BufTy).Contents (Elt Ideal))
    (a15 a16 a17 a18 a19 : (⟨S128, .f32⟩ : BufTy).Contents (Elt Ideal)) :
    RefRun.sH1 (F := Ideal) h agg1 a13 a14 a15 a16 a17 a18 a19
      = Cert.Net.sage (R := 100000) (K := 256) (N := 128) h agg1 a13 a14 a15 a18 (Cert.Net.scaleR a16 a19) a17 := by
  unfold RefRun.sH1
  exact Cert.Net.hsage (R := 100000) (K := 256) (N := 128) h agg1 a13 a14 a15 a18 a16 a19 a17 _ _ _ _

/-- The last stage is the read-out of the first and third hidden arrays. -/
theorem sOut_eq (h0 h1 : (⟨S100000x128, .f32⟩ : BufTy).Contents (Elt Ideal))
    (a20 : (⟨S256x128, .f32⟩ : BufTy).Contents (Elt Ideal)) (a21 : (⟨S128, .f32⟩ : BufTy).Contents (Elt Ideal))
    (a22 : (⟨S128x64, .f32⟩ : BufTy).Contents (Elt Ideal)) (a23 : (⟨S64, .f32⟩ : BufTy).Contents (Elt Ideal))
    (a24 : (⟨S64x32, .f32⟩ : BufTy).Contents (Elt Ideal)) (a25 : (⟨S32, .f32⟩ : BufTy).Contents (Elt Ideal)) :
    RefRun.sOut (F := Ideal) h0 h1 a20 a21 a22 a23 a24 a25 = Cert.Net.head (R := 100000) h0 h1 a20 a21 a22 a23 a24 a25 := by
  unfold RefRun.sOut
  exact Cert.Net.hhead (R := 100000) h0 h1 a20 a21 a22 a23 a24 a25 _ _ _ _ _ _ _ _ _

end Cert.ReferenceIdeal.RefStages

end
-- ==== Proof.PreFactsElt.lean ====
/-
  ELEMENT FACTS BEHIND A PRINTED "ALL ENTRIES SATISFY …" TEST, at the ideal values.

  A scalar truth value is a one-bit word on the shape with one index. A conjunction of two of them that is 1 has both
  conjuncts 1 (`andi_ones`). A test "every entry of x has |x| < +∞" that is 1 says every entry of x is a real number
  (`all_real`): on the extended reals |x| = max x (−x) is +∞ exactly at the two infinities. A test "every entry of x
  is ≥ 0" that is 1 says 0 ≤ x at every entry (`all_nonneg`). The two together give a nonnegative real (`real_nonneg`).
-/
import Idealize.ShloMosaic.Lib.StableHlo
import Idealize.ShloMosaic.PureOps
import Idealize.ShloMosaic.PureOps.Ideal.Laws
import Idealize.ShloMosaic.Lib.ReduceAll
import Idealize.ShloMosaic.Lib.ValueIdx

noncomputable section

namespace Cert.PreFacts

open Idealize.ShloMosaic Idealize.ShloMosaic.ValueIdx

/-- The scalar shape has one index. -/
instance subsingleton_scalar_idx : Subsingleton (⟨0, ![]⟩ : Shape).Idx := ⟨fun a b => funext fun d => d.elim0⟩

/-- A conjunction of two scalar truth values that is 1 has both conjuncts 1. -/
theorem andi_ones {x y : IVec ⟨0, ![]⟩ 1} (h : andi x y = fun _ => 1#1) :
    x = (fun _ => 1#1) ∧ y = (fun _ => 1#1) :=
  ⟨funext fun i => (IntOp.andi_eq_one.1 (congrFun h i)).1, funext fun i => (IntOp.andi_eq_one.1 (congrFun h i)).2⟩

/-- The word 0x7F800000 denotes +∞. -/
theorem ofBits_inf_f32 : Ideal.ofBits .f32 0x7F800000#32 = ⊤ := by simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [ofBits_inf_f32] at h
  induction x using EReal.rec with
  | bot => simp [Ideal.cmp] at h
  | top => simp [Ideal.cmp] at h
  | coe r => exact ⟨r, rfl⟩

/-- A decided truth value is the word 1 exactly when it is true. -/
theorem ofBool_eq_one {b : Bool} : BitVec.ofBool b = 1#1 ↔ b = true := by cases b <;> decide

/-- An extended real that tests ≥ the zero word is ≥ 0. -/
theorem nonneg_of_ge (x : EReal) (h : Ideal.cmp .oge x (Ideal.ofBits .f32 0x00000000#32) = 1#1) : 0 ≤ x := by
  rw [Ideal.ofBits_zero_f32] at h
  simpa [Ideal.cmp, ofBool_eq_one] using h

/-- "Every entry of x has |x| < +∞" is 1: every entry of x is a real number. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr h0 = fun _ => 1#1) (i : s.Idx) : ∃ r : ℝ, x i = (r : EReal) :=
  real_of_abs_lt (x i) (Host.reduce_andi_all _ _ hr h0 ix0 (congrFun e ix0) i)

/-- "Every entry of x is ≥ 0" is 1: every entry of x is ≥ 0. -/
theorem all_nonneg {s : Shape} {axes : List (Fin s.rank)} (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (e : Host.reduce IntOp.andi (cmpf .oge x (broadcastInDim s ![] hb (constant (F := Ideal) ⟨0, ![]⟩ .f32 0x00000000#32)))
          (constantI ⟨0, ![]⟩ 1 1#1) hr h0 = fun _ => 1#1) (i : s.Idx) : 0 ≤ x i :=
  nonneg_of_ge (x i) (Host.reduce_andi_all _ _ hr h0 ix0 (congrFun e ix0) i)

/-- A real entry that is ≥ 0 is a nonnegative real. -/
theorem real_nonneg {x : EReal} (hr : ∃ r : ℝ, x = (r : EReal)) (h0 : 0 ≤ x) : ∃ r : ℝ, 0 ≤ r ∧ x = (r : EReal) := by
  obtain ⟨r, rfl⟩ := hr
  exact ⟨r, EReal.coe_nonneg.1 h0, rfl⟩

end Cert.PreFacts

end
-- ==== Proof.PreFactsParts.lean ====
/-
  THE PRINTED PRECONDITION, READ BACK at the ideal values: of its conjunction of "every entry of an argument satisfies …"
  tests, the four that speak of the two variance vectors. The printed function is a chain of seven parts, each ending in
  the call of the next; its result is a left-nested conjunction, so a part whose result is 1 has the truth value it was
  handed equal to 1 (what the earlier parts established) and each of its own tests equal to 1. The parts are read from
  the last one upward; every part keeps only the tests on the 256-entry vector (argument 12) and the 128-entry vector
  (argument 19): |x| < +∞ at every entry (the entry is a real number) and x ≥ 0 at every entry.
-/
import proofs.«138145_j65584150610482_1_alg».proof.Pre_finite_inputs
import proofs.«138145_j65584150610482_1_alg».proof.Proof.PreFactsElt

noncomputable section

namespace Cert.PreFacts

open Idealize.ShloMosaic Idealize.ShloMosaic.ValueIdx Cert.Pre_finite_inputs

variable [Facts]

/-- Part 7, handed the zero word: the two "≥ 0" tests. -/
theorem part7 (main_arg12 : FVec Ideal S256 .f32) (main_arg19 : FVec Ideal S128 .f32) (main_v118 : IVec S_ 1)
    (h : fn_part7 (F := Ideal) main_arg12 main_arg19 main_v118 (constant (F := Ideal) S_ .f32 0x00000000#32) = (fun _ => 1#1)) :
    main_v118 = (fun _ => 1#1) ∧ (∀ i, 0 ≤ main_arg12 i) ∧ (∀ i, 0 ≤ main_arg19 i) := by
  dsimp only [fn_part7] at h
  obtain ⟨h1, h19⟩ := andi_ones h
  obtain ⟨h118, h12⟩ := andi_ones h1
  exact ⟨h118, all_nonneg main_arg12 _ _ _ h12, all_nonneg main_arg19 _ _ _ h19⟩

/-- Part 6 tests other arguments only. -/
theorem part6 (main_arg12 : FVec Ideal S256 .f32) (main_arg19 : FVec Ideal S128 .f32) (main_arg23 : FVec Ideal S64 .f32) (main_arg24 : FVec Ideal S64x32 .f32) (main_arg25 : FVec Ideal S32 .f32) (main_v98 : IVec S_ 1) (main_v101 : IVec S128x64 1) (main_c_39 : IVec S_ 1)
    (h : fn_part6 (F := Ideal) main_arg12 main_arg19 main_arg23 main_arg24 main_arg25 main_v98 main_v101 main_c_39 = (fun _ => 1#1)) :
    main_v98 = (fun _ => 1#1) ∧ (∀ i, 0 ≤ main_arg12 i) ∧ (∀ i, 0 ≤ main_arg19 i) := by
  dsimp only [fn_part6] at h
  obtain ⟨h118, g12, g19⟩ := part7 _ _ _ h
  exact ⟨(andi_ones (andi_ones (andi_ones (andi_ones h118).1).1).1).1, g12, g19⟩

/-- Part 5, handed |argument 19| and the +∞ word: its first test is "every entry of argument 19 is real". -/
theorem part5 (main_arg12 : FVec Ideal S256 .f32) (main_arg19 : FVec Ideal S128 .f32) (main_arg20 : FVec Ideal S256x128 .f32) (main_arg21 : FVec Ideal S128 .f32) (main_arg22 : FVec Ideal S128x64 .f32) (main_arg23 : FVec Ideal S64 .f32) (main_arg24 : FVec Ideal S64x32 .f32) (main_arg25 : FVec Ideal S32 .f32) (main_v83 : IVec S_ 1)
    (h : fn_part5 (F := Ideal) main_arg12 main_arg19 main_arg20 main_arg21 main_arg22 main_arg23 main_arg24 main_arg25 main_v83 (Host.absf main_arg19) (constant (F := Ideal) S_ .f32 0x7F800000#32) = (fun _ => 1#1)) :
    main_v83 = (fun _ => 1#1) ∧ (∀ i, ∃ r : ℝ, main_arg19 i = (r : EReal)) ∧ (∀ i, 0 ≤ main_arg12 i) ∧ (∀ i, 0 ≤ main_arg19 i) := by
  dsimp only [fn_part5] at h
  obtain ⟨h98, g12, g19⟩ := part6 _ _ _ _ _ _ _ _ h
  obtain ⟨h83, h87⟩ := andi_ones (andi_ones (andi_ones h98).1).1
  exact ⟨h83, all_real main_arg19 _ _ _ h87, g12, g19⟩

/-- Part 4 tests other arguments, and hands |argument 19| and the +∞ word on. -/
theorem part4 (main_arg12 : FVec Ideal S256 .f32) (main_arg16 : FVec Ideal S128 .f32) (main_arg17 : FVec Ideal S128 .f32) (main_arg18 : FVec Ideal S128 .f32) (main_arg19 : FVec Ideal S128 .f32) (main_arg20 : FVec Ideal S256x128 .f32) (main_arg21 : FVec Ideal S128 .f32) (main_arg22 : FVec Ideal S128x64 .f32) (main_arg23 : FVec Ideal S64 .f32) (main_arg24 : FVec Ideal S64x32 .f32) (main_arg25 : FVec Ideal S32 .f32) (main_v63 : IVec S_ 1) (main_v67 : IVec S_ 1)
    (h : fn_part4 (F := Ideal) main_arg12 main_arg16 main_arg17 main_arg18 main_arg19 main_arg20 main_arg21 main_arg22 main_arg23 main_arg24 main_arg25 main_v63 main_v67 = (fun _ => 1#1)) :
    main_v63 = (fun _ => 1#1) ∧ (∀ i, ∃ r : ℝ, main_arg19 i = (r : EReal)) ∧ (∀ i, 0 ≤ main_arg12 i) ∧ (∀ i, 0 ≤ main_arg19 i) := by
  dsimp only [fn_part4] at h
  obtain ⟨h83, r19, g12, g19⟩ := part5 _ _ _ _ _ _ _ _ _ h
  exact ⟨(andi_ones (andi_ones (andi_ones (andi_ones h83).1).1).1).1, r19, g12, g19⟩

/-- Part 3, handed |argument 12| and the splat of the +∞ word: its first test is "every entry of argument 12 is real". -/
theorem part3 (main_arg12 : FVec Ideal S256 .f32) (main_arg13 : FVec Ideal S256x128 .f32) (main_arg14 : FVec Ideal S256x128 .f32) (main_arg15 : FVec Ideal S128 .f32) (main_arg16 : FVec Ideal S128 .f32) (main_arg17 : FVec Ideal S128 .f32) (main_arg18 : FVec Ideal S128 .f32) (main_arg19 : FVec Ideal S128 .f32) (main_arg20 : FVec Ideal S256x128 .f32) (main_arg21 : FVec Ideal S128 .f32) (main_arg22 : FVec Ideal S128x64 .f32) (main_arg23 : FVec Ideal S64 .f32) (main_arg24 : FVec Ideal S64x32 .f32) (main_arg25 : FVec Ideal S32 .f32) (main_v48 : IVec S_ 1)
    (h : fn_part3 (F := Ideal) main_arg12 main_arg13 main_arg14 main_arg15 main_arg16 main_arg17 main_arg18 main_arg19 main_arg20 main_arg21 main_arg22 main_arg23 main_arg24 main_arg25 main_v48 (Host.absf main_arg12) (broadcastInDim S256 ![] Facts.bcast_S_S256 (constant (F := Ideal) S_ .f32 0x7F800000#32)) = (fun _ => 1#1)) :
    (∀ i, ∃ r : ℝ, main_arg12 i = (r : EReal)) ∧ (∀ i, ∃ r : ℝ, main_arg19 i = (r : EReal)) ∧ (∀ i, 0 ≤ main_arg12 i) ∧ (∀ i, 0 ≤ main_arg19 i) := by
  dsimp only [fn_part3] at h
  obtain ⟨h63, r19, g12, g19⟩ := part4 _ _ _ _ _ _ _ _ _ _ _ _ _ h
  obtain ⟨-, h52⟩ := andi_ones (andi_ones (andi_ones h63).1).1
  exact ⟨all_real main_arg12 _ _ _ h52, r19, g12, g19⟩

/-- Part 2 tests other arguments, and hands |argument 12| and the splat of the +∞ word on. -/
theorem part2 (main_arg9 : FVec Ideal S256 .f32) (main_arg10 : FVec Ideal S256 .f32) (main_arg11 : FVec Ideal S256 .f32) (main_arg12 : FVec Ideal S256 .f32) (main_arg13 : FVec Ideal S256x128 .f32) (main_arg14 : FVec Ideal S256x128 .f32) (main_arg15 : FVec Ideal S128 .f32) (main_arg16 : FVec Ideal S128 .f32) (main_arg17 : FVec Ideal S128 .f32) (main_arg18 : FVec Ideal S128 .f32) (main_arg19 : FVec Ideal S128 .f32) (main_arg20 : FVec Ideal S256x128 .f32) (main_arg21 : FVec Ideal S128 .f32) (main_arg22 : FVec Ideal S128x64 .f32) (main_arg23 : FVec Ideal S64 .f32) (main_arg24 : FVec Ideal S64x32 .f32) (main_arg25 : FVec Ideal S32 .f32) (main_v33 : IVec S_ 1)
    (h : fn_part2 (F := Ideal) main_arg9 main_arg10 main_arg11 main_arg12 main_arg13 main_arg14 main_arg15 main_arg16 main_arg17 main_arg18 main_arg19 main_arg20 main_arg21 main_arg22 main_arg23 main_arg24 main_arg25 main_v33 = (fun _ => 1#1)) :
    (∀ i, ∃ r : ℝ, main_arg12 i = (r : EReal)) ∧ (∀ i, ∃ r : ℝ, main_arg19 i = (r : EReal)) ∧ (∀ i, 0 ≤ main_arg12 i) ∧ (∀ i, 0 ≤ main_arg19 i) := by
  dsimp only [fn_part2] at h
  exact part3 _ _ _ _ _ _ _ _ _ _ _ _ _ _ _ h

/-- Part 1 tests other arguments only. -/
theorem part1 (main_arg6 : FVec Ideal S128x256 .f32) (main_arg7 : FVec Ideal S128x256 .f32) (main_arg8 : FVec Ideal S256 .f32) (main_arg9 : FVec Ideal S256 .f32) (main_arg10 : FVec Ideal S256 .f32) (main_arg11 : FVec Ideal S256 .f32) (main_arg12 : FVec Ideal S256 .f32) (main_arg13 : FVec Ideal S256x128 .f32) (main_arg14 : FVec Ideal S256x128 .f32) (main_arg15 : FVec Ideal S128 .f32) (main_arg16 : FVec Ideal S128 .f32) (main_arg17 : FVec Ideal S128 .f32) (main_arg18 : FVec Ideal S128 .f32) (main_arg19 : FVec Ideal S128 .f32) (main_arg20 : FVec Ideal S256x128 .f32) (main_arg21 : FVec Ideal S128 .f32) (main_arg22 : FVec Ideal S128x64 .f32) (main_arg23 : FVec Ideal S64 .f32) (main_arg24 : FVec Ideal S64x32 .f32) (main_arg25 : FVec Ideal S32 .f32) (main_v13 : IVec S_ 1) (main_v16 : IVec S128 1)
    (h : fn_part1 (F := Ideal) main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16 = (fun _ => 1#1)) :
    (∀ i, ∃ r : ℝ, main_arg12 i = (r : EReal)) ∧ (∀ i, ∃ r : ℝ, main_arg19 i = (r : EReal)) ∧ (∀ i, 0 ≤ main_arg12 i) ∧ (∀ i, 0 ≤ main_arg19 i) := by
  dsimp only [fn_part1] at h
  exact part2 _ _ _ _ _ _ _ _ _ _ _ _ _ _ _ _ _ _ h

/-- THE PRECONDITION DECODED, over any 26 argument arrays: where the printed function is 1, every entry of the two
    variance vectors is a nonnegative real number. -/
theorem fn_facts (main_arg0 : FVec Ideal S100000x128 .f32) (main_arg1 : FVec Ideal S100000x384 .f32) (main_arg2 : IVec S800000 32) (main_arg3 : IVec S800000 32) (main_arg4 : FVec Ideal S512x128 .f32) (main_arg5 : FVec Ideal S128 .f32) (main_arg6 : FVec Ideal S128x256 .f32) (main_arg7 : FVec Ideal S128x256 .f32) (main_arg8 : FVec Ideal S256 .f32) (main_arg9 : FVec Ideal S256 .f32) (main_arg10 : FVec Ideal S256 .f32) (main_arg11 : FVec Ideal S256 .f32) (main_arg12 : FVec Ideal S256 .f32) (main_arg13 : FVec Ideal S256x128 .f32) (main_arg14 : FVec Ideal S256x128 .f32) (main_arg15 : FVec Ideal S128 .f32) (main_arg16 : FVec Ideal S128 .f32) (main_arg17 : FVec Ideal S128 .f32) (main_arg18 : FVec Ideal S128 .f32) (main_arg19 : FVec Ideal S128 .f32) (main_arg20 : FVec Ideal S256x128 .f32) (main_arg21 : FVec Ideal S128 .f32) (main_arg22 : FVec Ideal S128x64 .f32) (main_arg23 : FVec Ideal S64 .f32) (main_arg24 : FVec Ideal S64x32 .f32) (main_arg25 : FVec Ideal S32 .f32)
    (h : fn (F := Ideal) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 = (fun _ => 1#1)) :
    (∀ i, ∃ r : ℝ, 0 ≤ r ∧ main_arg12 i = (r : EReal)) ∧ (∀ i, ∃ r : ℝ, 0 ≤ r ∧ main_arg19 i = (r : EReal)) := by
  dsimp only [fn] at h
  obtain ⟨r12, r19, g12, g19⟩ := part1 _ _ _ _ _ _ _ _ _ _ _ _ _ _ _ _ _ _ _ _ _ _ h
  exact ⟨fun i => real_nonneg (r12 i) (g12 i), fun i => real_nonneg (r19 i) (g19 i)⟩

end Cert.PreFacts

end
-- ==== Proof.PreFacts.lean ====
/-
  THE PRECONDITION AT THE KERNEL'S MEMORY: under the certificate's precondition on a launch memory, on every device,
  every entry of the two variance vectors (argument 12, 256 entries; argument 19, 128 entries) is a nonnegative real
  number. The printed precondition read back over any 26 arrays (`fn_facts`) is instantiated at the memory's argument
  buffers, and an entry is named by its coordinate.
-/
import proofs.«138145_j65584150610482_1_alg».proof.Defs
import proofs.«138145_j65584150610482_1_alg».proof.Proof.PreFactsParts

noncomputable section

namespace Cert.PreFacts

open Idealize.ShloMosaic Idealize.SL.Sem

theorem var_facts [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ j : Fin 256, ∃ r : ℝ, 0 ≤ r ∧
        ((m ((c.tc : Thread Cert.KernelIdeal.nD Cert.KernelIdeal.τ).loc Cert.KernelIdeal.main_arg12)) : Cert.KernelIdeal.S256.Idx → EReal) (Idealize.ShloMosaic.ValueIdx.ix1 j) = (r : EReal))
    ∧ (∀ j : Fin 128, ∃ r : ℝ, 0 ≤ r ∧
        ((m ((c.tc : Thread Cert.KernelIdeal.nD Cert.KernelIdeal.τ).loc Cert.KernelIdeal.main_arg19)) : Cert.KernelIdeal.S128.Idx → EReal) (Idealize.ShloMosaic.ValueIdx.ix1 j) = (r : EReal)) := by
  obtain ⟨h12, h19⟩ := fn_facts
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))
    (m ((c.tc : Thread Cert.KernelIdeal.nD Cert.KernelIdeal.τ).loc Cert.KernelIdeal.main_arg20))
    (m ((c.tc : Thread Cert.KernelIdeal.nD Cert.KernelIdeal.τ).loc Cert.KernelIdeal.main_arg21))
    (m ((c.tc : Thread Cert.KernelIdeal.nD Cert.KernelIdeal.τ).loc Cert.KernelIdeal.main_arg22))
    (m ((c.tc : Thread Cert.KernelIdeal.nD Cert.KernelIdeal.τ).loc Cert.KernelIdeal.main_arg23))
    (m ((c.tc : Thread Cert.KernelIdeal.nD Cert.KernelIdeal.τ).loc Cert.KernelIdeal.main_arg24))
    (m ((c.tc : Thread Cert.KernelIdeal.nD Cert.KernelIdeal.τ).loc Cert.KernelIdeal.main_arg25))
    (h c)
  exact ⟨fun j => h12 (Idealize.ShloMosaic.ValueIdx.ix1 j), fun j => h19 (Idealize.ShloMosaic.ValueIdx.ix1 j)⟩

end Cert.PreFacts

end
-- ==== Proof.KerValue.lean ====
/-
  THE KERNEL PROGRAM'S RESULT AS A FUNCTION OF ITS ARGUMENTS, at the ideal values.

  Region by region, each region's output array is its layer of the arrays the region is entered with; those are arguments as
  launched, arguments laid out as one row (read back as the vector they were), the previous regions' output arrays, and the
  neighbourhood means of those.  Composed:
    `h0 = enc a0 a1 a4 a5`,
    `h  = sage h0 (mean h0) a6 a7 a8 a11 (scale a9 a12) a10`,
    `out = head h0 (sage h (mean h) a13 a14 a15 a18 (scale a16 a19) a17) a20 … a25`,
  where the mean is stated as the reference writes it (a quotient; the kernel program's product with the reciprocal is the same
  array) and the scale as the reference writes it (`g / sqrt (v + ε)`; the kernel's `g · rsqrt (v + ε)` is the same vector when
  every variance is a nonnegative real, which is where the precondition is used).
-/
import proofs.«138145_j65584150610482_1_alg».proof.Proof.KerRun
import proofs.«138145_j65584150610482_1_alg».proof.Proof.KerFold
import proofs.«138145_j65584150610482_1_alg».proof.Proof.Region0
import proofs.«138145_j65584150610482_1_alg».proof.Proof.Region1
import proofs.«138145_j65584150610482_1_alg».proof.Proof.Region2
import proofs.«138145_j65584150610482_1_alg».proof.Proof.RegionF
import proofs.«138145_j65584150610482_1_alg».proof.Proof.AggBridge
import proofs.«138145_j65584150610482_1_alg».proof.Proof.Laws
import proofs.«138145_j65584150610482_1_alg».proof.Proof.RefStages
import proofs.«138145_j65584150610482_1_alg».proof.Proof.PreFacts

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KerValue

open Cert.KernelIdeal Cert.KernelIdeal.Gen Cert.KernelIdeal.KerFold Cert.DenseRow Cert.RowBias Cert.Net
open Cert.ReferenceIdeal.RefRun (sAgg0 sAgg1)

variable (m : (ℓ : Loc nD τ sig) → Buf (Elt Ideal) ℓ) (ρ : Dev nD → PrngReg) (c : Dev nD)

/-- The first region's array: the encoder of the arguments. -/
theorem h0_eq : (dat0 (V1 m ρ) c).arrAt 4 cfg0.N = enc (R := 100000) (m ((c.tc : Thread nD τ).loc main_arg0)) (m ((c.tc : Thread nD τ).loc main_arg1)) (m ((c.tc : Thread nD τ).loc main_arg4)) (m ((c.tc : Thread nD τ).loc main_arg5)) := by
  rw [Reg0.final (V1 m ρ) c]
  unfold Reg0.G
  rw [V1_w0 m ρ c, V1_w1 m ρ c, V1_w2 m ρ c, V1_w3 m ρ c, unrow_cast]

set_option maxHeartbeats 1600000 in
/-- The second region's array: the first neighbourhood layer. -/
theorem h_eq (hv : ∀ i, ∃ r : ℝ, 0 ≤ r ∧ ((m ((c.tc : Thread nD τ).loc main_arg12)) : A1 256) i = (r : EReal)) :
    (dat1 (V4 m ρ) c).arrAt 9 cfg1.N
      = sage (R := 100000) (K := 128) (N := 256) (enc (R := 100000) (m ((c.tc : Thread nD τ).loc main_arg0)) (m ((c.tc : Thread nD τ).loc main_arg1)) (m ((c.tc : Thread nD τ).loc main_arg4)) (m ((c.tc : Thread nD τ).loc main_arg5)))
          (sAgg0 (F := Ideal) (enc (R := 100000) (m ((c.tc : Thread nD τ).loc main_arg0)) (m ((c.tc : Thread nD τ).loc main_arg1)) (m ((c.tc : Thread nD τ).loc main_arg4)) (m ((c.tc : Thread nD τ).loc main_arg5))) (m ((c.tc : Thread nD τ).loc main_arg2)) (m ((c.tc : Thread nD τ).loc main_arg3)))
          (m ((c.tc : Thread nD τ).loc main_arg6)) (m ((c.tc : Thread nD τ).loc main_arg7)) (m ((c.tc : Thread nD τ).loc main_arg8)) (m ((c.tc : Thread nD τ).loc main_arg11)) (scaleR (m ((c.tc : Thread nD τ).loc main_arg9)) (m ((c.tc : Thread nD τ).loc main_arg12))) (m ((c.tc : Thread nD τ).loc main_arg10)) := by
  refine (RegF.final1 (V4 m ρ) c _ _ _ _ _ _ _ _ _ (V4_w0 m ρ c) (V4_w1 m ρ c) (V4_w2 m ρ c) (V4_w3 m ρ c) (V4_w4 m ρ c)
    (V4_w5 m ρ c) (V4_w6 m ρ c) (V4_w7 m ρ c) (V4_w8 m ρ c)).trans ?_
  rw [unrow_cast, unrow_cast, unrow_cast, unrow_cast, unrow_cast, h0_eq m ρ c, Cert.AggBridge.agg0, scaleK_eq_scaleR _ _ hv]

set_option maxHeartbeats 1600000 in
/-- The third region's array: the read-out over the second neighbourhood layer. -/
theorem out_eq (hv0 : ∀ i, ∃ r : ℝ, 0 ≤ r ∧ ((m ((c.tc : Thread nD τ).loc main_arg12)) : A1 256) i = (r : EReal))
    (hv1 : ∀ i, ∃ r : ℝ, 0 ≤ r ∧ ((m ((c.tc : Thread nD τ).loc main_arg19)) : A1 128) i = (r : EReal)) :
    (dat2 (V7 m ρ) c).arrAt 16 cfg2.N
      = head (R := 100000) (enc (R := 100000) (m ((c.tc : Thread nD τ).loc main_arg0)) (m ((c.tc : Thread nD τ).loc main_arg1)) (m ((c.tc : Thread nD τ).loc main_arg4)) (m ((c.tc : Thread nD τ).loc main_arg5)))
          (sage (R := 100000) (K := 256) (N := 128) (sage (R := 100000) (K := 128) (N := 256) (enc (R := 100000) (m ((c.tc : Thread nD τ).loc main_arg0)) (m ((c.tc : Thread nD τ).loc main_arg1)) (m ((c.tc : Thread nD τ).loc main_arg4)) (m ((c.tc : Thread nD τ).loc main_arg5)))
          (sAgg0 (F := Ideal) (enc (R := 100000) (m ((c.tc : Thread nD τ).loc main_arg0)) (m ((c.tc : Thread nD τ).loc main_arg1)) (m ((c.tc : Thread nD τ).loc main_arg4)) (m ((c.tc : Thread nD τ).loc main_arg5))) (m ((c.tc : Thread nD τ).loc main_arg2)) (m ((c.tc : Thread nD τ).loc main_arg3)))
          (m ((c.tc : Thread nD τ).loc main_arg6)) (m ((c.tc : Thread nD τ).loc main_arg7)) (m ((c.tc : Thread nD τ).loc main_arg8)) (m ((c.tc : Thread nD τ).loc main_arg11)) (scaleR (m ((c.tc : Thread nD τ).loc main_arg9)) (m ((c.tc : Thread nD τ).loc main_arg12))) (m ((c.tc : Thread nD τ).loc main_arg10)))
            (sAgg1 (F := Ideal) (sage (R := 100000) (K := 128) (N := 256) (enc (R := 100000) (m ((c.tc : Thread nD τ).loc main_arg0)) (m ((c.tc : Thread nD τ).loc main_arg1)) (m ((c.tc : Thread nD τ).loc main_arg4)) (m ((c.tc : Thread nD τ).loc main_arg5)))
          (sAgg0 (F := Ideal) (enc (R := 100000) (m ((c.tc : Thread nD τ).loc main_arg0)) (m ((c.tc : Thread nD τ).loc main_arg1)) (m ((c.tc : Thread nD τ).loc main_arg4)) (m ((c.tc : Thread nD τ).loc main_arg5))) (m ((c.tc : Thread nD τ).loc main_arg2)) (m ((c.tc : Thread nD τ).loc main_arg3)))
          (m ((c.tc : Thread nD τ).loc main_arg6)) (m ((c.tc : Thread nD τ).loc main_arg7)) (m ((c.tc : Thread nD τ).loc main_arg8)) (m ((c.tc : Thread nD τ).loc main_arg11)) (scaleR (m ((c.tc : Thread nD τ).loc main_arg9)) (m ((c.tc : Thread nD τ).loc main_arg12))) (m ((c.tc : Thread nD τ).loc main_arg10))) (m ((c.tc : Thread nD τ).loc main_arg2)) (m ((c.tc : Thread nD τ).loc main_arg3)))
            (m ((c.tc : Thread nD τ).loc main_arg13)) (m ((c.tc : Thread nD τ).loc main_arg14)) (m ((c.tc : Thread nD τ).loc main_arg15)) (m ((c.tc : Thread nD τ).loc main_arg18)) (scaleR (m ((c.tc : Thread nD τ).loc main_arg16)) (m ((c.tc : Thread nD τ).loc main_arg19))) (m ((c.tc : Thread nD τ).loc main_arg17)))
          (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  refine (RegF.final2 (V7 m ρ) c _ _ _ _ _ _ _ _ _ _ _ _ _ _ _ _ (V7_w0 m ρ c) (V7_w1 m ρ c) (V7_w2 m ρ c) (V7_w3 m ρ c)
    (V7_w4 m ρ c) (V7_w5 m ρ c) (V7_w6 m ρ c) (V7_w7 m ρ c) (V7_w8 m ρ c) (V7_w9 m ρ c) (V7_w10 m ρ c) (V7_w11 m ρ c)
    (V7_w12 m ρ c) (V7_w13 m ρ c) (V7_w14 m ρ c) (V7_w15 m ρ c)).trans ?_
  rw [unrow_cast, unrow_cast, unrow_cast, unrow_cast, unrow_cast, unrow_cast, unrow_cast, unrow_cast,
    h0_eq m ρ c, h_eq m ρ c hv0, Cert.AggBridge.agg1, scaleK_eq_scaleR _ _ hv1]

set_option maxHeartbeats 1600000 in
/-- THE KERNEL PROGRAM'S RESULT IS THE REFERENCE'S FUNCTION OF THE ARGUMENTS, under the precondition. -/
theorem value_eq [Cert.Pre_finite_inputs.Facts] (hpre : Cert.Pre_KernelIdeal m) :
    W8 m ρ c (Proc.devRef .tc main_v37)
      = Cert.ReferenceIdeal.RefRun.refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  obtain ⟨hv0, hv1⟩ := Cert.PreFacts.var_facts m hpre c
  have hv0' : ∀ i, ∃ r : ℝ, 0 ≤ r ∧ ((m ((c.tc : Thread nD τ).loc main_arg12)) : A1 256) i = (r : EReal) := fun i => by rw [eq_ix1 i]; exact hv0 (i 0)
  have hv1' : ∀ i, ∃ r : ℝ, 0 ≤ r ∧ ((m ((c.tc : Thread nD τ).loc main_arg19)) : A1 128) i = (r : EReal) := fun i => by rw [eq_ix1 i]; exact hv1 (i 0)
  rw [Cert.KernelIdeal.KerRun.W8_out m ρ c, out_eq m ρ c hv0' hv1']
  unfold Cert.ReferenceIdeal.RefRun.refOut
  dsimp only
  rw [Cert.ReferenceIdeal.RefStages.sH0_eq, Cert.ReferenceIdeal.RefStages.sH_eq, Cert.ReferenceIdeal.RefStages.sH1_eq,
    Cert.ReferenceIdeal.RefStages.sOut_eq]

end Cert.KernelIdeal.KerValue

end
-- ==== Proof.RefRunOps.lean ====
/- The reference program's @main as a list of its 151 host operations, in order, cut by position into six
   consecutive stretches; a called function's operations stand in the place of its call, over the buffers the
   call's record names. With each stretch: that its operations touch TensorCore references only, and that none
   allocates. -/
import proofs.«138145_j65584150610482_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.SL.Sem

variable {F : FTy → Type} [FloatOps F]

/-- Operations 1 … 9 of 151: the first layer (through its clamp) and the second layer's self term. -/
abbrev ops1 : List (HloOp τ sig (Elt F)) :=
  [ StableHlo.binary main_arg0 main_arg1 main_v0 ((fun a b => concatenate S100000x512 1 [⟨S100000x128, a⟩, ⟨S100000x384, b⟩] concatenates_S100000x128_S100000x384_S100000x512_d1) : (⟨S100000x128, .f32⟩ : BufTy).Contents (Elt F) → (⟨S100000x384, .f32⟩ : BufTy).Contents (Elt F) → (⟨S100000x512, .f32⟩ : BufTy).Contents (Elt F)),
    StableHlo.binary main_v0 main_arg4 main_v1 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    StableHlo.unary main_arg5 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S100000x128 ![0, 1] bcast_S1x128_S100000x128_0_1 : (⟨S1x128, .f32⟩ : BufTy).Contents (Elt F) → (⟨S100000x128, .f32⟩ : BufTy).Contents (Elt F)),
    StableHlo.binary main_v1 main_v3 main_v4 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v4 : StableHlo.TRef sig ⟨S100000x128, .f32⟩) main_call0.v0 main_call0.v1 maximumf,
    StableHlo.binary main_v5 main_arg6 main_v6 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)) ]

theorem ops1_sub : (ops1 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub ..⟩

theorem ops1_fresh : ∀ op ∈ (ops1 : List (HloOp τ sig (Elt F))), op.fresh = ∅ := by
  intro _ h; (repeat (cases h with | head => rfl | tail _ h => ?_)); exact nomatch h

/-- Operations 10 … 48 of 151: the first gather of rows by edge source, the sum into edge targets, the edge count per target and the division. -/
abbrev ops2 : List (HloOp τ sig (Elt F)) :=
  [ StableHlo.TRef.nullary main_call1.c (constantI S_ 32 0#32),
    StableHlo.TRef.unary main_call1.c main_call1.v0 (broadcastInDim S800000 ![] bcast_S_S800000),
    StableHlo.TRef.binary (.of main_arg2 : StableHlo.TRef sig ⟨S800000, .i32⟩) main_call1.v0 main_call1.v1 (cmpi .slt),
    StableHlo.TRef.nullary main_call1.c_0 (constantI S_ 32 100000#32),
    StableHlo.TRef.unary main_call1.c_0 main_call1.v2 (broadcastInDim S800000 ![] bcast_S_S800000),
    StableHlo.TRef.binary (.of main_arg2 : StableHlo.TRef sig ⟨S800000, .i32⟩) main_call1.v2 main_call1.v3 addi,
    StableHlo.TRef.ternary main_call1.v1 main_call1.v3 (.of main_arg2 : StableHlo.TRef sig ⟨S800000, .i32⟩) main_call1.call0.v0 select,
    StableHlo.TRef.unary main_call1.call0.v0 main_call1.v5 (broadcastInDim S800000x1 ![0] bcast_S800000_S800000x1_0),
    StableHlo.TRef.nullary main_call1.c_1 (constantI S1 32 99999#32),
    StableHlo.TRef.nullary main_call1.c_2 (constantI S_ 32 0#32),
    StableHlo.TRef.unary main_call1.c_2 main_call1.v6 (broadcastInDim S800000x1 ![] bcast_S_S800000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S800000x1 ![0, 1] bcast_S1x1_S800000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S800000x1_S800000_d1 h_S_),
    StableHlo.TRef.binary (.of main_v5 : StableHlo.TRef sig ⟨S100000x128, .f32⟩) main_call1.v5 main_call1.v13 (fun x i => Host.gather gather_S100000x128_S800000x1_S800000x128_1_0_n_n_0_1_1128 x i),
    StableHlo.TRef.unary main_call1.v12 main_call1.v14 (broadcastInDim S800000x128 ![0] bcast_S800000_S800000x128_0),
    StableHlo.TRef.nullary main_call1.cst (constant S_ .f32 0x7FC00000#32),
    StableHlo.TRef.unary main_call1.cst main_call1.v15 (broadcastInDim S800000x128 ![] bcast_S_S800000x128),
    StableHlo.TRef.ternary main_call1.v14 main_call1.v13 main_call1.v15 main_call1.v16 select,
    StableHlo.nullary main_cst (constant S_ .f32 0x00000000#32),
    StableHlo.unary main_cst main_v8 (broadcastInDim S100000x128 ![] bcast_S_S100000x128 : (⟨S_, .f32⟩ : BufTy).Contents (Elt F) → (⟨S100000x128, .f32⟩ : BufTy).Contents (Elt F)),
    StableHlo.unary main_arg3 main_v9 (broadcastInDim S800000x1 ![0] bcast_S800000_S800000x1_0 : (⟨S800000, .i32⟩ : BufTy).Contents (Elt F) → (⟨S800000x1, .i32⟩ : BufTy).Contents (Elt F)),
    StableHlo.ternary main_v8 main_v9 main_v7 main_v10 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.nullary main_cst_0 (constant S_ .f32 0x3F800000#32),
    StableHlo.unary main_cst_0 main_v11 (broadcastInDim S800000 ![] bcast_S_S800000 : (⟨S_, .f32⟩ : BufTy).Contents (Elt F) → (⟨S800000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.unary main_arg3 main_v13 (broadcastInDim S800000x1 ![0] bcast_S800000_S800000x1_0 : (⟨S800000, .i32⟩ : BufTy).Contents (Elt F) → (⟨S800000x1, .i32⟩ : BufTy).Contents (Elt F)),
    StableHlo.ternary main_v12 main_v13 main_v11 main_v14 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_2 (constant S_ .f32 0x3F800000#32),
    StableHlo.unary main_cst_2 main_v15 (broadcastInDim S100000 ![] bcast_S_S100000 : (⟨S_, .f32⟩ : BufTy).Contents (Elt F) → (⟨S100000, .f32⟩ : BufTy).Contents (Elt F)),
    StableHlo.binary main_v14 main_v15 main_v16 (maximumf : (⟨S100000, .f32⟩ : BufTy).Contents (Elt F) → (⟨S100000, .f32⟩ : BufTy).Contents (Elt F) → (⟨S100000, .f32⟩ : BufTy).Contents (Elt F)),
    StableHlo.unary main_v16 main_v17 (broadcastInDim S100000x1 ![0] bcast_S100000_S100000x1_0 : (⟨S100000, .f32⟩ : BufTy).Contents (Elt F) → (⟨S100000x1, .f32⟩ : BufTy).Contents (Elt F)),
    StableHlo.unary main_v17 main_v18 (broadcastInDim S100000x128 ![0, 1] bcast_S100000x1_S100000x128_0_1 : (⟨S100000x1, .f32⟩ : BufTy).Contents (Elt F) → (⟨S100000x128, .f32⟩ : BufTy).Contents (Elt F)),
    StableHlo.binary main_v10 main_v18 main_v19 (Host.divf : (⟨S100000x128, .f32⟩ : BufTy).Contents (Elt F) → (⟨S100000x128, .f32⟩ : BufTy).Contents (Elt F) → (⟨S100000x128, .f32⟩ : BufTy).Contents (Elt F)) ]

theorem ops2_sub : (ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub ..⟩

theorem ops2_fresh : ∀ op ∈ (ops2 : List (HloOp τ sig (Elt F))), op.fresh = ∅ := by
  intro _ h; (repeat (cases h with | head => rfl | tail _ h => ?_)); exact nomatch h

/-- Operations 49 … 71 of 151: the rest of the second layer through its clamp, and the third layer's self term. -/
abbrev ops3 : List (HloOp τ sig (Elt F)) :=
  [ StableHlo.binary main_v19 main_arg7 main_v20 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v6 main_v20 main_v21 (addf : (⟨S100000x256, .f32⟩ : BufTy).Contents (Elt F) → (⟨S100000x256, .f32⟩ : BufTy).Contents (Elt F) → (⟨S100000x256, .f32⟩ : BufTy).Contents (Elt F)),
    StableHlo.unary main_arg8 main_v22 (broadcastInDim S1x256 ![1] bcast_S256_S1x256_1 : (⟨S256, .f32⟩ : BufTy).Contents (Elt F) → (⟨S1x256, .f32⟩ : BufTy).Contents (Elt F)),
    StableHlo.unary main_v22 main_v23 (broadcastInDim S100000x256 ![0, 1] bcast_S1x256_S100000x256_0_1 : (⟨S1x256, .f32⟩ : BufTy).Contents (Elt F) → (⟨S100000x256, .f32⟩ : BufTy).Contents (Elt F)),
    StableHlo.binary main_v21 main_v23 main_v24 (addf : (⟨S100000x256, .f32⟩ : BufTy).Contents (Elt F) → (⟨S100000x256, .f32⟩ : BufTy).Contents (Elt F) → (⟨S100000x256, .f32⟩ : BufTy).Contents (Elt F)),
    StableHlo.unary main_arg11 main_v25 (broadcastInDim S1x256 ![1] bcast_S256_S1x256_1 : (⟨S256, .f32⟩ : BufTy).Contents (Elt F) → (⟨S1x256, .f32⟩ : BufTy).Contents (Elt F)),
    StableHlo.unary main_v25 main_v26 (broadcastInDim S100000x256 ![0, 1] bcast_S1x256_S100000x256_0_1 : (⟨S1x256, .f32⟩ : BufTy).Contents (Elt F) → (⟨S100000x256, .f32⟩ : BufTy).Contents (Elt F)),
    StableHlo.binary main_v24 main_v26 main_v27 (subf : (⟨S100000x256, .f32⟩ : BufTy).Contents (Elt F) → (⟨S100000x256, .f32⟩ : BufTy).Contents (Elt F) → (⟨S100000x256, .f32⟩ : BufTy).Contents (Elt F)),
    StableHlo.nullary main_cst_3 (constant S_ .f32 0x3727C5AC#32),
    StableHlo.unary main_cst_3 main_v28 (broadcastInDim S256 ![] bcast_S_S256 : (⟨S_, .f32⟩ : BufTy).Contents (Elt F) → (⟨S256, .f32⟩ : BufTy).Contents (Elt F)),
    StableHlo.binary main_arg12 main_v28 main_v29 (addf : (⟨S256, .f32⟩ : BufTy).Contents (Elt F) → (⟨S256, .f32⟩ : BufTy).Contents (Elt F) → (⟨S256, .f32⟩ : BufTy).Contents (Elt F)),
    StableHlo.unary main_v29 main_v30 (Host.sqrt : (⟨S256, .f32⟩ : BufTy).Contents (Elt F) → (⟨S256, .f32⟩ : BufTy).Contents (Elt F)),
    StableHlo.binary main_arg9 main_v30 main_v31 (Host.divf : (⟨S256, .f32⟩ : BufTy).Contents (Elt F) → (⟨S256, .f32⟩ : BufTy).Contents (Elt F) → (⟨S256, .f32⟩ : BufTy).Contents (Elt F)),
    StableHlo.unary main_v31 main_v32 (broadcastInDim S1x256 ![1] bcast_S256_S1x256_1 : (⟨S256, .f32⟩ : BufTy).Contents (Elt F) → (⟨S1x256, .f32⟩ : BufTy).Contents (Elt F)),
    StableHlo.unary main_v32 main_v33 (broadcastInDim S100000x256 ![0, 1] bcast_S1x256_S100000x256_0_1 : (⟨S1x256, .f32⟩ : BufTy).Contents (Elt F) → (⟨S100000x256, .f32⟩ : BufTy).Contents (Elt F)),
    StableHlo.binary main_v27 main_v33 main_v34 (mulf : (⟨S100000x256, .f32⟩ : BufTy).Contents (Elt F) → (⟨S100000x256, .f32⟩ : BufTy).Contents (Elt F) → (⟨S100000x256, .f32⟩ : BufTy).Contents (Elt F)),
    StableHlo.unary main_arg10 main_v35 (broadcastInDim S1x256 ![1] bcast_S256_S1x256_1 : (⟨S256, .f32⟩ : BufTy).Contents (Elt F) → (⟨S1x256, .f32⟩ : BufTy).Contents (Elt F)),
    StableHlo.unary main_v35 main_v36 (broadcastInDim S100000x256 ![0, 1] bcast_S1x256_S100000x256_0_1 : (⟨S1x256, .f32⟩ : BufTy).Contents (Elt F) → (⟨S100000x256, .f32⟩ : BufTy).Contents (Elt F)),
    StableHlo.binary main_v34 main_v36 main_v37 (addf : (⟨S100000x256, .f32⟩ : BufTy).Contents (Elt F) → (⟨S100000x256, .f32⟩ : BufTy).Contents (Elt F) → (⟨S100000x256, .f32⟩ : BufTy).Contents (Elt F)),
    StableHlo.TRef.nullary main_call2.cst (constant S_ .f32 0x00000000#32),
    StableHlo.TRef.unary main_call2.cst main_call2.v0 (broadcastInDim S100000x256 ![] bcast_S_S100000x256),
    StableHlo.TRef.binary (.of main_v37 : StableHlo.TRef sig ⟨S100000x256, .f32⟩) main_call2.v0 main_call2.v1 maximumf,
    StableHlo.binary main_v38 main_arg13 main_v39 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ]

theorem ops3_sub : (ops3 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub ..⟩

theorem ops3_fresh : ∀ op ∈ (ops3 : List (HloOp τ sig (Elt F))), op.fresh = ∅ := by
  intro _ h; (repeat (cases h with | head => rfl | tail _ h => ?_)); exact nomatch h

/-- Operations 72 … 110 of 151: the second gather, sum, count and division. -/
abbrev ops4 : List (HloOp τ sig (Elt F)) :=
  [ StableHlo.TRef.nullary main_call3.c (constantI S_ 32 0#32),
    StableHlo.TRef.unary main_call3.c main_call3.v0 (broadcastInDim S800000 ![] bcast_S_S800000),
    StableHlo.TRef.binary (.of main_arg2 : StableHlo.TRef sig ⟨S800000, .i32⟩) main_call3.v0 main_call3.v1 (cmpi .slt),
    StableHlo.TRef.nullary main_call3.c_0 (constantI S_ 32 100000#32),
    StableHlo.TRef.unary main_call3.c_0 main_call3.v2 (broadcastInDim S800000 ![] bcast_S_S800000),
    StableHlo.TRef.binary (.of main_arg2 : StableHlo.TRef sig ⟨S800000, .i32⟩) main_call3.v2 main_call3.v3 addi,
    StableHlo.TRef.ternary main_call3.v1 main_call3.v3 (.of main_arg2 : StableHlo.TRef sig ⟨S800000, .i32⟩) main_call3.call0.v0 select,
    StableHlo.TRef.unary main_call3.call0.v0 main_call3.v5 (broadcastInDim S800000x1 ![0] bcast_S800000_S800000x1_0),
    StableHlo.TRef.nullary main_call3.c_1 (constantI S1 32 99999#32),
    StableHlo.TRef.nullary main_call3.c_2 (constantI S_ 32 0#32),
    StableHlo.TRef.unary main_call3.c_2 main_call3.v6 (broadcastInDim S800000x1 ![] bcast_S_S800000x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S800000x1 ![0, 1] bcast_S1x1_S800000x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S800000x1_S800000_d1 h_S_),
    StableHlo.TRef.binary (.of main_v38 : StableHlo.TRef sig ⟨S100000x256, .f32⟩) main_call3.v5 main_call3.v13 (fun x i => Host.gather gather_S100000x256_S800000x1_S800000x256_1_0_n_n_0_1_1256 x i),
    StableHlo.TRef.unary main_call3.v12 main_call3.v14 (broadcastInDim S800000x256 ![0] bcast_S800000_S800000x256_0),
    StableHlo.TRef.nullary main_call3.cst (constant S_ .f32 0x7FC00000#32),
    StableHlo.TRef.unary main_call3.cst main_call3.v15 (broadcastInDim S800000x256 ![] bcast_S_S800000x256),
    StableHlo.TRef.ternary main_call3.v14 main_call3.v13 main_call3.v15 main_call3.v16 select,
    StableHlo.nullary main_cst_4 (constant S_ .f32 0x00000000#32),
    StableHlo.unary main_cst_4 main_v41 (broadcastInDim S100000x256 ![] bcast_S_S100000x256 : (⟨S_, .f32⟩ : BufTy).Contents (Elt F) → (⟨S100000x256, .f32⟩ : BufTy).Contents (Elt F)),
    StableHlo.unary main_arg3 main_v42 (broadcastInDim S800000x1 ![0] bcast_S800000_S800000x1_0 : (⟨S800000, .i32⟩ : BufTy).Contents (Elt F) → (⟨S800000x1, .i32⟩ : BufTy).Contents (Elt F)),
    StableHlo.ternary main_v41 main_v42 main_v40 main_v43 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)),
    StableHlo.nullary main_cst_5 (constant S_ .f32 0x3F800000#32),
    StableHlo.unary main_cst_5 main_v44 (broadcastInDim S800000 ![] bcast_S_S800000 : (⟨S_, .f32⟩ : BufTy).Contents (Elt F) → (⟨S800000, .f32⟩ : BufTy).Contents (Elt F)),
    StableHlo.nullary main_cst_6 (constant S_ .f32 0x00000000#32),
    StableHlo.unary main_cst_6 main_v45 (broadcastInDim S100000 ![] bcast_S_S100000 : (⟨S_, .f32⟩ : BufTy).Contents (Elt F) → (⟨S100000, .f32⟩ : BufTy).Contents (Elt F)),
    StableHlo.unary main_arg3 main_v46 (broadcastInDim S800000x1 ![0] bcast_S800000_S800000x1_0 : (⟨S800000, .i32⟩ : BufTy).Contents (Elt F) → (⟨S800000x1, .i32⟩ : BufTy).Contents (Elt F)),
    StableHlo.ternary main_v45 main_v46 main_v44 main_v47 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_7 (constant S_ .f32 0x3F800000#32),
    StableHlo.unary main_cst_7 main_v48 (broadcastInDim S100000 ![] bcast_S_S100000 : (⟨S_, .f32⟩ : BufTy).Contents (Elt F) → (⟨S100000, .f32⟩ : BufTy).Contents (Elt F)),
    StableHlo.binary main_v47 main_v48 main_v49 (maximumf : (⟨S100000, .f32⟩ : BufTy).Contents (Elt F) → (⟨S100000, .f32⟩ : BufTy).Contents (Elt F) → (⟨S100000, .f32⟩ : BufTy).Contents (Elt F)),
    StableHlo.unary main_v49 main_v50 (broadcastInDim S100000x1 ![0] bcast_S100000_S100000x1_0 : (⟨S100000, .f32⟩ : BufTy).Contents (Elt F) → (⟨S100000x1, .f32⟩ : BufTy).Contents (Elt F)),
    StableHlo.unary main_v50 main_v51 (broadcastInDim S100000x256 ![0, 1] bcast_S100000x1_S100000x256_0_1 : (⟨S100000x1, .f32⟩ : BufTy).Contents (Elt F) → (⟨S100000x256, .f32⟩ : BufTy).Contents (Elt F)),
    StableHlo.binary main_v43 main_v51 main_v52 (Host.divf : (⟨S100000x256, .f32⟩ : BufTy).Contents (Elt F) → (⟨S100000x256, .f32⟩ : BufTy).Contents (Elt F) → (⟨S100000x256, .f32⟩ : BufTy).Contents (Elt F)) ]

theorem ops4_sub : (ops4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub ..⟩

theorem ops4_fresh : ∀ op ∈ (ops4 : List (HloOp τ sig (Elt F))), op.fresh = ∅ := by
  intro _ h; (repeat (cases h with | head => rfl | tail _ h => ?_)); exact nomatch h

/-- Operations 111 … 132 of 151: the rest of the third layer through its clamp. -/
abbrev ops5 : List (HloOp τ sig (Elt F)) :=
  [ StableHlo.binary main_v52 main_arg14 main_v53 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.binary main_v39 main_v53 main_v54 (addf : (⟨S100000x128, .f32⟩ : BufTy).Contents (Elt F) → (⟨S100000x128, .f32⟩ : BufTy).Contents (Elt F) → (⟨S100000x128, .f32⟩ : BufTy).Contents (Elt F)),
    StableHlo.unary main_arg15 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v56 main_v57 (addf : (⟨S100000x128, .f32⟩ : BufTy).Contents (Elt F) → (⟨S100000x128, .f32⟩ : BufTy).Contents (Elt F) → (⟨S100000x128, .f32⟩ : BufTy).Contents (Elt F)),
    StableHlo.unary main_arg18 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v59 main_v60 (subf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3727C5AC#32),
    StableHlo.unary main_cst_8 main_v61 (broadcastInDim S128 ![] bcast_S_S128 : (⟨S_, .f32⟩ : BufTy).Contents (Elt F) → (⟨S128, .f32⟩ : BufTy).Contents (Elt F)),
    StableHlo.binary main_arg19 main_v61 main_v62 (addf : (⟨S128, .f32⟩ : BufTy).Contents (Elt F) → (⟨S128, .f32⟩ : BufTy).Contents (Elt F) → (⟨S128, .f32⟩ : BufTy).Contents (Elt F)),
    StableHlo.unary main_v62 main_v63 (Host.sqrt : (⟨S128, .f32⟩ : BufTy).Contents (Elt F) → (⟨S128, .f32⟩ : BufTy).Contents (Elt F)),
    StableHlo.binary main_arg16 main_v63 main_v64 (Host.divf : (⟨S128, .f32⟩ : BufTy).Contents (Elt F) → (⟨S128, .f32⟩ : BufTy).Contents (Elt F) → (⟨S128, .f32⟩ : BufTy).Contents (Elt F)),
    StableHlo.unary main_v64 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v66 main_v67 (mulf : (⟨S100000x128, .f32⟩ : BufTy).Contents (Elt F) → (⟨S100000x128, .f32⟩ : BufTy).Contents (Elt F) → (⟨S100000x128, .f32⟩ : BufTy).Contents (Elt F)),
    StableHlo.unary main_arg17 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S100000x128 ![0, 1] bcast_S1x128_S100000x128_0_1 : (⟨S1x128, .f32⟩ : BufTy).Contents (Elt F) → (⟨S100000x128, .f32⟩ : BufTy).Contents (Elt F)),
    StableHlo.binary main_v67 main_v69 main_v70 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v70 : StableHlo.TRef sig ⟨S100000x128, .f32⟩) main_call4.v0 main_call4.v1 maximumf ]

theorem ops5_sub : (ops5 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

theorem ops5_fresh : ∀ op ∈ (ops5 : List (HloOp τ sig (Elt F))), op.fresh = ∅ := by
  intro _ h; (repeat (cases h with | head => rfl | tail _ h => ?_)); exact nomatch h

/-- Operations 133 … 151 of 151: the head: three dense layers, the first two clamped. -/
abbrev ops6 : List (HloOp τ sig (Elt F)) :=
  [ StableHlo.binary main_v5 main_v71 main_v72 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.binary main_v72 main_arg20 main_v73 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg21 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S100000x128 ![0, 1] bcast_S1x128_S100000x128_0_1 : (⟨S1x128, .f32⟩ : BufTy).Contents (Elt F) → (⟨S100000x128, .f32⟩ : BufTy).Contents (Elt F)),
    StableHlo.binary main_v73 main_v75 main_v76 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v76 : StableHlo.TRef sig ⟨S100000x128, .f32⟩) main_call5.v0 main_call5.v1 maximumf,
    StableHlo.binary main_v77 main_arg22 main_v78 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg23 main_v79 (broadcastInDim S1x64 ![1] bcast_S64_S1x64_1 : (⟨S64, .f32⟩ : BufTy).Contents (Elt F) → (⟨S1x64, .f32⟩ : BufTy).Contents (Elt F)),
    StableHlo.unary main_v79 main_v80 (broadcastInDim S100000x64 ![0, 1] bcast_S1x64_S100000x64_0_1 : (⟨S1x64, .f32⟩ : BufTy).Contents (Elt F) → (⟨S100000x64, .f32⟩ : BufTy).Contents (Elt F)),
    StableHlo.binary main_v78 main_v80 main_v81 (addf : (⟨S100000x64, .f32⟩ : BufTy).Contents (Elt F) → (⟨S100000x64, .f32⟩ : BufTy).Contents (Elt F) → (⟨S100000x64, .f32⟩ : BufTy).Contents (Elt F)),
    StableHlo.TRef.nullary main_call6.cst (constant S_ .f32 0x00000000#32),
    StableHlo.TRef.unary main_call6.cst main_call6.v0 (broadcastInDim S100000x64 ![] bcast_S_S100000x64),
    StableHlo.TRef.binary (.of main_v81 : StableHlo.TRef sig ⟨S100000x64, .f32⟩) main_call6.v0 main_call6.v1 maximumf,
    StableHlo.binary main_v82 main_arg24 main_v83 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg25 main_v84 (broadcastInDim S1x32 ![1] bcast_S32_S1x32_1 : (⟨S32, .f32⟩ : BufTy).Contents (Elt F) → (⟨S1x32, .f32⟩ : BufTy).Contents (Elt F)),
    StableHlo.unary main_v84 main_v85 (broadcastInDim S100000x32 ![0, 1] bcast_S1x32_S100000x32_0_1 : (⟨S1x32, .f32⟩ : BufTy).Contents (Elt F) → (⟨S100000x32, .f32⟩ : BufTy).Contents (Elt F)),
    StableHlo.binary main_v83 main_v85 main_v86 (addf : (⟨S100000x32, .f32⟩ : BufTy).Contents (Elt F) → (⟨S100000x32, .f32⟩ : BufTy).Contents (Elt F) → (⟨S100000x32, .f32⟩ : BufTy).Contents (Elt F)) ]

theorem ops6_sub : (ops6 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

theorem ops6_fresh : ∀ op ∈ (ops6 : List (HloOp τ sig (Elt F))), op.fresh = ∅ := by
  intro _ h; (repeat (cases h with | head => rfl | tail _ h => ?_)); exact nomatch h

end Cert.ReferenceIdeal.RefRun

end
-- ==== Proof.RefRunMain.lean ====
/- The reference's @main is the straight line of its 151 operations (the called functions' definitions unfolded
   at their calls), so every weakly fair execution of it terminates with each buffer at the operations' fold over
   the launch contents. -/
import proofs.«138145_j65584150610482_1_alg».proof.Proof.RefRunOps

noncomputable section

namespace Cert.ReferenceIdeal.RefRun

open Cert.ReferenceIdeal Cert.ReferenceIdeal.Gen Idealize.ShloMosaic Idealize.SL.Sem Idealize.ShloMosaic.StableHlo

variable {F : FTy → Type} [FloatOps F]

/-- @main's 151 operations, in order: the six stretches one after the other. -/
abbrev ops : List (HloOp τ sig (Elt F)) := ops1 ++ (ops2 ++ (ops3 ++ (ops4 ++ (ops5 ++ ops6))))

/-- @main is that straight line: its two windows and the functions it calls unfolded, both sides are one chain
    of operation steps once sequencing is reassociated. -/
theorem main_eq (c : Dev nD) : main (F := F) c = seq ops := by
  simp only [main, main_part0, main_part1, fn_relu.body, fn_take.body, fn_where.body, fn_relu_0.body, fn_take_1.body,
    fn_relu_2.body, ops, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops1_sub op h, List.forall_iff_forall_mem.mp ops2_sub op h,
      List.forall_iff_forall_mem.mp ops3_sub op h, List.forall_iff_forall_mem.mp ops4_sub op h,
      List.forall_iff_forall_mem.mp ops5_sub op h, List.forall_iff_forall_mem.mp ops6_sub op h]

theorem ops_fresh : ∀ op ∈ (ops : List (HloOp τ sig (Elt F))), op.fresh = ∅ := fun op h => by
  simp only [ops, List.mem_append] at h
  rcases h with h | h | h | h | h | h
  exacts [ops1_fresh op h, ops2_fresh op h, ops3_fresh op h, ops4_fresh op h, ops5_fresh op h, ops6_fresh op h]

/-- On every device, for any float values, from any memory with zero counters: every weakly fair execution of
    @main terminates with every buffer at the operations' fold over the launch contents. -/
theorem run_fold (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefRunC1.lean ====
/- Stretch 1 of the reference's run (operations 1 … 9: the first layer (through its clamp) and the second layer's self term): the buffers it writes, that every
   other buffer keeps its contents through it, and what it leaves at the buffers later stretches read, as the
   stage functions of the values it starts from. -/
import proofs.«138145_j65584150610482_1_alg».proof.Proof.RefRunDefs
import proofs.«138145_j65584150610482_1_alg».proof.Proof.RefRunOps

noncomputable section

namespace Cert.ReferenceIdeal.RefRun

open Cert.ReferenceIdeal Cert.ReferenceIdeal.Gen Idealize.ShloMosaic Idealize.SL.Sem Idealize.ShloMosaic.StableHlo

variable {F : FTy → Type} [FloatOps F]

/-- One operation's written set is its result buffer, which is in the list. -/
local macro "written_in_list" : tactic =>
  `(tactic| (simp only [nullary_writes, unary_writes, binary_writes, ternary_writes, Finset.singleton_subset_iff, List.mem_toFinset]
             exact List.mem_map_of_mem (by decide)))

/-- The buffers stretch 1's operations write, in order. -/
abbrev ops1_W : List (Ref sig .tc) := [main_v0, main_v1, main_v2, main_v3, main_v4, main_call0_cst, main_call0_v0, main_v5, main_v6]

theorem ops1_writes : (ops1 : List (HloOp τ sig (Elt F))).Forall fun op =>
    op.writes ⊆ (ops1_W.map (Proc.devRef (τ := τ) .tc)).toFinset := by
  simp only [List.Forall]
  exact ⟨by written_in_list,
    by written_in_list,
    by written_in_list,
    by written_in_list,
    by written_in_list,
    by written_in_list,
    by written_in_list,
    by written_in_list,
    by written_in_list⟩

/-- A buffer stretch 1 does not write keeps its contents through it. -/
theorem keep1 (V : Valuation τ sig (Elt F)) (r : Ref sig .tc) (h : r ∉ ops1_W) :
    after ops1 V (Proc.devRef .tc r) = V (Proc.devRef .tc r) :=
  after_of_writes_sub ops1 V ops1_writes h

/-- What stretch 1 leaves at `main_v5`, from any contents `V` whose inputs are named. -/
theorem read1_main_v5 (V : Valuation τ sig (Elt F))
    (a0 : (⟨S100000x128, .f32⟩ : BufTy).Contents (Elt F)) (a1 : (⟨S100000x384, .f32⟩ : BufTy).Contents (Elt F)) (a4 : (⟨S512x128, .f32⟩ : BufTy).Contents (Elt F)) (a5 : (⟨S128, .f32⟩ : BufTy).Contents (Elt F))
    (e_a0 : V (Proc.devRef .tc main_arg0) = a0)
    (e_a1 : V (Proc.devRef .tc main_arg1) = a1)
    (e_a4 : V (Proc.devRef .tc main_arg4) = a4)
    (e_a5 : V (Proc.devRef .tc main_arg5) = a5) :
    after ops1 V (Proc.devRef .tc main_v5) = sH0 a0 a1 a4 a5 := by
  subst e_a0 e_a1 e_a4 e_a5
  after_results_simp
  rfl

/-- What stretch 1 leaves at `main_v6`, from any contents `V` whose inputs are named. -/
theorem read1_main_v6 (V : Valuation τ sig (Elt F))
    (a0 : (⟨S100000x128, .f32⟩ : BufTy).Contents (Elt F)) (a1 : (⟨S100000x384, .f32⟩ : BufTy).Contents (Elt F)) (a4 : (⟨S512x128, .f32⟩ : BufTy).Contents (Elt F)) (a5 : (⟨S128, .f32⟩ : BufTy).Contents (Elt F)) (a6 : (⟨S128x256, .f32⟩ : BufTy).Contents (Elt F))
    (e_a0 : V (Proc.devRef .tc main_arg0) = a0)
    (e_a1 : V (Proc.devRef .tc main_arg1) = a1)
    (e_a4 : V (Proc.devRef .tc main_arg4) = a4)
    (e_a5 : V (Proc.devRef .tc main_arg5) = a5)
    (e_a6 : V (Proc.devRef .tc main_arg6) = a6) :
    after ops1 V (Proc.devRef .tc main_v6) = Host.dotGeneral dot_S100000x128_S128x256_S100000x256_1_0_0_1_n_n none (sH0 a0 a1 a4 a5) a6 := by
  subst e_a0 e_a1 e_a4 e_a5 e_a6
  after_results_simp
  rfl

end Cert.ReferenceIdeal.RefRun

end
-- ==== Proof.RefRunC2.lean ====
/- Stretch 2 of the reference's run (operations 10 … 48: the first gather of rows by edge source, the sum into edge targets, the edge count per target and the division): the buffers it writes, that every
   other buffer keeps its contents through it, and what it leaves at the buffers later stretches read, as the
   stage functions of the values it starts from. -/
import proofs.«138145_j65584150610482_1_alg».proof.Proof.RefRunDefs
import proofs.«138145_j65584150610482_1_alg».proof.Proof.RefRunOps

noncomputable section

namespace Cert.ReferenceIdeal.RefRun

open Cert.ReferenceIdeal Cert.ReferenceIdeal.Gen Idealize.ShloMosaic Idealize.SL.Sem Idealize.ShloMosaic.StableHlo

variable {F : FTy → Type} [FloatOps F]

/-- One operation's written set is its result buffer, which is in the list. -/
local macro "written_in_list" : tactic =>
  `(tactic| (simp only [nullary_writes, unary_writes, binary_writes, ternary_writes, Finset.singleton_subset_iff, List.mem_toFinset]
             exact List.mem_map_of_mem (by decide)))

/-- Contents carried to a typed reference's buffer and back are the contents. -/
private theorem ofBuf_toBuf {T : BufTy} (x : TRef sig T) (v : T.Contents (Elt F)) : x.ofBuf (x.toBuf v) = v := by
  obtain ⟨r, h, _, _⟩ := x
  subst h
  rfl

/-- At the literal buffer `main_v7` carrying a value to the buffer's own type is the identity. -/
private theorem toBuf_main_v7 (p1 p2 p3) (v : (⟨S800000x128, .f32⟩ : BufTy).Contents (Elt F)) :
    ((TRef.of (T := ⟨S800000x128, .f32⟩) main_v7 p1 p2 p3).toBuf v : (⟨S800000x128, .f32⟩ : BufTy).Contents (Elt F)) = v := rfl
/-- At the literal buffer `main_v5` reading a value at the type written in the program is the identity. -/
private theorem ofBuf_main_v5 (p1 p2 p3) (u : (⟨S100000x128, .f32⟩ : BufTy).Contents (Elt F)) :
    ((TRef.of (T := ⟨S100000x128, .f32⟩) main_v5 p1 p2 p3).ofBuf u : (⟨S100000x128, .f32⟩ : BufTy).Contents (Elt F)) = u := rfl
/-- At the literal buffer `main_arg2` reading a value at the type written in the program is the identity. -/
private theorem ofBuf_main_arg2 (p1 p2 p3) (u : (⟨S800000, .i32⟩ : BufTy).Contents (Elt F)) :
    ((TRef.of (T := ⟨S800000, .i32⟩) main_arg2 p1 p2 p3).ofBuf u : (⟨S800000, .i32⟩ : BufTy).Contents (Elt F)) = u := rfl

/-- The buffers stretch 2's operations write, in order. -/
abbrev ops2_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v7, main_cst, main_v8, main_v9, main_v10, main_cst_0, main_v11, main_cst_1, main_v12, main_v13, main_v14, main_cst_2, main_v15, main_v16, main_v17, main_v18, main_v19]

theorem ops2_writes : (ops2 : List (HloOp τ sig (Elt F))).Forall fun op =>
    op.writes ⊆ (ops2_W.map (Proc.devRef (τ := τ) .tc)).toFinset := by
  simp only [List.Forall]
  exact ⟨by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list⟩

/-- A buffer stretch 2 does not write keeps its contents through it. -/
theorem keep2 (V : Valuation τ sig (Elt F)) (r : Ref sig .tc) (h : r ∉ ops2_W) :
    after ops2 V (Proc.devRef .tc r) = V (Proc.devRef .tc r) :=
  after_of_writes_sub ops2 V ops2_writes h

/-- What stretch 2 leaves at `main_v19`, from any contents `V` whose inputs are named. -/
theorem read2_main_v19 (V : Valuation τ sig (Elt F))
    (h0 : (⟨S100000x128, .f32⟩ : BufTy).Contents (Elt F)) (a2 : (⟨S800000, .i32⟩ : BufTy).Contents (Elt F)) (a3 : (⟨S800000, .i32⟩ : BufTy).Contents (Elt F))
    (e_h0 : V (Proc.devRef .tc main_v5) = h0)
    (e_a2 : V (Proc.devRef .tc main_arg2) = a2)
    (e_a3 : V (Proc.devRef .tc main_arg3) = a3) :
    after ops2 V (Proc.devRef .tc main_v19) = sAgg0 h0 a2 a3 := by
  subst e_h0 e_a2 e_a3
  after_results_simp
  simp only [ofBuf_toBuf]
  rw [toBuf_main_v7, ofBuf_main_v5, ofBuf_main_arg2]
  unfold sAgg0
  with_reducible rfl

end Cert.ReferenceIdeal.RefRun

end
-- ==== Proof.RefRunC3.lean ====
/- Stretch 3 of the reference's run (operations 49 … 71: the rest of the second layer through its clamp, and the third layer's self term): the buffers it writes, that every
   other buffer keeps its contents through it, and what it leaves at the buffers later stretches read, as the
   stage functions of the values it starts from. -/
import proofs.«138145_j65584150610482_1_alg».proof.Proof.RefRunDefs
import proofs.«138145_j65584150610482_1_alg».proof.Proof.RefRunOps

noncomputable section

namespace Cert.ReferenceIdeal.RefRun

open Cert.ReferenceIdeal Cert.ReferenceIdeal.Gen Idealize.ShloMosaic Idealize.SL.Sem Idealize.ShloMosaic.StableHlo

variable {F : FTy → Type} [FloatOps F]

/-- One operation's written set is its result buffer, which is in the list. -/
local macro "written_in_list" : tactic =>
  `(tactic| (simp only [nullary_writes, unary_writes, binary_writes, ternary_writes, Finset.singleton_subset_iff, List.mem_toFinset]
             exact List.mem_map_of_mem (by decide)))

/-- The buffers stretch 3's operations write, in order. -/
abbrev ops3_W : List (Ref sig .tc) := [main_v20, main_v21, main_v22, main_v23, main_v24, main_v25, main_v26, main_v27, main_cst_3, main_v28, main_v29, main_v30, main_v31, main_v32, main_v33, main_v34, main_v35, main_v36, main_v37, main_call2_cst, main_call2_v0, main_v38, main_v39]

theorem ops3_writes : (ops3 : List (HloOp τ sig (Elt F))).Forall fun op =>
    op.writes ⊆ (ops3_W.map (Proc.devRef (τ := τ) .tc)).toFinset := by
  simp only [List.Forall]
  exact ⟨by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list⟩

/-- A buffer stretch 3 does not write keeps its contents through it. -/
theorem keep3 (V : Valuation τ sig (Elt F)) (r : Ref sig .tc) (h : r ∉ ops3_W) :
    after ops3 V (Proc.devRef .tc r) = V (Proc.devRef .tc r) :=
  after_of_writes_sub ops3 V ops3_writes h

/-- What stretch 3 leaves at `main_v38`, from any contents `V` whose inputs are named. -/
theorem read3_main_v38 (V : Valuation τ sig (Elt F))
    (h0 : (⟨S100000x128, .f32⟩ : BufTy).Contents (Elt F)) (a6 : (⟨S128x256, .f32⟩ : BufTy).Contents (Elt F)) (agg0 : (⟨S100000x128, .f32⟩ : BufTy).Contents (Elt F)) (a7 : (⟨S128x256, .f32⟩ : BufTy).Contents (Elt F)) (a8 : (⟨S256, .f32⟩ : BufTy).Contents (Elt F)) (a9 : (⟨S256, .f32⟩ : BufTy).Contents (Elt F)) (a10 : (⟨S256, .f32⟩ : BufTy).Contents (Elt F)) (a11 : (⟨S256, .f32⟩ : BufTy).Contents (Elt F)) (a12 : (⟨S256, .f32⟩ : BufTy).Contents (Elt F))
    (e_p6 : V (Proc.devRef .tc main_v6) = Host.dotGeneral dot_S100000x128_S128x256_S100000x256_1_0_0_1_n_n none h0 a6)
    (e_agg0 : V (Proc.devRef .tc main_v19) = agg0)
    (e_a7 : V (Proc.devRef .tc main_arg7) = a7)
    (e_a8 : V (Proc.devRef .tc main_arg8) = a8)
    (e_a9 : V (Proc.devRef .tc main_arg9) = a9)
    (e_a10 : V (Proc.devRef .tc main_arg10) = a10)
    (e_a11 : V (Proc.devRef .tc main_arg11) = a11)
    (e_a12 : V (Proc.devRef .tc main_arg12) = a12) :
    after ops3 V (Proc.devRef .tc main_v38) = sH h0 agg0 a6 a7 a8 a9 a10 a11 a12 := by
  subst e_agg0 e_a7 e_a8 e_a9 e_a10 e_a11 e_a12
  after_results_simp
  simp only [e_p6]
  rfl

/-- What stretch 3 leaves at `main_v39`, from any contents `V` whose inputs are named. -/
theorem read3_main_v39 (V : Valuation τ sig (Elt F))
    (h0 : (⟨S100000x128, .f32⟩ : BufTy).Contents (Elt F)) (a6 : (⟨S128x256, .f32⟩ : BufTy).Contents (Elt F)) (agg0 : (⟨S100000x128, .f32⟩ : BufTy).Contents (Elt F)) (a7 : (⟨S128x256, .f32⟩ : BufTy).Contents (Elt F)) (a8 : (⟨S256, .f32⟩ : BufTy).Contents (Elt F)) (a9 : (⟨S256, .f32⟩ : BufTy).Contents (Elt F)) (a10 : (⟨S256, .f32⟩ : BufTy).Contents (Elt F)) (a11 : (⟨S256, .f32⟩ : BufTy).Contents (Elt F)) (a12 : (⟨S256, .f32⟩ : BufTy).Contents (Elt F)) (a13 : (⟨S256x128, .f32⟩ : BufTy).Contents (Elt F))
    (e_p6 : V (Proc.devRef .tc main_v6) = Host.dotGeneral dot_S100000x128_S128x256_S100000x256_1_0_0_1_n_n none h0 a6)
    (e_agg0 : V (Proc.devRef .tc main_v19) = agg0)
    (e_a7 : V (Proc.devRef .tc main_arg7) = a7)
    (e_a8 : V (Proc.devRef .tc main_arg8) = a8)
    (e_a9 : V (Proc.devRef .tc main_arg9) = a9)
    (e_a10 : V (Proc.devRef .tc main_arg10) = a10)
    (e_a11 : V (Proc.devRef .tc main_arg11) = a11)
    (e_a12 : V (Proc.devRef .tc main_arg12) = a12)
    (e_a13 : V (Proc.devRef .tc main_arg13) = a13) :
    after ops3 V (Proc.devRef .tc main_v39) = Host.dotGeneral dot_S100000x256_S256x128_S100000x128_1_0_0_1_n_n none (sH h0 agg0 a6 a7 a8 a9 a10 a11 a12) a13 := by
  subst e_agg0 e_a7 e_a8 e_a9 e_a10 e_a11 e_a12 e_a13
  after_results_simp
  simp only [e_p6]
  rfl

end Cert.ReferenceIdeal.RefRun

end
-- ==== Proof.RefRunC4.lean ====
/- Stretch 4 of the reference's run (operations 72 … 110: the second gather, sum, count and division): the buffers it writes, that every
   other buffer keeps its contents through it, and what it leaves at the buffers later stretches read, as the
   stage functions of the values it starts from. -/
import proofs.«138145_j65584150610482_1_alg».proof.Proof.RefRunDefs
import proofs.«138145_j65584150610482_1_alg».proof.Proof.RefRunOps

noncomputable section

namespace Cert.ReferenceIdeal.RefRun

open Cert.ReferenceIdeal Cert.ReferenceIdeal.Gen Idealize.ShloMosaic Idealize.SL.Sem Idealize.ShloMosaic.StableHlo

variable {F : FTy → Type} [FloatOps F]

/-- One operation's written set is its result buffer, which is in the list. -/
local macro "written_in_list" : tactic =>
  `(tactic| (simp only [nullary_writes, unary_writes, binary_writes, ternary_writes, Finset.singleton_subset_iff, List.mem_toFinset]
             exact List.mem_map_of_mem (by decide)))

/-- Contents carried to a typed reference's buffer and back are the contents. -/
private theorem ofBuf_toBuf {T : BufTy} (x : TRef sig T) (v : T.Contents (Elt F)) : x.ofBuf (x.toBuf v) = v := by
  obtain ⟨r, h, _, _⟩ := x
  subst h
  rfl

/-- At the literal buffer `main_v40` carrying a value to the buffer's own type is the identity. -/
private theorem toBuf_main_v40 (p1 p2 p3) (v : (⟨S800000x256, .f32⟩ : BufTy).Contents (Elt F)) :
    ((TRef.of (T := ⟨S800000x256, .f32⟩) main_v40 p1 p2 p3).toBuf v : (⟨S800000x256, .f32⟩ : BufTy).Contents (Elt F)) = v := rfl
/-- At the literal buffer `main_v38` reading a value at the type written in the program is the identity. -/
private theorem ofBuf_main_v38 (p1 p2 p3) (u : (⟨S100000x256, .f32⟩ : BufTy).Contents (Elt F)) :
    ((TRef.of (T := ⟨S100000x256, .f32⟩) main_v38 p1 p2 p3).ofBuf u : (⟨S100000x256, .f32⟩ : BufTy).Contents (Elt F)) = u := rfl
/-- At the literal buffer `main_arg2` reading a value at the type written in the program is the identity. -/
private theorem ofBuf_main_arg2 (p1 p2 p3) (u : (⟨S800000, .i32⟩ : BufTy).Contents (Elt F)) :
    ((TRef.of (T := ⟨S800000, .i32⟩) main_arg2 p1 p2 p3).ofBuf u : (⟨S800000, .i32⟩ : BufTy).Contents (Elt F)) = u := rfl

/-- The buffers stretch 4's operations write, in order. -/
abbrev ops4_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v40, main_cst_4, main_v41, main_v42, main_v43, main_cst_5, main_v44, main_cst_6, main_v45, main_v46, main_v47, main_cst_7, main_v48, main_v49, main_v50, main_v51, main_v52]

theorem ops4_writes : (ops4 : List (HloOp τ sig (Elt F))).Forall fun op =>
    op.writes ⊆ (ops4_W.map (Proc.devRef (τ := τ) .tc)).toFinset := by
  simp only [List.Forall]
  exact ⟨by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list⟩

/-- A buffer stretch 4 does not write keeps its contents through it. -/
theorem keep4 (V : Valuation τ sig (Elt F)) (r : Ref sig .tc) (h : r ∉ ops4_W) :
    after ops4 V (Proc.devRef .tc r) = V (Proc.devRef .tc r) :=
  after_of_writes_sub ops4 V ops4_writes h

/-- What stretch 4 leaves at `main_v52`, from any contents `V` whose inputs are named. -/
theorem read4_main_v52 (V : Valuation τ sig (Elt F))
    (h : (⟨S100000x256, .f32⟩ : BufTy).Contents (Elt F)) (a2 : (⟨S800000, .i32⟩ : BufTy).Contents (Elt F)) (a3 : (⟨S800000, .i32⟩ : BufTy).Contents (Elt F))
    (e_h : V (Proc.devRef .tc main_v38) = h)
    (e_a2 : V (Proc.devRef .tc main_arg2) = a2)
    (e_a3 : V (Proc.devRef .tc main_arg3) = a3) :
    after ops4 V (Proc.devRef .tc main_v52) = sAgg1 h a2 a3 := by
  subst e_h e_a2 e_a3
  after_results_simp
  simp only [ofBuf_toBuf]
  rw [toBuf_main_v40, ofBuf_main_v38, ofBuf_main_arg2]
  unfold sAgg1
  with_reducible rfl

end Cert.ReferenceIdeal.RefRun

end
-- ==== Proof.RefRunC5.lean ====
/- Stretch 5 of the reference's run (operations 111 … 132: the rest of the third layer through its clamp): the buffers it writes, that every
   other buffer keeps its contents through it, and what it leaves at the buffers later stretches read, as the
   stage functions of the values it starts from. -/
import proofs.«138145_j65584150610482_1_alg».proof.Proof.RefRunDefs
import proofs.«138145_j65584150610482_1_alg».proof.Proof.RefRunOps

noncomputable section

namespace Cert.ReferenceIdeal.RefRun

open Cert.ReferenceIdeal Cert.ReferenceIdeal.Gen Idealize.ShloMosaic Idealize.SL.Sem Idealize.ShloMosaic.StableHlo

variable {F : FTy → Type} [FloatOps F]

/-- One operation's written set is its result buffer, which is in the list. -/
local macro "written_in_list" : tactic =>
  `(tactic| (simp only [nullary_writes, unary_writes, binary_writes, ternary_writes, Finset.singleton_subset_iff, List.mem_toFinset]
             exact List.mem_map_of_mem (by decide)))

/-- The buffers stretch 5's operations write, in order. -/
abbrev ops5_W : List (Ref sig .tc) := [main_v53, main_v54, main_v55, main_v56, main_v57, main_v58, main_v59, main_v60, main_cst_8, main_v61, main_v62, main_v63, main_v64, main_v65, main_v66, main_v67, main_v68, main_v69, main_v70, main_call4_cst, main_call4_v0, main_v71]

theorem ops5_writes : (ops5 : List (HloOp τ sig (Elt F))).Forall fun op =>
    op.writes ⊆ (ops5_W.map (Proc.devRef (τ := τ) .tc)).toFinset := by
  simp only [List.Forall]
  exact ⟨by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list⟩

/-- A buffer stretch 5 does not write keeps its contents through it. -/
theorem keep5 (V : Valuation τ sig (Elt F)) (r : Ref sig .tc) (h : r ∉ ops5_W) :
    after ops5 V (Proc.devRef .tc r) = V (Proc.devRef .tc r) :=
  after_of_writes_sub ops5 V ops5_writes h

/-- What stretch 5 leaves at `main_v71`, from any contents `V` whose inputs are named. -/
theorem read5_main_v71 (V : Valuation τ sig (Elt F))
    (h : (⟨S100000x256, .f32⟩ : BufTy).Contents (Elt F)) (a13 : (⟨S256x128, .f32⟩ : BufTy).Contents (Elt F)) (agg1 : (⟨S100000x256, .f32⟩ : BufTy).Contents (Elt F)) (a14 : (⟨S256x128, .f32⟩ : BufTy).Contents (Elt F)) (a15 : (⟨S128, .f32⟩ : BufTy).Contents (Elt F)) (a16 : (⟨S128, .f32⟩ : BufTy).Contents (Elt F)) (a17 : (⟨S128, .f32⟩ : BufTy).Contents (Elt F)) (a18 : (⟨S128, .f32⟩ : BufTy).Contents (Elt F)) (a19 : (⟨S128, .f32⟩ : BufTy).Contents (Elt F))
    (e_p39 : V (Proc.devRef .tc main_v39) = Host.dotGeneral dot_S100000x256_S256x128_S100000x128_1_0_0_1_n_n none h a13)
    (e_agg1 : V (Proc.devRef .tc main_v52) = agg1)
    (e_a14 : V (Proc.devRef .tc main_arg14) = a14)
    (e_a15 : V (Proc.devRef .tc main_arg15) = a15)
    (e_a16 : V (Proc.devRef .tc main_arg16) = a16)
    (e_a17 : V (Proc.devRef .tc main_arg17) = a17)
    (e_a18 : V (Proc.devRef .tc main_arg18) = a18)
    (e_a19 : V (Proc.devRef .tc main_arg19) = a19) :
    after ops5 V (Proc.devRef .tc main_v71) = sH1 h agg1 a13 a14 a15 a16 a17 a18 a19 := by
  subst e_agg1 e_a14 e_a15 e_a16 e_a17 e_a18 e_a19
  after_results_simp
  simp only [e_p39]
  rfl

end Cert.ReferenceIdeal.RefRun

end
-- ==== Proof.RefRunC6.lean ====
/- Stretch 6 of the reference's run (operations 133 … 151: the head: three dense layers, the first two clamped): the buffers it writes, that every
   other buffer keeps its contents through it, and what it leaves at the buffers later stretches read, as the
   stage functions of the values it starts from. -/
import proofs.«138145_j65584150610482_1_alg».proof.Proof.RefRunDefs
import proofs.«138145_j65584150610482_1_alg».proof.Proof.RefRunOps

noncomputable section

namespace Cert.ReferenceIdeal.RefRun

open Cert.ReferenceIdeal Cert.ReferenceIdeal.Gen Idealize.ShloMosaic Idealize.SL.Sem Idealize.ShloMosaic.StableHlo

variable {F : FTy → Type} [FloatOps F]

/-- One operation's written set is its result buffer, which is in the list. -/
local macro "written_in_list" : tactic =>
  `(tactic| (simp only [nullary_writes, unary_writes, binary_writes, ternary_writes, Finset.singleton_subset_iff, List.mem_toFinset]
             exact List.mem_map_of_mem (by decide)))

/-- The buffers stretch 6's operations write, in order. -/
abbrev ops6_W : List (Ref sig .tc) := [main_v72, main_v73, main_v74, main_v75, main_v76, main_call5_cst, main_call5_v0, main_v77, main_v78, main_v79, main_v80, main_v81, main_call6_cst, main_call6_v0, main_v82, main_v83, main_v84, main_v85, main_v86]

theorem ops6_writes : (ops6 : List (HloOp τ sig (Elt F))).Forall fun op =>
    op.writes ⊆ (ops6_W.map (Proc.devRef (τ := τ) .tc)).toFinset := by
  simp only [List.Forall]
  exact ⟨by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list,
    by written_in_list⟩

/-- A buffer stretch 6 does not write keeps its contents through it. -/
theorem keep6 (V : Valuation τ sig (Elt F)) (r : Ref sig .tc) (h : r ∉ ops6_W) :
    after ops6 V (Proc.devRef .tc r) = V (Proc.devRef .tc r) :=
  after_of_writes_sub ops6 V ops6_writes h

/-- What stretch 6 leaves at `main_v86`, from any contents `V` whose inputs are named. -/
theorem read6_main_v86 (V : Valuation τ sig (Elt F))
    (h0 : (⟨S100000x128, .f32⟩ : BufTy).Contents (Elt F)) (h1 : (⟨S100000x128, .f32⟩ : BufTy).Contents (Elt F)) (a20 : (⟨S256x128, .f32⟩ : BufTy).Contents (Elt F)) (a21 : (⟨S128, .f32⟩ : BufTy).Contents (Elt F)) (a22 : (⟨S128x64, .f32⟩ : BufTy).Contents (Elt F)) (a23 : (⟨S64, .f32⟩ : BufTy).Contents (Elt F)) (a24 : (⟨S64x32, .f32⟩ : BufTy).Contents (Elt F)) (a25 : (⟨S32, .f32⟩ : BufTy).Contents (Elt F))
    (e_h0 : V (Proc.devRef .tc main_v5) = h0)
    (e_h1 : V (Proc.devRef .tc main_v71) = h1)
    (e_a20 : V (Proc.devRef .tc main_arg20) = a20)
    (e_a21 : V (Proc.devRef .tc main_arg21) = a21)
    (e_a22 : V (Proc.devRef .tc main_arg22) = a22)
    (e_a23 : V (Proc.devRef .tc main_arg23) = a23)
    (e_a24 : V (Proc.devRef .tc main_arg24) = a24)
    (e_a25 : V (Proc.devRef .tc main_arg25) = a25) :
    after ops6 V (Proc.devRef .tc main_v86) = sOut h0 h1 a20 a21 a22 a23 a24 a25 := by
  subst e_h0 e_h1 e_a20 e_a21 e_a22 e_a23 e_a24 e_a25
  after_results_simp
  rfl

end Cert.ReferenceIdeal.RefRun

end
-- ==== Proof.RefRun.lean ====
/- The reference's run, assembled: the fold of the 151 operations is the six stretches' folds one inside the other;
   reading it at the result buffer stretch by stretch gives the stage functions composed as `refOut`, and no stretch
   writes an argument buffer. With the run of the straight line this is the statement the certificate takes: every
   weakly fair execution terminates with the result array `refOut` of the argument arrays, the arguments unchanged. -/
import proofs.«138145_j65584150610482_1_alg».proof.Proof.RefRunMain
import proofs.«138145_j65584150610482_1_alg».proof.Proof.RefRunC1
import proofs.«138145_j65584150610482_1_alg».proof.Proof.RefRunC2
import proofs.«138145_j65584150610482_1_alg».proof.Proof.RefRunC3
import proofs.«138145_j65584150610482_1_alg».proof.Proof.RefRunC4
import proofs.«138145_j65584150610482_1_alg».proof.Proof.RefRunC5
import proofs.«138145_j65584150610482_1_alg».proof.Proof.RefRunC6

noncomputable section

namespace Cert.ReferenceIdeal.RefRun

open Cert.ReferenceIdeal Cert.ReferenceIdeal.Gen Idealize.ShloMosaic Idealize.SL.Sem Idealize.ShloMosaic.StableHlo

variable {F : FTy → Type} [FloatOps F]

/-- The fold of two lines one after the other is the second's fold over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The whole fold, stretch by stretch. -/
theorem after_ops (V0 : Valuation τ sig (Elt F)) :
    after ops V0 = after ops6 (after ops5 (after ops4 (after ops3 (after ops2 (after ops1 V0))))) := by
  simp only [ops, after_app]

/-- No stretch writes an argument buffer (or any buffer outside the six written lists). -/
theorem kept (V0 : Valuation τ sig (Elt F)) (r : Ref sig .tc) (h1 : r ∉ ops1_W) (h2 : r ∉ ops2_W) (h3 : r ∉ ops3_W)
    (h4 : r ∉ ops4_W) (h5 : r ∉ ops5_W) (h6 : r ∉ ops6_W) :
    after ops V0 (Proc.devRef .tc r) = V0 (Proc.devRef .tc r) := by
  rw [after_ops, keep6 _ r h6, keep5 _ r h5, keep4 _ r h4, keep3 _ r h3, keep2 _ r h2, keep1 _ r h1]

/-- The fold at the result buffer is `refOut` of the launch contents of the argument buffers: each stretch read in
    terms of the values the earlier ones left, which the stretches between keep. -/
theorem read_ops (V0 : Valuation τ sig (Elt F)) :
    after ops V0 (Proc.devRef .tc main_v86)
      = refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) := by
  rw [after_ops]
  -- stretch 1, from the launch contents
  have h5_1 := read1_main_v5 V0 _ _ _ _ rfl rfl rfl rfl
  have h6_1 := read1_main_v6 V0 _ _ _ _ _ rfl rfl rfl rfl rfl
  have k1 : ∀ r : Ref sig .tc, r ∉ ops1_W → after ops1 V0 (Proc.devRef .tc r) = V0 (Proc.devRef .tc r) :=
    fun r h => keep1 V0 r h
  generalize after ops1 V0 = W1 at *
  -- stretch 2
  have h19_2 := read2_main_v19 W1 _ _ _ h5_1 (k1 main_arg2 (by decide)) (k1 main_arg3 (by decide))
  have h5_2 := (keep2 W1 main_v5 (by decide)).trans h5_1
  have h6_2 := (keep2 W1 main_v6 (by decide)).trans h6_1
  have k2 : ∀ r : Ref sig .tc, r ∉ ops1_W → r ∉ ops2_W → after ops2 W1 (Proc.devRef .tc r) = V0 (Proc.devRef .tc r) :=
    fun r h1 h2 => (keep2 W1 r h2).trans (k1 r h1)
  generalize after ops2 W1 = W2 at *
  -- stretch 3
  have h38_3 := read3_main_v38 W2 _ _ _ _ _ _ _ _ _ h6_2 h19_2 (k2 main_arg7 (by decide) (by decide)) (k2 main_arg8 (by decide) (by decide)) (k2 main_arg9 (by decide) (by decide)) (k2 main_arg10 (by decide) (by decide)) (k2 main_arg11 (by decide) (by decide)) (k2 main_arg12 (by decide) (by decide))
  have h39_3 := read3_main_v39 W2 _ _ _ _ _ _ _ _ _ _ h6_2 h19_2 (k2 main_arg7 (by decide) (by decide)) (k2 main_arg8 (by decide) (by decide)) (k2 main_arg9 (by decide) (by decide)) (k2 main_arg10 (by decide) (by decide)) (k2 main_arg11 (by decide) (by decide)) (k2 main_arg12 (by decide) (by decide)) (k2 main_arg13 (by decide) (by decide))
  have h5_3 := (keep3 W2 main_v5 (by decide)).trans h5_2
  have k3 : ∀ r : Ref sig .tc, r ∉ ops1_W → r ∉ ops2_W → r ∉ ops3_W →
      after ops3 W2 (Proc.devRef .tc r) = V0 (Proc.devRef .tc r) :=
    fun r h1 h2 h3 => (keep3 W2 r h3).trans (k2 r h1 h2)
  generalize after ops3 W2 = W3 at *
  -- stretch 4
  have h52_4 := read4_main_v52 W3 _ _ _ h38_3 (k3 main_arg2 (by decide) (by decide) (by decide)) (k3 main_arg3 (by decide) (by decide) (by decide))
  have h39_4 := (keep4 W3 main_v39 (by decide)).trans h39_3
  have h5_4 := (keep4 W3 main_v5 (by decide)).trans h5_3
  have k4 : ∀ r : Ref sig .tc, r ∉ ops1_W → r ∉ ops2_W → r ∉ ops3_W → r ∉ ops4_W →
      after ops4 W3 (Proc.devRef .tc r) = V0 (Proc.devRef .tc r) :=
    fun r h1 h2 h3 h4 => (keep4 W3 r h4).trans (k3 r h1 h2 h3)
  generalize after ops4 W3 = W4 at *
  -- stretch 5
  have h71_5 := read5_main_v71 W4 _ _ _ _ _ _ _ _ _ h39_4 h52_4 (k4 main_arg14 (by decide) (by decide) (by decide) (by decide)) (k4 main_arg15 (by decide) (by decide) (by decide) (by decide)) (k4 main_arg16 (by decide) (by decide) (by decide) (by decide)) (k4 main_arg17 (by decide) (by decide) (by decide) (by decide)) (k4 main_arg18 (by decide) (by decide) (by decide) (by decide)) (k4 main_arg19 (by decide) (by decide) (by decide) (by decide))
  have h5_5 := (keep5 W4 main_v5 (by decide)).trans h5_4
  have k5 : ∀ r : Ref sig .tc, r ∉ ops1_W → r ∉ ops2_W → r ∉ ops3_W → r ∉ ops4_W → r ∉ ops5_W →
      after ops5 W4 (Proc.devRef .tc r) = V0 (Proc.devRef .tc r) :=
    fun r h1 h2 h3 h4 h5 => (keep5 W4 r h5).trans (k4 r h1 h2 h3 h4)
  generalize after ops5 W4 = W5 at *
  -- stretch 6
  exact read6_main_v86 W5 _ _ _ _ _ _ _ _ h5_5 h71_5 (k5 main_arg20 (by decide) (by decide) (by decide) (by decide) (by decide)) (k5 main_arg21 (by decide) (by decide) (by decide) (by decide) (by decide)) (k5 main_arg22 (by decide) (by decide) (by decide) (by decide) (by decide)) (k5 main_arg23 (by decide) (by decide) (by decide) (by decide) (by decide)) (k5 main_arg24 (by decide) (by decide) (by decide) (by decide) (by decide)) (k5 main_arg25 (by decide) (by decide) (by decide) (by decide) (by decide))

/-- On every device, for any float values, from any memory with zero counters: every weakly fair execution of @main
    terminates with the result array `refOut` of the argument arrays and the argument arrays unchanged. -/
theorem runF (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v86) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run (defs (F := F)) _ _).mono (fun _ h c => ⟨(h c main_v86).trans (read_ops (launchContents m c)),
      (h c main_arg0).trans (kept (launchContents m c) main_arg0 (by decide) (by decide) (by decide) (by decide) (by decide) (by decide)),
      (h c main_arg1).trans (kept (launchContents m c) main_arg1 (by decide) (by decide) (by decide) (by decide) (by decide) (by decide)),
      (h c main_arg2).trans (kept (launchContents m c) main_arg2 (by decide) (by decide) (by decide) (by decide) (by decide) (by decide)),
      (h c main_arg3).trans (kept (launchContents m c) main_arg3 (by decide) (by decide) (by decide) (by decide) (by decide) (by decide)),
      (h c main_arg4).trans (kept (launchContents m c) main_arg4 (by decide) (by decide) (by decide) (by decide) (by decide) (by decide)),
      (h c main_arg5).trans (kept (launchContents m c) main_arg5 (by decide) (by decide) (by decide) (by decide) (by decide) (by decide)),
      (h c main_arg6).trans (kept (launchContents m c) main_arg6 (by decide) (by decide) (by decide) (by decide) (by decide) (by decide)),
      (h c main_arg7).trans (kept (launchContents m c) main_arg7 (by decide) (by decide) (by decide) (by decide) (by decide) (by decide)),
      (h c main_arg8).trans (kept (launchContents m c) main_arg8 (by decide) (by decide) (by decide) (by decide) (by decide) (by decide)),
      (h c main_arg9).trans (kept (launchContents m c) main_arg9 (by decide) (by decide) (by decide) (by decide) (by decide) (by decide)),
      (h c main_arg10).trans (kept (launchContents m c) main_arg10 (by decide) (by decide) (by decide) (by decide) (by decide) (by decide)),
      (h c main_arg11).trans (kept (launchContents m c) main_arg11 (by decide) (by decide) (by decide) (by decide) (by decide) (by decide)),
      (h c main_arg12).trans (kept (launchContents m c) main_arg12 (by decide) (by decide) (by decide) (by decide) (by decide) (by decide)),
      (h c main_arg13).trans (kept (launchContents m c) main_arg13 (by decide) (by decide) (by decide) (by decide) (by decide) (by decide)),
      (h c main_arg14).trans (kept (launchContents m c) main_arg14 (by decide) (by decide) (by decide) (by decide) (by decide) (by decide)),
      (h c main_arg15).trans (kept (launchContents m c) main_arg15 (by decide) (by decide) (by decide) (by decide) (by decide) (by decide)),
      (h c main_arg16).trans (kept (launchContents m c) main_arg16 (by decide) (by decide) (by decide) (by decide) (by decide) (by decide)),
      (h c main_arg17).trans (kept (launchContents m c) main_arg17 (by decide) (by decide) (by decide) (by decide) (by decide) (by decide)),
      (h c main_arg18).trans (kept (launchContents m c) main_arg18 (by decide) (by decide) (by decide) (by decide) (by decide) (by decide)),
      (h c main_arg19).trans (kept (launchContents m c) main_arg19 (by decide) (by decide) (by decide) (by decide) (by decide) (by decide)),
      (h c main_arg20).trans (kept (launchContents m c) main_arg20 (by decide) (by decide) (by decide) (by decide) (by decide) (by decide)),
      (h c main_arg21).trans (kept (launchContents m c) main_arg21 (by decide) (by decide) (by decide) (by decide) (by decide) (by decide)),
      (h c main_arg22).trans (kept (launchContents m c) main_arg22 (by decide) (by decide) (by decide) (by decide) (by decide) (by decide)),
      (h c main_arg23).trans (kept (launchContents m c) main_arg23 (by decide) (by decide) (by decide) (by decide) (by decide) (by decide)),
      (h c main_arg24).trans (kept (launchContents m c) main_arg24 (by decide) (by decide) (by decide) (by decide) (by decide) (by decide)),
      (h c main_arg25).trans (kept (launchContents m c) main_arg25 (by decide) (by decide) (by decide) (by decide) (by decide) (by decide))⟩)
    (run_fold m ρ)

/-- The same at the ideal instance, as the certificate's claims state it. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v86) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  runF m ρ

end Cert.ReferenceIdeal.RefRun

end
-- ==== Proof.lean ====
/-
  A three-layer graph network on 100000 nodes and 800000 edges, computed two ways: the same function of the arguments.

  Both programs compute, for node features `a0 | a1`, edge lists `a2` (sources) and `a3` (targets), and weights:
    `h0  = relu ([a0 | a1] · a4 + a5)`                                             (the encoder),
    `h   = relu (((h0 · a6 + mean h0 · a7 + a8) − a11) · scale a9 a12 + a10)`        (a neighbourhood layer, normalised),
    `h1  = relu (((h · a13 + mean h · a14 + a15) − a18) · scale a16 a19 + a17)`      (a second one),
    `out = relu (relu ([h0 | h1] · a20 + a21) · a22 + a23) · a24 + a25`              (the read-out),
  where `mean x` gathers the rows of `x` at the edge sources, adds them into the rows named by the edge targets and divides row
  `p` by `max (deg p) 1`, `deg p` the number of edges into `p`.
  The reference does this with whole-array host operations.  The kernel program runs the dense parts as three grids of 20
  blocks of 5000 rows (every output row depends only on the same row of the tall operands, so a layer of a block of rows is
  that block of rows of the layer of the whole arrays, and the blocks tile the rows), leaves the gathers and sums on the host,
  multiplies by `1 / max (deg) 1` where the reference divides by `max (deg) 1` (the same number for a divisor that is never
  zero, whatever the dividend), and spells the normalisation's scale `g · rsqrt (v + ε)` where the reference has
  `g / sqrt (v + ε)`: for a variance `v ≥ 0` and `ε > 0` the root's argument is a positive real and both are `g` times the
  reciprocal of its square root.  That last step is the only use of the precondition (variances finite and nonnegative).
  A change of float format is the identity on the extended reals, and no sum is regrouped anywhere.
  The ideal pass rewrote nothing in the kernel program, so the idealization claim has no conjunct.
-/
import proofs.«138145_j65584150610482_1_alg».proof.Defs
import proofs.«138145_j65584150610482_1_alg».proof.Proof.Gen.Kernel
import proofs.«138145_j65584150610482_1_alg».proof.Proof.Gen.Kernel.Skeleton
import proofs.«138145_j65584150610482_1_alg».proof.Proof.Gen.Kernel.Launch
import proofs.«138145_j65584150610482_1_alg».proof.Proof.Gen.Kernel.Points
import proofs.«138145_j65584150610482_1_alg».proof.Proof.Gen.Kernel.Frame
import proofs.«138145_j65584150610482_1_alg».proof.Proof.Gen.KernelIdeal
import proofs.«138145_j65584150610482_1_alg».proof.Proof.Gen.KernelIdeal.Skeleton
import proofs.«138145_j65584150610482_1_alg».proof.Proof.Gen.KernelIdeal.Launch
import proofs.«138145_j65584150610482_1_alg».proof.Proof.Gen.KernelIdeal.Points
import proofs.«138145_j65584150610482_1_alg».proof.Proof.Gen.KernelIdeal.Frame
import proofs.«138145_j65584150610482_1_alg».proof.Proof.Gen.ReferenceIdeal
import proofs.«138145_j65584150610482_1_alg».proof.Proof.Gen.Pre_finite_inputs
import proofs.«138145_j65584150610482_1_alg».proof.Proof.KerRun
import proofs.«138145_j65584150610482_1_alg».proof.Proof.KerValue
import proofs.«138145_j65584150610482_1_alg».proof.Proof.RefRun
import Idealize.ShloMosaic.Adequacy
import Idealize.ShloMosaic.Init

noncomputable section

namespace Cert.Proof

open Idealize.ShloMosaic Idealize.SL.Sem

/-- From memories agreeing on the arguments both programs run to the end, the arguments unchanged, and the kernel program's
    result array is the reference's: the reference's function of the arguments (its run), which the kernel program's result
    equals under the precondition (the value equality), the arguments rewritten by their agreement. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W8 m ρ c (Proc.devRef .tc Cert.KernelIdeal.main_v37), Cert.KernelIdeal.KerRun.run m ρ, ?_⟩
  refine (θ_run Cert.ReferenceIdeal.defs _ _).mono (fun _ h c => ⟨(h c).1.trans ?_, (h c).2⟩) (Cert.ReferenceIdeal.RefRun.run m' ρ')
  obtain ⟨e0, e1, e2, e3, e4, e5, e6, e7, e8, e9, e10, e11, e12, e13, e14, e15, e16, e17, e18, e19, e20, e21, e22, e23, e24, e25⟩ := hagree c
  rw [e0, e1, e2, e3, e4, e5, e6, e7, e8, e9, e10, e11, e12, e13, e14, e15, e16, e17, e18, e19, e20, e21, e22, e23, e24, e25]
  letI := Cert.Pre_finite_inputs.Gen.facts
  exact (Cert.KernelIdeal.KerValue.value_eq m ρ c hpre).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.RefRun.run m ρ),
    trivial,
    algebraic⟩

end Cert.Proof

end
